-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x3200000 : Shape := ⟨2, ![2, 3200000]⟩
abbrev S100000 : Shape := ⟨1, ![100000]⟩
abbrev S2048x32 : Shape := ⟨2, ![2048, 32]⟩
abbrev S9x64 : Shape := ⟨2, ![9, 64]⟩
abbrev S64 : Shape := ⟨1, ![64]⟩
abbrev S64x64 : Shape := ⟨2, ![64, 64]⟩
abbrev S96x128 : Shape := ⟨2, ![96, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S32x1 1) (main_c_39 : IVec S_ 1) : IVec S_ 1 :=
  let main_v102 : IVec S_ 1 := (fun x v => Host.reduce IntOp.andi x v reducesTo_S32x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S32 .f32) (main_arg21 : FVec F S32 .f32) (main_arg22 : FVec F S32x1 .f32) (main_arg23 : FVec F S1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x1 .f32 := Host.absf main_arg22
  let main_cst_38 : FVec F S_ .f32 := constant S_ .f32 0x7F800000#32
  let main_v100 : FVec F S32x1 .f32 := broadcastInDim S32x1 ![] bcast_S_S32x1 main_cst_38
  let main_v101 : IVec S32x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32x1 .f32) (main_arg23 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x32 .f32 := Host.absf main_arg18
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128x64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32x1 .f32) (main_arg23 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S96x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32x1 .f32) (main_arg23 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S96x128 .f32 := Host.absf main_arg10
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S96x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32x1 .f32) (main_arg23 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x9 .f32) (main_arg1 : IVec S2x3200000 32) (main_arg2 : IVec S100000 32) (main_arg3 : FVec F S2048x32 .f32) (main_arg4 : FVec F S9x64 .f32) (main_arg5 : FVec F S64 .f32) (main_arg6 : FVec F S64x64 .f32) (main_arg7 : FVec F S64 .f32) (main_arg8 : FVec F S64x64 .f32) (main_arg9 : FVec F S64 .f32) (main_arg10 : FVec F S96x128 .f32) (main_arg11 : FVec F S128 .f32) (main_arg12 : FVec F S128 .f32) (main_arg13 : FVec F S128 .f32) (main_arg14 : FVec F S128x64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32x1 .f32) (main_arg23 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S2048x32 .f32 := Host.absf main_arg3
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S9x64 .f32 := Host.absf main_arg4
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x9 : Shape := ⟨2, ![100000, 9]⟩
abbrev S2x3200000 : Shape := ⟨2, ![2, 3200000]⟩
abbrev S100000 : Shape := ⟨1, ![100000]⟩
abbrev S2048x32 : Shape := ⟨2, ![2048, 32]⟩
abbrev S9x64 : Shape := ⟨2, ![9, 64]⟩
abbrev S64 : Shape := ⟨1, ![64]⟩
abbrev S64x64 : Shape := ⟨2, ![64, 64]⟩
abbrev S96x128 : Shape := ⟨2, ![96, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x9 : Shape := ⟨2, ![10000, 9]⟩
abbrev S10000x64 : Shape := ⟨2, ![10000, 64]⟩
abbrev S3300000x64 : Shape := ⟨2, ![3300000, 64]⟩
abbrev S1x64 : Shape := ⟨2, ![1, 64]⟩
abbrev S2048 : Shape := ⟨1, ![2048]⟩
abbrev S100000x1 : Shape := ⟨2, ![100000, 1]⟩
abbrev S2048x64 : Shape := ⟨2, ![2048, 64]⟩
abbrev S2048x1 : Shape := ⟨2, ![2048, 1]⟩
abbrev S2048x96 : Shape := ⟨2, ![2048, 96]⟩
abbrev S1x128 : Shape := ⟨2, ![1, 128]⟩
abbrev S1x32 : Shape := ⟨2, ![1, 32]⟩
abbrev S1x1 : Shape := ⟨2, ![1, 1]⟩
abbrev S2048x128 : Shape := ⟨2, ![2048, 128]⟩

abbrev nBuf : Space → Nat
  | .hbm => 146
  | .vmem => 38
  | .smem => 0
  | _ => 0

abbrev hbmTy0_0 (i : Nat) : BufTy := match i % 128 with
  | 0 => ⟨S100000x9, .f32⟩
  | 1 => ⟨S2x3200000, .i32⟩
  | 2 => ⟨S100000, .i32⟩
  | 3 => ⟨S2048x32, .f32⟩
  | 4 => ⟨S9x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S96x128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64x32, .f32⟩
  | 19 => ⟨S32, .f32⟩
  | 20 => ⟨S32, .f32⟩
  | 21 => ⟨S32, .f32⟩
  | 22 => ⟨S32x1, .f32⟩
  | 23 => ⟨S1, .f32⟩
  | 24 => ⟨S100000, .i32⟩
  | 25 => ⟨S1x3200000, .i32⟩
  | 26 => ⟨S3200000, .i32⟩
  | 27 => ⟨S3300000, .i32⟩
  | 28 => ⟨S1x3200000, .i32⟩
  | 29 => ⟨S3200000, .i32⟩
  | 30 => ⟨S3300000, .i32⟩
  | 31 => ⟨S_, .f32⟩
  | 32 => ⟨S3300000, .f32⟩
  | 33 => ⟨S_, .f32⟩
  | 34 => ⟨S100000, .f32⟩
  | 35 => ⟨S3300000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S3300000x1, .f32⟩
  | 65 => ⟨S100000x64, .f32⟩
  | 66 => ⟨S_, .i32⟩
  | 67 => ⟨S3300000, .i32⟩
  | 68 => ⟨S3300000, .i1⟩
  | 69 => ⟨S_, .i32⟩
  | 70 => ⟨S3300000, .i32⟩
  | 71 => ⟨S3300000, .i32⟩
  | 72 => ⟨S3300000, .i32⟩
  | 73 => ⟨S3300000x1, .i32⟩
  | 74 => ⟨S3300000x64, .f32⟩
  | 75 => ⟨S3300000x64, .f32⟩
  | 76 => ⟨S3300000x64, .f32⟩
  | 77 => ⟨S_, .f32⟩
  | 78 => ⟨S100000x64, .f32⟩
  | 79 => ⟨S3300000x1, .i32⟩
  | 80 => ⟨S100000x64, .f32⟩
  | 81 => ⟨S1x64, .f32⟩
  | 82 => ⟨S100000x64, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000x64, .f32⟩
  | 92 => ⟨S3300000x64, .f32⟩
  | 93 => ⟨S3300000x64, .f32⟩
  | 94 => ⟨S_, .f32⟩
  | 95 => ⟨S100000x64, .f32⟩
  | 96 => ⟨S3300000x1, .i32⟩
  | 97 => ⟨S100000x64, .f32⟩
  | 98 => ⟨S1x64, .f32⟩
  | 99 => ⟨S100000x64, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x64, .f32⟩
  | 109 => ⟨S3300000x64, .f32⟩
  | 110 => ⟨S3300000x64, .f32⟩
  | 111 => ⟨S_, .f32⟩
  | 112 => ⟨S100000x64, .f32⟩
  | 113 => ⟨S3300000x1, .i32⟩
  | 114 => ⟨S100000x64, .f32⟩
  | 115 => ⟨S1x64, .f32⟩
  | 116 => ⟨S100000x64, .f32⟩
  | 117 => ⟨S_, .f32⟩
  | 118 => ⟨S100000, .f32⟩
  | 119 => ⟨S_, .f32⟩
  | 120 => ⟨S2048, .f32⟩
  | 121 => ⟨S100000x1, .i32⟩
  | 122 => ⟨S2048, .f32⟩
  | 123 => ⟨S_, .f32⟩
  | 124 => ⟨S2048x64, .f32⟩
  | 125 => ⟨S100000x1, .i32⟩
  | 126 => ⟨S2048x64, .f32⟩
  | 127 => ⟨S_, .f32⟩
  | _ => ⟨S100000x9, .f32⟩

abbrev hbmTy0_1 (i : Nat) : BufTy := match i % 128 with
  | 0 => ⟨S2048, .f32⟩
  | 1 => ⟨S2048, .f32⟩
  | 2 => ⟨S2048x1, .f32⟩
  | 3 => ⟨S2048x64, .f32⟩
  | 4 => ⟨S2048x64, .f32⟩
  | 5 => ⟨S2048x96, .f32⟩
  | 6 => ⟨S1x128, .f32⟩
  | 7 => ⟨S1x128, .f32⟩
  | 8 => ⟨S1x128, .f32⟩
  | 9 => ⟨S1x64, .f32⟩
  | 10 => ⟨S1x64, .f32⟩
  | 11 => ⟨S1x64, .f32⟩
  | 12 => ⟨S1x32, .f32⟩
  | 13 => ⟨S1x32, .f32⟩
  | 14 => ⟨S1x32, .f32⟩
  | 15 => ⟨S1x1, .f32⟩
  | 16 => ⟨S2048x1, .f32⟩
  | 17 => ⟨S2048, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | .local _ .vmem, ⟨0, _⟩ => ⟨S10000x9, .f32⟩
  | .local _ .vmem, ⟨1, _⟩ => ⟨S10000x9, .f32⟩
  | .local _ .vmem, ⟨2, _⟩ => ⟨S9x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S2048x96, .f32⟩
  | .local _ .vmem, ⟨23, _⟩ => ⟨S96x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S128x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S64x32, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S32x1, .f32⟩
  | .local _ .vmem, ⟨36, _⟩ => ⟨S1x1, .f32⟩
  | .local _ .vmem, ⟨37, _⟩ => ⟨S2048x1, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v14 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_9 : Ref sig .tc := ⟨.hbm, 83, rfl⟩
abbrev main_v46 : Ref sig .tc := ⟨.hbm, 84, rfl⟩
abbrev main_v47 : Ref sig .tc := ⟨.hbm, 85, rfl⟩
abbrev main_c_10 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_11 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_12 : Ref sig .tc := ⟨.hbm, 100, rfl⟩
abbrev main_v60 : Ref sig .tc := ⟨.hbm, 101, rfl⟩
abbrev main_v61 : Ref sig .tc := ⟨.hbm, 102, rfl⟩
abbrev main_c_13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_14 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_15 : Ref sig .tc := ⟨.hbm, 117, rfl⟩
abbrev main_v74 : Ref sig .tc := ⟨.hbm, 118, rfl⟩
abbrev main_cst_16 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_17 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_18 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg7_0 : Ref sig .tc := ⟨.vmem, 29, rfl⟩
abbrev cc4_stg8_0 : Ref sig .tc := ⟨.vmem, 30, rfl⟩
abbrev cc4_stg9_0 : Ref sig .tc := ⟨.vmem, 31, rfl⟩
abbrev cc4_stg10_0 : Ref sig .tc := ⟨.vmem, 32, rfl⟩
abbrev cc4_stg11_0 : Ref sig .tc := ⟨.vmem, 33, rfl⟩
abbrev cc4_stg12_0 : Ref sig .tc := ⟨.vmem, 34, rfl⟩
abbrev cc4_stg13_0 : Ref sig .tc := ⟨.vmem, 35, rfl⟩
abbrev cc4_stg14_0 : Ref sig .tc := ⟨.vmem, 36, rfl⟩
abbrev cc4_stg15_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27
abbrev cc4_sem6_0 : DmaSem sig := 28
abbrev cc4_sem7_0 : DmaSem sig := 29
abbrev cc4_sem8_0 : DmaSem sig := 30
abbrev cc4_sem9_0 : DmaSem sig := 31
abbrev cc4_sem10_0 : DmaSem sig := 32
abbrev cc4_sem11_0 : DmaSem sig := 33
abbrev cc4_sem12_0 : DmaSem sig := 34
abbrev cc4_sem13_0 : DmaSem sig := 35
abbrev cc4_sem14_0 : DmaSem sig := 36
abbrev cc4_sem15_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x96 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S96x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x32 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x32 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S32x1 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S2048x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x9_S10000x9_0_0 : ∀ a, (![0, 0] : Fin 2 → Nat) a + S10000x9.size a ≤ S10000x9.size a
  h_S10000x9 : 0 < S10000x9.numel
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S2048 : S_.BroadcastsInDim S2048 (![] : Fin 0 → Fin S2048.rank)
  bcast_S100000_S100000x1_0 : S100000.BroadcastsInDim S100000x1 (![0] : Fin 1 → Fin S100000x1.rank)
  bcast_S_S2048x64 : S_.BroadcastsInDim S2048x64 (![] : Fin 0 → Fin S2048x64.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  concatenates_S2048x64_S2048x32_S2048x96_d1 : Shape.Concatenates [S2048x64, S2048x32] S2048x96 1
  shapeCasts_S128_S1x128 : S128.ShapeCasts S1x128
  shapeCasts_S32_S1x32 : S32.ShapeCasts S1x32
  shapeCasts_S1_S1x1 : S1.ShapeCasts S1x1
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S128 : S2048x128.Reduces [0] S128
  inb_S128x64_S128x64_0_0 : ∀ a, (![0, 0] : Fin 2 → Nat) a + S128x64.size a ≤ S128x64.size a
  h_S128x64 : 0 < S128x64.numel
  broadcasts_S1x64_S2048x64 : S1x64.Broadcasts S2048x64
  reduces_S2048x64_S64 : S2048x64.Reduces [0] S64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x32_S32 : S2048x32.Reduces [0] S32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x9_S9x64_S10000x64_1_0_0_1_n_n_wf : DotDims.WF S10000x9 S9x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  scatter_S2048_S100000x1_S100000_n_0_0_1_wf : ScatterDims.WF S2048 S100000x1 S100000 [] [0] [0] 1
  scatter_S2048x64_S100000x1_S100000x64_1_0_0_1_wf : ScatterDims.WF S2048x64 S100000x1 S100000x64 [1] [0] [0] 1
  dot_S2048x96_S96x128_S2048x128_1_0_0_1_n_n_wf : DotDims.WF S2048x96 S96x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x9.size a ≤ S100000x9.size a
  hwx0_0 : ∀ i : grid0.Coords, EltTy.bits .f32 = 32 ∨ (Rect.block (s := S100000x9) S10000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x96.size a ≤ S2048x96.size a
  hwx4_0 : ∀ i : grid4.Coords, EltTy.bits .f32 = 32 ∨ (Rect.block (s := S2048x96) S2048x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x128.size a ≤ S96x128.size a
  hwx4_1 : ∀ i : grid4.Coords, EltTy.bits .f32 = 32 ∨ (Rect.block (s := S96x128) S96x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x32.size a ≤ S64x32.size a
  hwx4_9 : ∀ i : grid4.Coords, EltTy.bits .f32 = 32 ∨ (Rect.block (s := S64x32) S64x32.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x32.size a ≤ S1x32.size a
  hwx4_10 : ∀ i : grid4.Coords, EltTy.bits .f32 = 32 ∨ (Rect.block (s := S1x32) S1x32.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x32.size a ≤ S1x32.size a
  hwx4_11 : ∀ i : grid4.Coords, EltTy.bits .f32 = 32 ∨ (Rect.block (s := S1x32) S1x32.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x32.size a ≤ S1x32.size a
  hwx4_12 : ∀ i : grid4.Coords, EltTy.bits .f32 = 32 ∨ (Rect.block (s := S1x32) S1x32.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S32x1.size a ≤ S32x1.size a
  hwx4_13 : ∀ i : grid4.Coords, EltTy.bits .f32 = 32 ∨ (Rect.block (s := S32x1) S32x1.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x1.size a ≤ S1x1.size a
  hwx4_14 : ∀ i : grid4.Coords, EltTy.bits .f32 = 32 ∨ (Rect.block (s := S1x1) S1x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S2048x1.size a ≤ S2048x1.size a
  hwx4_15 : ∀ i : grid4.Coords, EltTy.bits .f32 = 32 ∨ (Rect.block (s := S2048x1) S2048x1.size (cc4_transform_15 i) (hinb4_15 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x9_S9x64_S10000x64_1_0_0_1_n_n : DotDims S10000x9 S9x64 S10000x64 where
  lhsContracting := [1]
  rhsContracting := [0]
  lhsNonContracting := [0]
  rhsNonContracting := [1]
  lhsBatch := []
  rhsBatch := []
  wf := dot_S10000x9_S9x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x96_S96x128_S2048x128_1_0_0_1_n_n : DotDims S2048x96 S96x128 S2048x128 where
  lhsContracting := [1]
  rhsContracting := [0]
  lhsNonContracting := [0]
  rhsNonContracting := [1]
  lhsBatch := []
  rhsBatch := []
  wf := dot_S2048x96_S96x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S10000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S2048x96.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S96x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v91) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v92) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg18) S64x32.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v93) S1x32.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v94) S1x32.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v95) S1x32.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg22) S32x1.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v96) S1x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v97) S2048x1.size cc4_transform_15 reads4_15 true true 1 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S100000x9 : Shape := ⟨2, ![100000, 9]⟩
abbrev S2x3200000 : Shape := ⟨2, ![2, 3200000]⟩
abbrev S100000 : Shape := ⟨1, ![100000]⟩
abbrev S2048x32 : Shape := ⟨2, ![2048, 32]⟩
abbrev S9x64 : Shape := ⟨2, ![9, 64]⟩
abbrev S64 : Shape := ⟨1, ![64]⟩
abbrev S64x64 : Shape := ⟨2, ![64, 64]⟩
abbrev S96x128 : Shape := ⟨2, ![96, 128]⟩
abbrev S128 : Shape := ⟨1, ![128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S2048 : Shape := ⟨1, ![2048]⟩
abbrev S100000x1 : Shape := ⟨2, ![100000, 1]⟩
abbrev S2048x64 : Shape := ⟨2, ![2048, 64]⟩
abbrev S2048x1 : Shape := ⟨2, ![2048, 1]⟩
abbrev S2048x96 : Shape := ⟨2, ![2048, 96]⟩
abbrev S2048x128 : Shape := ⟨2, ![2048, 128]⟩
abbrev S1x128 : Shape := ⟨2, ![1, 128]⟩
abbrev S1x32 : Shape := ⟨2, ![1, 32]⟩
abbrev S1x1 : Shape := ⟨2, ![1, 1]⟩

abbrev nBuf : Space → Nat
  | .hbm => 306
  | .vmem => 0
  | .smem => 0
  | _ => 0

abbrev hbmTy0_0 (i : Nat) : BufTy := match i % 128 with
  | 0 => ⟨S100000x9, .f32⟩
  | 1 => ⟨S2x3200000, .i32⟩
  | 2 => ⟨S100000, .i32⟩
  | 3 => ⟨S2048x32, .f32⟩
  | 4 => ⟨S9x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S96x128, .f32⟩
  | 11 => ⟨S128, .f32⟩
  | 12 => ⟨S128, .f32⟩
  | 13 => ⟨S128, .f32⟩
  | 14 => ⟨S128x64, .f32⟩
  | 15 => ⟨S64, .f32⟩
  | 16 => ⟨S64, .f32⟩
  | 17 => ⟨S64, .f32⟩
  | 18 => ⟨S64x32, .f32⟩
  | 19 => ⟨S32, .f32⟩
  | 20 => ⟨S32, .f32⟩
  | 21 => ⟨S32, .f32⟩
  | 22 => ⟨S32x1, .f32⟩
  | 23 => ⟨S1, .f32⟩
  | 24 => ⟨S100000, .i32⟩
  | 25 => ⟨S1x3200000, .i32⟩
  | 26 => ⟨S3200000, .i32⟩
  | 27 => ⟨S3300000, .i32⟩
  | 28 => ⟨S1x3200000, .i32⟩
  | 29 => ⟨S3200000, .i32⟩
  | 30 => ⟨S3300000, .i32⟩
  | 31 => ⟨S_, .f32⟩
  | 32 => ⟨S3300000, .f32⟩
  | 33 => ⟨S_, .f32⟩
  | 34 => ⟨S100000, .f32⟩
  | 35 => ⟨S3300000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S3300000x1, .f32⟩
  | 65 => ⟨S100000x64, .f32⟩
  | 66 => ⟨S_, .i32⟩
  | 67 => ⟨S3300000, .i32⟩
  | 68 => ⟨S3300000, .i1⟩
  | 69 => ⟨S_, .i32⟩
  | 70 => ⟨S3300000, .i32⟩
  | 71 => ⟨S3300000, .i32⟩
  | 72 => ⟨S3300000, .i32⟩
  | 73 => ⟨S3300000x1, .i32⟩
  | 74 => ⟨S3300000x64, .f32⟩
  | 75 => ⟨S3300000x64, .f32⟩
  | 76 => ⟨S3300000x64, .f32⟩
  | 77 => ⟨S_, .f32⟩
  | 78 => ⟨S100000x64, .f32⟩
  | 79 => ⟨S3300000x1, .i32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S100000x64, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x64, .f32⟩
  | 97 => ⟨S3300000x64, .f32⟩
  | 98 => ⟨S3300000x64, .f32⟩
  | 99 => ⟨S_, .f32⟩
  | 100 => ⟨S100000x64, .f32⟩
  | 101 => ⟨S3300000x1, .i32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x64, .f32⟩
  | 120 => ⟨S3300000x64, .f32⟩
  | 121 => ⟨S_, .f32⟩
  | 122 => ⟨S100000x64, .f32⟩
  | 123 => ⟨S3300000x1, .i32⟩
  | 124 => ⟨S100000x64, .f32⟩
  | 125 => ⟨S1x64, .f32⟩
  | 126 => ⟨S100000x64, .f32⟩
  | 127 => ⟨S100000x64, .f32⟩
  | _ => ⟨S100000x9, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S100000, .f32⟩
  | 5 => ⟨S_, .f32⟩
  | 6 => ⟨S2048, .f32⟩
  | 7 => ⟨S100000x1, .i32⟩
  | 8 => ⟨S2048, .f32⟩
  | 9 => ⟨S_, .f32⟩
  | 10 => ⟨S2048x64, .f32⟩
  | 11 => ⟨S100000x1, .i32⟩
  | 12 => ⟨S2048x64, .f32⟩
  | 13 => ⟨S_, .f32⟩
  | 14 => ⟨S2048, .f32⟩
  | 15 => ⟨S2048, .f32⟩
  | 16 => ⟨S2048x1, .f32⟩
  | 17 => ⟨S2048x64, .f32⟩
  | 18 => ⟨S2048x64, .f32⟩
  | 19 => ⟨S2048x96, .f32⟩
  | 20 => ⟨S2048x128, .f32⟩
  | 21 => ⟨S1x128, .f32⟩
  | 22 => ⟨S2048x128, .f32⟩
  | 23 => ⟨S2048x128, .f32⟩
  | 24 => ⟨S_, .f32⟩
  | 25 => ⟨S128, .f32⟩
  | 26 => ⟨S_, .f32⟩
  | 27 => ⟨S128, .f32⟩
  | 28 => ⟨S128, .f32⟩
  | 29 => ⟨S_, .i32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S2048x128, .f32⟩
  | 37 => ⟨S2048x128, .f32⟩
  | 38 => ⟨S2048x128, .f32⟩
  | 39 => ⟨S_, .f32⟩
  | 40 => ⟨S_, .f32⟩
  | 41 => ⟨S_, .f32⟩
  | 42 => ⟨S_, .f32⟩
  | 43 => ⟨S128, .f32⟩
  | 44 => ⟨S128, .f32⟩
  | 45 => ⟨S128, .f32⟩
  | 46 => ⟨S_, .f32⟩
  | 47 => ⟨S_, .i1⟩
  | 48 => ⟨S_, .f32⟩
  | 49 => ⟨S_, .f32⟩
  | 50 => ⟨S128, .f32⟩
  | 51 => ⟨S128, .f32⟩
  | 52 => ⟨S1x128, .f32⟩
  | 53 => ⟨S2048x128, .f32⟩
  | 54 => ⟨S2048x128, .f32⟩
  | 55 => ⟨S_, .f32⟩
  | 56 => ⟨S128, .f32⟩
  | 57 => ⟨S128, .f32⟩
  | 58 => ⟨S128, .f32⟩
  | 59 => ⟨S1x128, .f32⟩
  | 60 => ⟨S2048x128, .f32⟩
  | 61 => ⟨S2048x128, .f32⟩
  | 62 => ⟨S1x128, .f32⟩
  | 63 => ⟨S2048x128, .f32⟩
  | 64 => ⟨S2048x128, .f32⟩
  | 65 => ⟨S1x128, .f32⟩
  | 66 => ⟨S2048x128, .f32⟩
  | 67 => ⟨S2048x128, .f32⟩
  | 68 => ⟨S_, .f32⟩
  | 69 => ⟨S2048x128, .f32⟩
  | 70 => ⟨S2048x128, .f32⟩
  | 71 => ⟨S2048x64, .f32⟩
  | 72 => ⟨S1x64, .f32⟩
  | 73 => ⟨S2048x64, .f32⟩
  | 74 => ⟨S2048x64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S2048x64, .f32⟩
  | 88 => ⟨S2048x64, .f32⟩
  | 89 => ⟨S2048x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S2048x64, .f32⟩
  | 105 => ⟨S2048x64, .f32⟩
  | 106 => ⟨S_, .f32⟩
  | 107 => ⟨S64, .f32⟩
  | 108 => ⟨S64, .f32⟩
  | 109 => ⟨S64, .f32⟩
  | 110 => ⟨S1x64, .f32⟩
  | 111 => ⟨S2048x64, .f32⟩
  | 112 => ⟨S2048x64, .f32⟩
  | 113 => ⟨S1x64, .f32⟩
  | 114 => ⟨S2048x64, .f32⟩
  | 115 => ⟨S2048x64, .f32⟩
  | 116 => ⟨S1x64, .f32⟩
  | 117 => ⟨S2048x64, .f32⟩
  | 118 => ⟨S2048x64, .f32⟩
  | 119 => ⟨S_, .f32⟩
  | 120 => ⟨S2048x64, .f32⟩
  | 121 => ⟨S2048x64, .f32⟩
  | 122 => ⟨S2048x32, .f32⟩
  | 123 => ⟨S1x32, .f32⟩
  | 124 => ⟨S2048x32, .f32⟩
  | 125 => ⟨S2048x32, .f32⟩
  | 126 => ⟨S_, .f32⟩
  | 127 => ⟨S32, .f32⟩
  | _ => ⟨S100000x9, .f32⟩

abbrev hbmTy0_2 (i : Nat) : BufTy := match i % 128 with
  | 0 => ⟨S_, .f32⟩
  | 1 => ⟨S32, .f32⟩
  | 2 => ⟨S32, .f32⟩
  | 3 => ⟨S_, .i32⟩
  | 4 => ⟨S_, .f32⟩
  | 5 => ⟨S32, .f32⟩
  | 6 => ⟨S1x32, .f32⟩
  | 7 => ⟨S_, .f32⟩
  | 8 => ⟨S1x32, .f32⟩
  | 9 => ⟨S1x32, .f32⟩
  | 10 => ⟨S2048x32, .f32⟩
  | 11 => ⟨S2048x32, .f32⟩
  | 12 => ⟨S2048x32, .f32⟩
  | 13 => ⟨S_, .f32⟩
  | 14 => ⟨S_, .f32⟩
  | 15 => ⟨S_, .f32⟩
  | 16 => ⟨S_, .f32⟩
  | 17 => ⟨S32, .f32⟩
  | 18 => ⟨S32, .f32⟩
  | 19 => ⟨S32, .f32⟩
  | 20 => ⟨S_, .f32⟩
  | 21 => ⟨S_, .i1⟩
  | 22 => ⟨S_, .f32⟩
  | 23 => ⟨S_, .f32⟩
  | 24 => ⟨S32, .f32⟩
  | 25 => ⟨S32, .f32⟩
  | 26 => ⟨S1x32, .f32⟩
  | 27 => ⟨S2048x32, .f32⟩
  | 28 => ⟨S2048x32, .f32⟩
  | 29 => ⟨S_, .f32⟩
  | 30 => ⟨S32, .f32⟩
  | 31 => ⟨S32, .f32⟩
  | 32 => ⟨S32, .f32⟩
  | 33 => ⟨S1x32, .f32⟩
  | 34 => ⟨S2048x32, .f32⟩
  | 35 => ⟨S2048x32, .f32⟩
  | 36 => ⟨S1x32, .f32⟩
  | 37 => ⟨S2048x32, .f32⟩
  | 38 => ⟨S2048x32, .f32⟩
  | 39 => ⟨S1x32, .f32⟩
  | 40 => ⟨S2048x32, .f32⟩
  | 41 => ⟨S2048x32, .f32⟩
  | 42 => ⟨S_, .f32⟩
  | 43 => ⟨S2048x32, .f32⟩
  | 44 => ⟨S2048x32, .f32⟩
  | 45 => ⟨S2048x1, .f32⟩
  | 46 => ⟨S1x1, .f32⟩
  | 47 => ⟨S2048x1, .f32⟩
  | 48 => ⟨S2048x1, .f32⟩
  | 49 => ⟨S2048, .f32⟩
  | _ => ⟨S100000x9, .f32⟩

abbrev hbmTy (i : Nat) : BufTy := match i / 128 with
  | 0 => hbmTy0_0 i
  | 1 => hbmTy0_1 i
  | 2 => hbmTy0_2 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v14 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_4 : Ref sig .tc := ⟨.hbm, 54, rfl⟩
abbrev main_v22 : Ref sig .tc := ⟨.hbm, 55, rfl⟩
abbrev main_v23 : Ref sig .tc := ⟨.hbm, 56, rfl⟩
abbrev main_c_5 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_6 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_call1_cst : Ref sig .tc := ⟨.hbm, 84, rfl⟩
abbrev main_call1_v0 : Ref sig .tc := ⟨.hbm, 85, rfl⟩
abbrev main_v47 : Ref sig .tc := ⟨.hbm, 86, rfl⟩
abbrev main_v48 : Ref sig .tc := ⟨.hbm, 87, rfl⟩
abbrev main_c_9 : Ref sig .tc := ⟨.hbm, 88, rfl⟩
abbrev main_v49 : Ref sig .tc := ⟨.hbm, 89, rfl⟩
abbrev main_v50 : Ref sig .tc := ⟨.hbm, 90, rfl⟩
abbrev main_c_10 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_11 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_call2_cst : Ref sig .tc := ⟨.hbm, 106, rfl⟩
abbrev main_call2_v0 : Ref sig .tc := ⟨.hbm, 107, rfl⟩
abbrev main_v64 : Ref sig .tc := ⟨.hbm, 108, rfl⟩
abbrev main_v65 : Ref sig .tc := ⟨.hbm, 109, rfl⟩
abbrev main_c_12 : Ref sig .tc := ⟨.hbm, 110, rfl⟩
abbrev main_v66 : Ref sig .tc := ⟨.hbm, 111, rfl⟩
abbrev main_v67 : Ref sig .tc := ⟨.hbm, 112, rfl⟩
abbrev main_c_13 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_14 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call3_cst : Ref sig .tc := ⟨.hbm, 128, rfl⟩
abbrev main_call3_v0 : Ref sig .tc := ⟨.hbm, 129, rfl⟩
abbrev main_v81 : Ref sig .tc := ⟨.hbm, 130, rfl⟩
abbrev main_cst_15 : Ref sig .tc := ⟨.hbm, 131, rfl⟩
abbrev main_v82 : Ref sig .tc := ⟨.hbm, 132, rfl⟩
abbrev main_cst_16 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_17 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_18 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_19 : Ref sig .tc := ⟨.hbm, 152, rfl⟩
abbrev main_v99 : Ref sig .tc := ⟨.hbm, 153, rfl⟩
abbrev main_cst_20 : Ref sig .tc := ⟨.hbm, 154, rfl⟩
abbrev main_v100 : Ref sig .tc := ⟨.hbm, 155, rfl⟩
abbrev main_v101 : Ref sig .tc := ⟨.hbm, 156, rfl⟩
abbrev main_c_21 : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_cst_1 : Ref sig .tc := ⟨.hbm, 168, rfl⟩
abbrev main_call4_v8 : Ref sig .tc := ⟨.hbm, 169, rfl⟩
abbrev main_call4_cst_2 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_cst_3 : Ref sig .tc := ⟨.hbm, 174, rfl⟩
abbrev main_call4_v12 : Ref sig .tc := ⟨.hbm, 175, rfl⟩
abbrev main_call4_cst_4 : Ref sig .tc := ⟨.hbm, 176, rfl⟩
abbrev main_call4_call0_v0 : Ref sig .tc := ⟨.hbm, 177, rfl⟩
abbrev main_call4_call0_v1 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_22 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_call5_cst : Ref sig .tc := ⟨.hbm, 196, rfl⟩
abbrev main_call5_v0 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_cst_23 : Ref sig .tc := ⟨.hbm, 203, rfl⟩
abbrev main_v123 : Ref sig .tc := ⟨.hbm, 204, rfl⟩
abbrev main_cst_24 : Ref sig .tc := ⟨.hbm, 205, rfl⟩
abbrev main_v124 : Ref sig .tc := ⟨.hbm, 206, rfl⟩
abbrev main_v125 : Ref sig .tc := ⟨.hbm, 207, rfl⟩
abbrev main_c_25 : Ref sig .tc := ⟨.hbm, 208, rfl⟩
abbrev main_call6_cst : Ref sig .tc := ⟨.hbm, 209, rfl⟩
abbrev main_call6_v0 : Ref sig .tc := ⟨.hbm, 210, rfl⟩
abbrev main_call6_v1 : Ref sig .tc := ⟨.hbm, 211, rfl⟩
abbrev main_call6_cst_0 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_call6_v5 : Ref sig .tc := ⟨.hbm, 216, rfl⟩
abbrev main_call6_v6 : Ref sig .tc := ⟨.hbm, 217, rfl⟩
abbrev main_call6_v7 : Ref sig .tc := ⟨.hbm, 218, rfl⟩
abbrev main_call6_cst_1 : Ref sig .tc := ⟨.hbm, 219, rfl⟩
abbrev main_call6_v8 : Ref sig .tc := ⟨.hbm, 220, rfl⟩
abbrev main_call6_cst_2 : Ref sig .tc := ⟨.hbm, 221, rfl⟩
abbrev main_call6_v9 : Ref sig .tc := ⟨.hbm, 222, rfl⟩
abbrev main_call6_v10 : Ref sig .tc := ⟨.hbm, 223, rfl⟩
abbrev main_call6_v11 : Ref sig .tc := ⟨.hbm, 224, rfl⟩
abbrev main_call6_cst_3 : Ref sig .tc := ⟨.hbm, 225, rfl⟩
abbrev main_call6_v12 : Ref sig .tc := ⟨.hbm, 226, rfl⟩
abbrev main_call6_cst_4 : Ref sig .tc := ⟨.hbm, 227, rfl⟩
abbrev main_call6_call0_v0 : Ref sig .tc := ⟨.hbm, 228, rfl⟩
abbrev main_call6_call0_v1 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_cst_26 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_call7_cst : Ref sig .tc := ⟨.hbm, 247, rfl⟩
abbrev main_call7_v0 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_cst_27 : Ref sig .tc := ⟨.hbm, 254, rfl⟩
abbrev main_v147 : Ref sig .tc := ⟨.hbm, 255, rfl⟩
abbrev main_cst_28 : Ref sig .tc := ⟨.hbm, 256, rfl⟩
abbrev main_v148 : Ref sig .tc := ⟨.hbm, 257, rfl⟩
abbrev main_v149 : Ref sig .tc := ⟨.hbm, 258, rfl⟩
abbrev main_c_29 : Ref sig .tc := ⟨.hbm, 259, rfl⟩
abbrev main_call8_cst : Ref sig .tc := ⟨.hbm, 260, rfl⟩
abbrev main_call8_v0 : Ref sig .tc := ⟨.hbm, 261, rfl⟩
abbrev main_call8_v1 : Ref sig .tc := ⟨.hbm, 262, rfl⟩
abbrev main_call8_cst_0 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_call8_v5 : Ref sig .tc := ⟨.hbm, 267, rfl⟩
abbrev main_call8_v6 : Ref sig .tc := ⟨.hbm, 268, rfl⟩
abbrev main_call8_v7 : Ref sig .tc := ⟨.hbm, 269, rfl⟩
abbrev main_call8_cst_1 : Ref sig .tc := ⟨.hbm, 270, rfl⟩
abbrev main_call8_v8 : Ref sig .tc := ⟨.hbm, 271, rfl⟩
abbrev main_call8_cst_2 : Ref sig .tc := ⟨.hbm, 272, rfl⟩
abbrev main_call8_v9 : Ref sig .tc := ⟨.hbm, 273, rfl⟩
abbrev main_call8_v10 : Ref sig .tc := ⟨.hbm, 274, rfl⟩
abbrev main_call8_v11 : Ref sig .tc := ⟨.hbm, 275, rfl⟩
abbrev main_call8_cst_3 : Ref sig .tc := ⟨.hbm, 276, rfl⟩
abbrev main_call8_v12 : Ref sig .tc := ⟨.hbm, 277, rfl⟩
abbrev main_call8_cst_4 : Ref sig .tc := ⟨.hbm, 278, rfl⟩
abbrev main_call8_call0_v0 : Ref sig .tc := ⟨.hbm, 279, rfl⟩
abbrev main_call8_call0_v1 : Ref sig .tc := ⟨.hbm, 280, rfl⟩
abbrev main_v150 : Ref sig .tc := ⟨.hbm, 281, rfl⟩
abbrev main_v151 : Ref sig .tc := ⟨.hbm, 282, rfl⟩
abbrev main_v152 : Ref sig .tc := ⟨.hbm, 283, rfl⟩
abbrev main_v153 : Ref sig .tc := ⟨.hbm, 284, rfl⟩
abbrev main_cst_30 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_v162 : Ref sig .tc := ⟨.hbm, 294, rfl⟩
abbrev main_v163 : Ref sig .tc := ⟨.hbm, 295, rfl⟩
abbrev main_v164 : Ref sig .tc := ⟨.hbm, 296, rfl⟩
abbrev main_v165 : Ref sig .tc := ⟨.hbm, 297, rfl⟩
abbrev main_call9_cst : Ref sig .tc := ⟨.hbm, 298, rfl⟩
abbrev main_call9_v0 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2048 : S_.BroadcastsInDim S2048 (![] : Fin 0 → Fin S2048.rank)
  bcast_S100000_S100000x1_0 : S100000.BroadcastsInDim S100000x1 (![0] : Fin 1 → Fin S100000x1.rank)
  bcast_S_S2048x64 : S_.BroadcastsInDim S2048x64 (![] : Fin 0 → Fin S2048x64.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  concatenates_S2048x64_S2048x32_S2048x96_d1 : Shape.Concatenates [S2048x64, S2048x32] S2048x96 1
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  reducesTo_S2048x128_S128_d0 : S2048x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S2048x128 : S_.BroadcastsInDim S2048x128 (![] : Fin 0 → Fin S2048x128.rank)
  bcast_S1x64_S2048x64_0_1 : S1x64.BroadcastsInDim S2048x64 (![0, 1] : Fin 2 → Fin S2048x64.rank)
  reducesTo_S2048x64_S64_d0 : S2048x64.ReducesTo [0] S64
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  reducesTo_S2048x32_S32_d0 : S2048x32.ReducesTo [0] S32
  bcast_S_S32 : S_.BroadcastsInDim S32 (![] : Fin 0 → Fin S32.rank)
  bcast_S_S1x32 : S_.BroadcastsInDim S1x32 (![] : Fin 0 → Fin S1x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x9_S9x64_S100000x64_1_0_0_1_n_n_wf : DotDims.WF S100000x9 S9x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S2048_S100000x1_S100000_n_0_0_1_wf : ScatterDims.WF S2048 S100000x1 S100000 [] [0] [0] 1
  scatter_S2048x64_S100000x1_S100000x64_1_0_0_1_wf : ScatterDims.WF S2048x64 S100000x1 S100000x64 [1] [0] [0] 1
  dot_S2048x96_S96x128_S2048x128_1_0_0_1_n_n_wf : DotDims.WF S2048x96 S96x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x32_S32x1_S2048x1_1_0_0_1_n_n_wf : DotDims.WF S2048x32 S32x1 S2048x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x96_S96x128_S2048x128_1_0_0_1_n_n : DotDims S2048x96 S96x128 S2048x128 where
  lhsContracting := [1]
  rhsContracting := [0]
  lhsNonContracting := [0]
  rhsNonContracting := [1]
  lhsBatch := []
  rhsBatch := []
  wf := dot_S2048x96_S96x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.KerRun.lean ====
/-
  The kernel program's run with its result named: every weakly fair execution of the five regions and the host
  operations between them terminates, the arguments end as launched, and the result buffer ends at the contents
  the last boundary valuation gives it (the fold of host operations and region write-backs from the launch memory).
-/
import proofs.«141089_j11897059410621_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the launch over the thirteen segments, the last thread state read against the
    final state; the result buffer at the last valuation, each argument as launched. -/
theorem run_main : θ_run defs (onTc (τ := τ) (main (F := F))) ⟨m, fun _ => 0, ρ⟩ (fun r => ∀ c : Dev nD,
      r.2.mem ((c.tc : Thread nD τ).loc main_v98) = W13 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v98 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c)⟩)

end Cert.KernelIdeal.Hand

end
-- ==== Proof.Spec.lean ====
/-
  The reference computation, cut into named stages. Every definition below is a composition of the host
  operations in the order the plain-jnp program applies them, stated once for any float instance:
  the edge lists with the self loops appended (src, dst), the symmetric normalisation coefficient of an edge
  (dis at both ends, as a column), one message-passing step (gather the source rows, scale, sum into the
  destination rows), the dense layer in front of it, bias + max with zero, the mean pool per graph, and the
  head: three times (dense layer, batch statistics over the 2048 rows, normalise, scale, shift, max with zero),
  then a last dense layer.
-/
import proofs.«141089_j11897059410621_1_alg».proof.ReferenceIdeal

noncomputable section

namespace Cert.Spec

open Idealize.ShloMosaic Cert.ReferenceIdeal

variable {F : FTy → Type} [FloatOps F] [Cert.ReferenceIdeal.Facts]
open Cert.ReferenceIdeal.Facts₀ Cert.ReferenceIdeal.Facts

/-- The contents of an array of the given shape and element type. -/
abbrev Arr (F : FTy → Type) [FloatOps F] (S : Shape) (e : EltTy) : Type := (⟨S, e⟩ : BufTy).Contents (Elt F)

/-- The source node of every edge, the self loops appended. -/
def src (ei : Arr F S2x3200000 .i32) : Arr F S3300000 .i32 :=
  concatenate S3300000 0 [⟨S3200000, (shapeCast S3200000 (extractStridedSlice S1x3200000 ![0, 0] ei slices_S2x3200000_S1x3200000_0_0) shapeCasts_S1x3200000_S3200000)⟩, ⟨S100000, (iotaInDim S100000 32 0)⟩] concatenates_S3200000_S100000_S3300000_d0

/-- The destination node of every edge, the self loops appended. -/
def dst (ei : Arr F S2x3200000 .i32) : Arr F S3300000 .i32 :=
  concatenate S3300000 0 [⟨S3200000, (shapeCast S3200000 (extractStridedSlice S1x3200000 ![1, 0] ei slices_S2x3200000_S1x3200000_1_0) shapeCasts_S1x3200000_S3200000)⟩, ⟨S100000, (iotaInDim S100000 32 0)⟩] concatenates_S3200000_S100000_S3300000_d0

/-- Degree to the power -1/2 per node (zero where the degree is not positive); the degree counts the edges arriving at the node. -/
def dis (d : Arr F S3300000 .i32) : Arr F S100000 .f32 :=
  select (cmpf .ogt (Host.scatterAdd scatter_S100000_S3300000x1_S3300000_n_0_0_1 (broadcastInDim S100000 ![] bcast_S_S100000 (constant (F := F) S_ .f32 0x00000000#32)) (broadcastInDim S3300000x1 ![0] bcast_S3300000_S3300000x1_0 d) (broadcastInDim S3300000 ![] bcast_S_S3300000 (constant (F := F) S_ .f32 0x3F800000#32))) (broadcastInDim S100000 ![] bcast_S_S100000 (constant (F := F) S_ .f32 0x00000000#32))) (Host.rsqrt (Host.scatterAdd scatter_S100000_S3300000x1_S3300000_n_0_0_1 (broadcastInDim S100000 ![] bcast_S_S100000 (constant (F := F) S_ .f32 0x00000000#32)) (broadcastInDim S3300000x1 ![0] bcast_S3300000_S3300000x1_0 d) (broadcastInDim S3300000 ![] bcast_S_S3300000 (constant (F := F) S_ .f32 0x3F800000#32)))) (broadcastInDim S100000 ![] bcast_S_S100000 (id (constant (F := F) S_ .f32 0x00000000#32)))

/-- The coefficient of an edge: dis at its source times dis at its destination, as a column. -/
def coefCol (s : Arr F S3300000 .i32) (d : Arr F S3300000 .i32) : Arr F S3300000x1 .f32 :=
  broadcastInDim S3300000x1 ![0] bcast_S3300000_S3300000x1_0 (mulf (Host.gather gather_S100000_S3300000x1_S3300000_n_0_n_n_0_1_1 (dis d) (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (Host.gather gather_S100000_S3300000x1_S3300000_n_0_n_n_0_1_1 (dis d) (broadcastInDim S3300000x1 ![0] bcast_S3300000_S3300000x1_0 (select (cmpi .slt d (broadcastInDim S3300000 ![] bcast_S_S3300000 (constantI S_ 32 0#32))) (addi d (broadcastInDim S3300000 ![] bcast_S_S3300000 (constantI S_ 32 100000#32))) d))))

/-- The first dense layer, 9 → 64 features per node. -/
def lin1 (x : Arr F S100000x9 .f32) (W : Arr F S9x64 .f32) : Arr F S100000x64 .f32 :=
  Host.dotGeneral dot_S100000x9_S9x64_S100000x64_1_0_0_1_n_n none x W

/-- One aggregation: each destination row is the sum over its edges of the source row times the edge's coefficient. -/
def agg (s : Arr F S3300000 .i32) (d : Arr F S3300000 .i32) (cf : Arr F S3300000x1 .f32) (t : Arr F S100000x64 .f32) : Arr F S100000x64 .f32 :=
  Host.scatterAdd scatter_S100000x64_S3300000x1_S3300000x64_1_0_0_1 (broadcastInDim S100000x64 ![] bcast_S_S100000x64 (constant (F := F) S_ .f32 0x00000000#32)) (broadcastInDim S3300000x1 ![0] bcast_S3300000_S3300000x1_0 d) (mulf (Host.gather gather_S100000x64_S3300000x1_S3300000x64_1_0_n_n_0_1_164 t (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x64 ![0, 1] bcast_S3300000x1_S3300000x64_0_1 cf))

/-- A vector of 64 as a row [1, 64]. -/
def row64 (b : Arr F S64 .f32) : Arr F S1x64 .f32 :=
  broadcastInDim S1x64 ![1] bcast_S64_S1x64_1 b

/-- Add the row to every node's features, then max with zero. -/
def biasRelu2 (a : Arr F S100000x64 .f32) (br : Arr F S1x64 .f32) : Arr F S100000x64 .f32 :=
  maximumf (addf a (broadcastInDim S100000x64 ![0, 1] bcast_S1x64_S100000x64_0_1 br)) (broadcastInDim S100000x64 ![] bcast_S_S100000x64 (constant (F := F) S_ .f32 0x00000000#32))

/-- A dense layer 64 → 64 per node. -/
def lin64 (h : Arr F S100000x64 .f32) (W : Arr F S64x64 .f32) : Arr F S100000x64 .f32 :=
  Host.dotGeneral dot_S100000x64_S64x64_S100000x64_1_0_0_1_n_n none h W

/-- The mean of the node features per graph (the count floored at one). -/
def pool (h : Arr F S100000x64 .f32) (batch : Arr F S100000 .i32) : Arr F S2048x64 .f32 :=
  Host.divf (Host.scatterAdd scatter_S2048x64_S100000x1_S100000x64_1_0_0_1 (broadcastInDim S2048x64 ![] bcast_S_S2048x64 (constant (F := F) S_ .f32 0x00000000#32)) (broadcastInDim S100000x1 ![0] bcast_S100000_S100000x1_0 batch) h) (broadcastInDim S2048x64 ![0, 1] bcast_S2048x1_S2048x64_0_1 (broadcastInDim S2048x1 ![0] bcast_S2048_S2048x1_0 (maximumf (Host.scatterAdd scatter_S2048_S100000x1_S100000_n_0_0_1 (broadcastInDim S2048 ![] bcast_S_S2048 (constant (F := F) S_ .f32 0x00000000#32)) (broadcastInDim S100000x1 ![0] bcast_S100000_S100000x1_0 batch) (broadcastInDim S100000 ![] bcast_S_S100000 (constant (F := F) S_ .f32 0x3F800000#32))) (broadcastInDim S2048 ![] bcast_S_S2048 (constant (F := F) S_ .f32 0x3F800000#32)))))

/-- The pooled features beside the extra features, 64 + 32 columns. -/
def zcat (emb : Arr F S2048x64 .f32) (extra : Arr F S2048x32 .f32) : Arr F S2048x96 .f32 :=
  concatenate S2048x96 1 [⟨S2048x64, emb⟩, ⟨S2048x32, extra⟩] concatenates_S2048x64_S2048x32_S2048x96_d1

/-- A vector of 128 as a row. -/
def row128 (b : Arr F S128 .f32) : Arr F S1x128 .f32 :=
  broadcastInDim S1x128 ![1] bcast_S128_S1x128_1 b

/-- A vector of 32 as a row. -/
def row32 (b : Arr F S32 .f32) : Arr F S1x32 .f32 :=
  broadcastInDim S1x32 ![1] bcast_S32_S1x32_1 b

/-- A vector of 1 as a row. -/
def row1 (b : Arr F S1 .f32) : Arr F S1x1 .f32 :=
  broadcastInDim S1x1 ![1] bcast_S1_S1x1_1 b

/-- Dense layer 96 → 128 with its bias row. -/
def dense0 (z : Arr F S2048x96 .f32) (W : Arr F S96x128 .f32) (br : Arr F S1x128 .f32) : Arr F S2048x128 .f32 :=
  addf (Host.dotGeneral dot_S2048x96_S96x128_S2048x128_1_0_0_1_n_n none z W) (broadcastInDim S2048x128 ![0, 1] bcast_S1x128_S2048x128_0_1 br)

/-- Batch statistics over the 2048 rows (mean, biased variance), normalise with 1/sqrt(var + eps), scale, shift, max with zero; 128 columns. -/
def bn128 (h : Arr F S2048x128 .f32) (gr : Arr F S1x128 .f32) (ber : Arr F S1x128 .f32) : Arr F S2048x128 .f32 :=
  maximumf (addf (mulf (mulf (subf h (broadcastInDim S2048x128 ![0, 1] bcast_S1x128_S2048x128_0_1 (broadcastInDim S1x128 ![1] bcast_S128_S1x128_1 (Host.divf (Host.reduceAdd h (constant (F := F) S_ .f32 0x00000000#32) reducesTo_S2048x128_S128_d0 h_S_) (broadcastInDim S128 ![] bcast_S_S128 (constant (F := F) S_ .f32 0x45000000#32)))))) (broadcastInDim S2048x128 ![0, 1] bcast_S1x128_S2048x128_0_1 (broadcastInDim S1x128 ![1] bcast_S128_S1x128_1 (Host.rsqrt (addf (select (broadcastInDim S128 ![] bcast_S_S128 (cmpf .ogt (subf (constant (F := F) S_ .f32 0x45000000#32) (sitofp .f32 (constantI S_ 32 0#32))) (constant (F := F) S_ .f32 0x00000000#32))) (Host.divf (Host.reduceAdd (mulf (subf h (broadcastInDim S2048x128 ![0, 1] bcast_S1x128_S2048x128_0_1 (Host.divf (broadcastInDim S1x128 ![1] bcast_S128_S1x128_1 (Host.reduceAdd h (constant (F := F) S_ .f32 0x00000000#32) reducesTo_S2048x128_S128_d0 h_S_)) (broadcastInDim S1x128 ![] bcast_S_S1x128 (constant (F := F) S_ .f32 0x45000000#32))))) (subf h (broadcastInDim S2048x128 ![0, 1] bcast_S1x128_S2048x128_0_1 (Host.divf (broadcastInDim S1x128 ![1] bcast_S128_S1x128_1 (Host.reduceAdd h (constant (F := F) S_ .f32 0x00000000#32) reducesTo_S2048x128_S128_d0 h_S_)) (broadcastInDim S1x128 ![] bcast_S_S1x128 (constant (F := F) S_ .f32 0x45000000#32)))))) (constant (F := F) S_ .f32 0x00000000#32) reducesTo_S2048x128_S128_d0 h_S_) (broadcastInDim S128 ![] bcast_S_S128 (subf (constant (F := F) S_ .f32 0x45000000#32) (sitofp .f32 (constantI S_ 32 0#32))))) (broadcastInDim S128 ![] bcast_S_S128 (id (constant (F := F) S_ .f32 0x7FC00000#32)))) (broadcastInDim S128 ![] bcast_S_S128 (constant (F := F) S_ .f32 0x3727C5AC#32))))))) (broadcastInDim S2048x128 ![0, 1] bcast_S1x128_S2048x128_0_1 gr)) (broadcastInDim S2048x128 ![0, 1] bcast_S1x128_S2048x128_0_1 ber)) (broadcastInDim S2048x128 ![] bcast_S_S2048x128 (constant (F := F) S_ .f32 0x00000000#32))

/-- Dense layer 128 → 64 with its bias row. -/
def dense1 (h : Arr F S2048x128 .f32) (W : Arr F S128x64 .f32) (br : Arr F S1x64 .f32) : Arr F S2048x64 .f32 :=
  addf (Host.dotGeneral dot_S2048x128_S128x64_S2048x64_1_0_0_1_n_n none h W) (broadcastInDim S2048x64 ![0, 1] bcast_S1x64_S2048x64_0_1 br)

/-- The same normalisation over 64 columns. -/
def bn64 (h : Arr F S2048x64 .f32) (gr : Arr F S1x64 .f32) (ber : Arr F S1x64 .f32) : Arr F S2048x64 .f32 :=
  maximumf (addf (mulf (mulf (subf h (broadcastInDim S2048x64 ![0, 1] bcast_S1x64_S2048x64_0_1 (broadcastInDim S1x64 ![1] bcast_S64_S1x64_1 (Host.divf (Host.reduceAdd h (constant (F := F) S_ .f32 0x00000000#32) reducesTo_S2048x64_S64_d0 h_S_) (broadcastInDim S64 ![] bcast_S_S64 (constant (F := F) S_ .f32 0x45000000#32)))))) (broadcastInDim S2048x64 ![0, 1] bcast_S1x64_S2048x64_0_1 (broadcastInDim S1x64 ![1] bcast_S64_S1x64_1 (Host.rsqrt (addf (select (broadcastInDim S64 ![] bcast_S_S64 (cmpf .ogt (subf (constant (F := F) S_ .f32 0x45000000#32) (sitofp .f32 (constantI S_ 32 0#32))) (constant (F := F) S_ .f32 0x00000000#32))) (Host.divf (Host.reduceAdd (mulf (subf h (broadcastInDim S2048x64 ![0, 1] bcast_S1x64_S2048x64_0_1 (Host.divf (broadcastInDim S1x64 ![1] bcast_S64_S1x64_1 (Host.reduceAdd h (constant (F := F) S_ .f32 0x00000000#32) reducesTo_S2048x64_S64_d0 h_S_)) (broadcastInDim S1x64 ![] bcast_S_S1x64 (constant (F := F) S_ .f32 0x45000000#32))))) (subf h (broadcastInDim S2048x64 ![0, 1] bcast_S1x64_S2048x64_0_1 (Host.divf (broadcastInDim S1x64 ![1] bcast_S64_S1x64_1 (Host.reduceAdd h (constant (F := F) S_ .f32 0x00000000#32) reducesTo_S2048x64_S64_d0 h_S_)) (broadcastInDim S1x64 ![] bcast_S_S1x64 (constant (F := F) S_ .f32 0x45000000#32)))))) (constant (F := F) S_ .f32 0x00000000#32) reducesTo_S2048x64_S64_d0 h_S_) (broadcastInDim S64 ![] bcast_S_S64 (subf (constant (F := F) S_ .f32 0x45000000#32) (sitofp .f32 (constantI S_ 32 0#32))))) (broadcastInDim S64 ![] bcast_S_S64 (id (constant (F := F) S_ .f32 0x7FC00000#32)))) (broadcastInDim S64 ![] bcast_S_S64 (constant (F := F) S_ .f32 0x3727C5AC#32))))))) (broadcastInDim S2048x64 ![0, 1] bcast_S1x64_S2048x64_0_1 gr)) (broadcastInDim S2048x64 ![0, 1] bcast_S1x64_S2048x64_0_1 ber)) (broadcastInDim S2048x64 ![] bcast_S_S2048x64 (constant (F := F) S_ .f32 0x00000000#32))

/-- Dense layer 64 → 32 with its bias row. -/
def dense2 (h : Arr F S2048x64 .f32) (W : Arr F S64x32 .f32) (br : Arr F S1x32 .f32) : Arr F S2048x32 .f32 :=
  addf (Host.dotGeneral dot_S2048x64_S64x32_S2048x32_1_0_0_1_n_n none h W) (broadcastInDim S2048x32 ![0, 1] bcast_S1x32_S2048x32_0_1 br)

/-- The same normalisation over 32 columns. -/
def bn32 (h : Arr F S2048x32 .f32) (gr : Arr F S1x32 .f32) (ber : Arr F S1x32 .f32) : Arr F S2048x32 .f32 :=
  maximumf (addf (mulf (mulf (subf h (broadcastInDim S2048x32 ![0, 1] bcast_S1x32_S2048x32_0_1 (broadcastInDim S1x32 ![1] bcast_S32_S1x32_1 (Host.divf (Host.reduceAdd h (constant (F := F) S_ .f32 0x00000000#32) reducesTo_S2048x32_S32_d0 h_S_) (broadcastInDim S32 ![] bcast_S_S32 (constant (F := F) S_ .f32 0x45000000#32)))))) (broadcastInDim S2048x32 ![0, 1] bcast_S1x32_S2048x32_0_1 (broadcastInDim S1x32 ![1] bcast_S32_S1x32_1 (Host.rsqrt (addf (select (broadcastInDim S32 ![] bcast_S_S32 (cmpf .ogt (subf (constant (F := F) S_ .f32 0x45000000#32) (sitofp .f32 (constantI S_ 32 0#32))) (constant (F := F) S_ .f32 0x00000000#32))) (Host.divf (Host.reduceAdd (mulf (subf h (broadcastInDim S2048x32 ![0, 1] bcast_S1x32_S2048x32_0_1 (Host.divf (broadcastInDim S1x32 ![1] bcast_S32_S1x32_1 (Host.reduceAdd h (constant (F := F) S_ .f32 0x00000000#32) reducesTo_S2048x32_S32_d0 h_S_)) (broadcastInDim S1x32 ![] bcast_S_S1x32 (constant (F := F) S_ .f32 0x45000000#32))))) (subf h (broadcastInDim S2048x32 ![0, 1] bcast_S1x32_S2048x32_0_1 (Host.divf (broadcastInDim S1x32 ![1] bcast_S32_S1x32_1 (Host.reduceAdd h (constant (F := F) S_ .f32 0x00000000#32) reducesTo_S2048x32_S32_d0 h_S_)) (broadcastInDim S1x32 ![] bcast_S_S1x32 (constant (F := F) S_ .f32 0x45000000#32)))))) (constant (F := F) S_ .f32 0x00000000#32) reducesTo_S2048x32_S32_d0 h_S_) (broadcastInDim S32 ![] bcast_S_S32 (subf (constant (F := F) S_ .f32 0x45000000#32) (sitofp .f32 (constantI S_ 32 0#32))))) (broadcastInDim S32 ![] bcast_S_S32 (id (constant (F := F) S_ .f32 0x7FC00000#32)))) (broadcastInDim S32 ![] bcast_S_S32 (constant (F := F) S_ .f32 0x3727C5AC#32))))))) (broadcastInDim S2048x32 ![0, 1] bcast_S1x32_S2048x32_0_1 gr)) (broadcastInDim S2048x32 ![0, 1] bcast_S1x32_S2048x32_0_1 ber)) (broadcastInDim S2048x32 ![] bcast_S_S2048x32 (constant (F := F) S_ .f32 0x00000000#32))

/-- Dense layer 32 → 1 with its bias row. -/
def dense3 (h : Arr F S2048x32 .f32) (W : Arr F S32x1 .f32) (br : Arr F S1x1 .f32) : Arr F S2048x1 .f32 :=
  addf (Host.dotGeneral dot_S2048x32_S32x1_S2048x1_1_0_0_1_n_n none h W) (broadcastInDim S2048x1 ![0, 1] bcast_S1x1_S2048x1_0_1 br)

/-- Three message-passing layers: dense, aggregate, bias, max with zero; the first dense layer is 9 → 64. -/
def gcn (ei : Arr F S2x3200000 .i32) (x : Arr F S100000x9 .f32) (W1 : Arr F S9x64 .f32) (b1 : Arr F S64 .f32)
    (W2 : Arr F S64x64 .f32) (b2 : Arr F S64 .f32) (W3 : Arr F S64x64 .f32) (b3 : Arr F S64 .f32) : Arr F S100000x64 .f32 :=
  biasRelu2 (agg (src ei) (dst ei) (coefCol (src ei) (dst ei))
    (lin64 (biasRelu2 (agg (src ei) (dst ei) (coefCol (src ei) (dst ei))
      (lin64 (biasRelu2 (agg (src ei) (dst ei) (coefCol (src ei) (dst ei)) (lin1 x W1)) (row64 b1)) W2)) (row64 b2)) W3)) (row64 b3)

/-- The head on the pooled features, its bias / scale / shift vectors given as rows [1, n]. -/
def mlpHead2 (z : Arr F S2048x96 .f32) (Wm0 : Arr F S96x128 .f32) (r0 g0r be0r : Arr F S1x128 .f32)
    (Wm1 : Arr F S128x64 .f32) (r1 g1r be1r : Arr F S1x64 .f32) (Wm2 : Arr F S64x32 .f32) (r2 g2r be2r : Arr F S1x32 .f32)
    (Wm3 : Arr F S32x1 .f32) (r3 : Arr F S1x1 .f32) : Arr F S2048x1 .f32 :=
  dense3 (bn32 (dense2 (bn64 (dense1 (bn128 (dense0 z Wm0 r0) g0r be0r) Wm1 r1) g1r be1r) Wm2 r2) g2r be2r) Wm3 r3

/-- The whole reference: the 2048 outputs as a function of the 24 arguments. -/
def out (a0 : Arr F S100000x9 .f32) (a1 : Arr F S2x3200000 .i32) (a2 : Arr F S100000 .i32) (a3 : Arr F S2048x32 .f32)
    (a4 : Arr F S9x64 .f32) (a5 : Arr F S64 .f32) (a6 : Arr F S64x64 .f32) (a7 : Arr F S64 .f32) (a8 : Arr F S64x64 .f32) (a9 : Arr F S64 .f32)
    (a10 : Arr F S96x128 .f32) (a11 a12 a13 : Arr F S128 .f32) (a14 : Arr F S128x64 .f32) (a15 a16 a17 : Arr F S64 .f32)
    (a18 : Arr F S64x32 .f32) (a19 a20 a21 : Arr F S32 .f32) (a22 : Arr F S32x1 .f32) (a23 : Arr F S1 .f32) : Arr F S2048 .f32 :=
  shapeCast S2048 (mlpHead2 (zcat (pool (gcn a1 a0 a4 a5 a6 a7 a8 a9) a2) a3) a10 (row128 a11) (row128 a12) (row128 a13)
    a14 (row64 a15) (row64 a16) (row64 a17) a18 (row32 a19) (row32 a20) (row32 a21) a22 (row1 a23)) shapeCasts_S2048x1_S2048

end Cert.Spec

end
-- ==== Proof.Stretch.lean ====
import proofs.«141089_j11897059410621_1_alg».proof.Proof.Gen.KernelIdeal.Frame
import proofs.«141089_j11897059410621_1_alg».proof.Proof.Gen.ReferenceIdeal
import proofs.«141089_j11897059410621_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! Each stretch of host operations of the kernel program, read at the buffers the later steps use, as the
    reference's stage function of the contents the stretch starts from (any valuation `X`). The two programs apply
    the same host operations here, so each equation holds by unfolding. -/

set_option maxHeartbeats 2000000 in
attribute [local irreducible] Host.scatterAdd Host.gather concatenate in
theorem pre_src (X : Valuation τ sig (Elt F)) :
    after hostOps0_2 (after hostOps0_1 (after hostOps0 X)) (Proc.devRef .tc main_v3) = Cert.Spec.src (X (Proc.devRef .tc main_arg1)) := by
  dsimp only [hostOps0, hostOps0_1, hostOps0_2]; after_results_simp; rfl

set_option maxHeartbeats 2000000 in
attribute [local irreducible] Host.scatterAdd Host.gather concatenate in
theorem pre_dst (X : Valuation τ sig (Elt F)) :
    after hostOps0_2 (after hostOps0_1 (after hostOps0 X)) (Proc.devRef .tc main_v6) = Cert.Spec.dst (X (Proc.devRef .tc main_arg1)) := by
  dsimp only [hostOps0, hostOps0_1, hostOps0_2]; after_results_simp; rfl

set_option maxHeartbeats 2000000 in
attribute [local irreducible] Host.scatterAdd Host.gather concatenate in
theorem pre_coef (X : Valuation τ sig (Elt F)) :
    after hostOps0_2 (after hostOps0_1 (after hostOps0 X)) (Proc.devRef .tc main_v30) = Cert.Spec.coefCol (Cert.Spec.src (X (Proc.devRef .tc main_arg1))) (Cert.Spec.dst (X (Proc.devRef .tc main_arg1))) := by
  dsimp only [hostOps0, hostOps0_1, hostOps0_2]; after_results_simp; rfl

set_option maxHeartbeats 2000000 in
attribute [local irreducible] Host.scatterAdd Host.gather concatenate in
theorem agg1 (X : Valuation τ sig (Elt F)) :
    after hostOps1 X (Proc.devRef .tc main_v43) = Cert.Spec.agg (X (Proc.devRef .tc main_v3)) (X (Proc.devRef .tc main_v6)) (X (Proc.devRef .tc main_v30)) (X (Proc.devRef .tc main_v31)) := by
  dsimp only [hostOps1]; after_results_simp; rfl

set_option maxHeartbeats 2000000 in
theorem brow1 (X : Valuation τ sig (Elt F)) :
    after hostOps1 X (Proc.devRef .tc main_v44) = shapeCast S1x64 (X (Proc.devRef .tc main_arg5)) shapeCasts_S64_S1x64 := by
  dsimp only [hostOps1]; after_results_simp; rfl

set_option maxHeartbeats 2000000 in
attribute [local irreducible] Host.scatterAdd Host.gather concatenate in
theorem agg2 (X : Valuation τ sig (Elt F)) :
    after hostOps2 X (Proc.devRef .tc main_v57) = Cert.Spec.agg (X (Proc.devRef .tc main_v3)) (X (Proc.devRef .tc main_v6)) (X (Proc.devRef .tc main_v30)) (X (Proc.devRef .tc main_v45)) := by
  dsimp only [hostOps2]; after_results_simp; rfl

set_option maxHeartbeats 2000000 in
theorem brow2 (X : Valuation τ sig (Elt F)) :
    after hostOps2 X (Proc.devRef .tc main_v58) = shapeCast S1x64 (X (Proc.devRef .tc main_arg7)) shapeCasts_S64_S1x64 := by
  dsimp only [hostOps2]; after_results_simp; rfl

set_option maxHeartbeats 2000000 in
attribute [local irreducible] Host.scatterAdd Host.gather concatenate in
theorem agg3 (X : Valuation τ sig (Elt F)) :
    after hostOps3 X (Proc.devRef .tc main_v71) = Cert.Spec.agg (X (Proc.devRef .tc main_v3)) (X (Proc.devRef .tc main_v6)) (X (Proc.devRef .tc main_v30)) (X (Proc.devRef .tc main_v59)) := by
  dsimp only [hostOps3]; after_results_simp; rfl

set_option maxHeartbeats 2000000 in
theorem brow3 (X : Valuation τ sig (Elt F)) :
    after hostOps3 X (Proc.devRef .tc main_v72) = shapeCast S1x64 (X (Proc.devRef .tc main_arg9)) shapeCasts_S64_S1x64 := by
  dsimp only [hostOps3]; after_results_simp; rfl

set_option maxHeartbeats 2000000 in
attribute [local irreducible] Host.scatterAdd Host.gather concatenate in
theorem pooled (X : Valuation τ sig (Elt F)) :
    after hostOps4 X (Proc.devRef .tc main_v86) = Cert.Spec.zcat (Cert.Spec.pool (X (Proc.devRef .tc main_v73)) (X (Proc.devRef .tc main_arg2))) (X (Proc.devRef .tc main_arg3)) := by
  dsimp only [hostOps4]; after_results_simp; rfl

set_option maxHeartbeats 2000000 in
theorem prow_main_v87 (X : Valuation τ sig (Elt F)) :
    after hostOps4 X (Proc.devRef .tc main_v87) = shapeCast S1x128 (X (Proc.devRef .tc main_arg11)) shapeCasts_S128_S1x128 := by
  dsimp only [hostOps4]; after_results_simp; rfl

set_option maxHeartbeats 2000000 in
theorem prow_main_v88 (X : Valuation τ sig (Elt F)) :
    after hostOps4 X (Proc.devRef .tc main_v88) = shapeCast S1x128 (X (Proc.devRef .tc main_arg12)) shapeCasts_S128_S1x128 := by
  dsimp only [hostOps4]; after_results_simp; rfl

set_option maxHeartbeats 2000000 in
theorem prow_main_v89 (X : Valuation τ sig (Elt F)) :
    after hostOps4 X (Proc.devRef .tc main_v89) = shapeCast S1x128 (X (Proc.devRef .tc main_arg13)) shapeCasts_S128_S1x128 := by
  dsimp only [hostOps4]; after_results_simp; rfl

set_option maxHeartbeats 2000000 in
theorem prow_main_v90 (X : Valuation τ sig (Elt F)) :
    after hostOps4 X (Proc.devRef .tc main_v90) = shapeCast S1x64 (X (Proc.devRef .tc main_arg15)) shapeCasts_S64_S1x64 := by
  dsimp only [hostOps4]; after_results_simp; rfl

set_option maxHeartbeats 2000000 in
theorem prow_main_v91 (X : Valuation τ sig (Elt F)) :
    after hostOps4 X (Proc.devRef .tc main_v91) = shapeCast S1x64 (X (Proc.devRef .tc main_arg16)) shapeCasts_S64_S1x64 := by
  dsimp only [hostOps4]; after_results_simp; rfl

set_option maxHeartbeats 2000000 in
theorem prow_main_v92 (X : Valuation τ sig (Elt F)) :
    after hostOps4 X (Proc.devRef .tc main_v92) = shapeCast S1x64 (X (Proc.devRef .tc main_arg17)) shapeCasts_S64_S1x64 := by
  dsimp only [hostOps4]; after_results_simp; rfl

set_option maxHeartbeats 2000000 in
theorem prow_main_v93 (X : Valuation τ sig (Elt F)) :
    after hostOps4 X (Proc.devRef .tc main_v93) = shapeCast S1x32 (X (Proc.devRef .tc main_arg19)) shapeCasts_S32_S1x32 := by
  dsimp only [hostOps4]; after_results_simp; rfl

set_option maxHeartbeats 2000000 in
theorem prow_main_v94 (X : Valuation τ sig (Elt F)) :
    after hostOps4 X (Proc.devRef .tc main_v94) = shapeCast S1x32 (X (Proc.devRef .tc main_arg20)) shapeCasts_S32_S1x32 := by
  dsimp only [hostOps4]; after_results_simp; rfl

set_option maxHeartbeats 2000000 in
theorem prow_main_v95 (X : Valuation τ sig (Elt F)) :
    after hostOps4 X (Proc.devRef .tc main_v95) = shapeCast S1x32 (X (Proc.devRef .tc main_arg21)) shapeCasts_S32_S1x32 := by
  dsimp only [hostOps4]; after_results_simp; rfl

set_option maxHeartbeats 2000000 in
theorem prow_main_v96 (X : Valuation τ sig (Elt F)) :
    after hostOps4 X (Proc.devRef .tc main_v96) = shapeCast S1x1 (X (Proc.devRef .tc main_arg23)) shapeCasts_S1_S1x1 := by
  dsimp only [hostOps4]; after_results_simp; rfl

set_option maxHeartbeats 2000000 in
theorem flat (X : Valuation τ sig (Elt F)) :
    after hostOps5 X (Proc.devRef .tc main_v98) = shapeCast S2048 (X (Proc.devRef .tc main_v97)) shapeCasts_S2048x1_S2048 := by
  dsimp only [hostOps5]; after_results_simp; rfl

end Cert.KernelIdeal.Hand

end
-- ==== Proof.Rows4.lean ====
/-
  A vector of length n laid out as a row [1, n]: the reshape and the broadcast along the new leading axis agree,
  both reading entry (0, j) from entry j.
-/
import proofs.«141089_j11897059410621_1_alg».proof.Proof.Spec
import proofs.«141089_j11897059410621_1_alg».proof.KernelIdeal
import Idealize.ShloMosaic.Lib.Pipeline.Value

noncomputable section

namespace Cert.KernelIdeal.Hand

open Idealize.ShloMosaic

theorem row_eq {α : Type} (n : Nat) (x : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x hc = broadcastInDim ⟨2, ![1, n]⟩ ![1] hb x := by
  funext j
  refine (shapeCast_addUnit_apply (n := 1) ![n] x hc j).trans ?_
  symm
  refine broadcastInDim_apply (s := ⟨1, ![n]⟩) (t := ⟨2, ![1, n]⟩) ![1] hb x j (fun a => j a.succ) ?_
  intro a
  have ha : a = 0 := Subsingleton.elim _ _
  subst ha
  show (j 1).val = if n = 1 then 0 else (j 1).val
  split_ifs with h
  · have h1 : (j 1).val < n := (j 1).isLt
    omega
  · rfl

end Cert.KernelIdeal.Hand

end
-- ==== Proof.Chain.lean ====
import proofs.«141089_j11897059410621_1_alg».proof.Proof.Gen.KernelIdeal.Frame
import proofs.«141089_j11897059410621_1_alg».proof.Proof.Gen.ReferenceIdeal
import proofs.«141089_j11897059410621_1_alg».proof.Proof.Spec
import proofs.«141089_j11897059410621_1_alg».proof.Proof.Stretch
import proofs.«141089_j11897059410621_1_alg».proof.Proof.Rows4
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! The kernel program's result buffer, followed from the launch memory through the thirteen segments: a stretch of
    host operations is the reference's stage function of the contents it starts from, a region's output array is the
    dense stage the region computes (the five hypotheses), and a buffer no segment writes keeps its contents. Composed,
    the result is the reference's whole function of the arguments. -/

/-- A buffer that no operation of a host stretch writes holds afterwards what it held before. -/
macro "host_keep" : tactic => `(tactic| exact StableHlo.after_of_forall_not_mem _ _ (List.forall_iff_forall_mem.mp (by
  simp only [hostOps0, hostOps0_1, hostOps0_2, hostOps1, hostOps2, hostOps3, hostOps4, hostOps5, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg)

set_option maxHeartbeats 4000000 in
theorem chain
    (final0 : ∀ (V : ((c : Dev nD) → (b : Ref sig .tc) → Buf (Elt Ideal) ((c : Thread nD τ).loc b))) (c : Dev nD), (Gen.dat0 (F := Ideal) V c).arrAt 2 cfg0.N = Cert.Spec.lin1 (V c (Pipeline.arrRef spec0 0)) (V c (Pipeline.arrRef spec0 1)))
    (final1 : ∀ (V : ((c : Dev nD) → (b : Ref sig .tc) → Buf (Elt Ideal) ((c : Thread nD τ).loc b))) (c : Dev nD), (Gen.dat1 (F := Ideal) V c).arrAt 3 cfg1.N = Cert.Spec.lin64 (Cert.Spec.biasRelu2 (V c (Pipeline.arrRef spec1 0)) (V c (Pipeline.arrRef spec1 1))) (V c (Pipeline.arrRef spec1 2)))
    (final2 : ∀ (V : ((c : Dev nD) → (b : Ref sig .tc) → Buf (Elt Ideal) ((c : Thread nD τ).loc b))) (c : Dev nD), (Gen.dat2 (F := Ideal) V c).arrAt 3 cfg2.N = Cert.Spec.lin64 (Cert.Spec.biasRelu2 (V c (Pipeline.arrRef spec2 0)) (V c (Pipeline.arrRef spec2 1))) (V c (Pipeline.arrRef spec2 2)))
    (final3 : ∀ (V : ((c : Dev nD) → (b : Ref sig .tc) → Buf (Elt Ideal) ((c : Thread nD τ).loc b))) (c : Dev nD), (Gen.dat3 (F := Ideal) V c).arrAt 2 cfg3.N = Cert.Spec.biasRelu2 (V c (Pipeline.arrRef spec3 0)) (V c (Pipeline.arrRef spec3 1)))
    (final4 : ∀ (V : ((c : Dev nD) → (b : Ref sig .tc) → Buf (Elt Ideal) ((c : Thread nD τ).loc b))) (c : Dev nD), (Gen.dat4 (F := Ideal) V c).arrAt 15 cfg4.N = Cert.Spec.mlpHead2 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)))
    (c : Dev nD) :
    W13 m ρ c (Proc.devRef .tc main_v98) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have h3_v3 : W3 m ρ c (Proc.devRef .tc main_v3) = Cert.Spec.src (m ((c : Thread nD τ).loc main_arg1)) :=
    pre_src (W0 m ρ c)
  have h4_v3 : W4 m ρ c (Proc.devRef .tc main_v3) = Cert.Spec.src (m ((c : Thread nD τ).loc main_arg1)) :=
    (W4_of_ne m ρ c main_v3 (by decide)).trans h3_v3
  have h5_v3 : W5 m ρ c (Proc.devRef .tc main_v3) = Cert.Spec.src (m ((c : Thread nD τ).loc main_arg1)) :=
    (by host_keep : W5 m ρ c (Proc.devRef .tc main_v3) = W4 m ρ c (Proc.devRef .tc main_v3)).trans h4_v3
  have h6_v3 : W6 m ρ c (Proc.devRef .tc main_v3) = Cert.Spec.src (m ((c : Thread nD τ).loc main_arg1)) :=
    (W6_of_ne m ρ c main_v3 (by decide)).trans h5_v3
  have h7_v3 : W7 m ρ c (Proc.devRef .tc main_v3) = Cert.Spec.src (m ((c : Thread nD τ).loc main_arg1)) :=
    (by host_keep : W7 m ρ c (Proc.devRef .tc main_v3) = W6 m ρ c (Proc.devRef .tc main_v3)).trans h6_v3
  have h8_v3 : W8 m ρ c (Proc.devRef .tc main_v3) = Cert.Spec.src (m ((c : Thread nD τ).loc main_arg1)) :=
    (W8_of_ne m ρ c main_v3 (by decide)).trans h7_v3
  have h3_v6 : W3 m ρ c (Proc.devRef .tc main_v6) = Cert.Spec.dst (m ((c : Thread nD τ).loc main_arg1)) :=
    pre_dst (W0 m ρ c)
  have h4_v6 : W4 m ρ c (Proc.devRef .tc main_v6) = Cert.Spec.dst (m ((c : Thread nD τ).loc main_arg1)) :=
    (W4_of_ne m ρ c main_v6 (by decide)).trans h3_v6
  have h5_v6 : W5 m ρ c (Proc.devRef .tc main_v6) = Cert.Spec.dst (m ((c : Thread nD τ).loc main_arg1)) :=
    (by host_keep : W5 m ρ c (Proc.devRef .tc main_v6) = W4 m ρ c (Proc.devRef .tc main_v6)).trans h4_v6
  have h6_v6 : W6 m ρ c (Proc.devRef .tc main_v6) = Cert.Spec.dst (m ((c : Thread nD τ).loc main_arg1)) :=
    (W6_of_ne m ρ c main_v6 (by decide)).trans h5_v6
  have h7_v6 : W7 m ρ c (Proc.devRef .tc main_v6) = Cert.Spec.dst (m ((c : Thread nD τ).loc main_arg1)) :=
    (by host_keep : W7 m ρ c (Proc.devRef .tc main_v6) = W6 m ρ c (Proc.devRef .tc main_v6)).trans h6_v6
  have h8_v6 : W8 m ρ c (Proc.devRef .tc main_v6) = Cert.Spec.dst (m ((c : Thread nD τ).loc main_arg1)) :=
    (W8_of_ne m ρ c main_v6 (by decide)).trans h7_v6
  have h3_v30 : W3 m ρ c (Proc.devRef .tc main_v30) = Cert.Spec.coefCol (Cert.Spec.src (m ((c : Thread nD τ).loc main_arg1))) (Cert.Spec.dst (m ((c : Thread nD τ).loc main_arg1))) :=
    pre_coef (W0 m ρ c)
  have h4_v30 : W4 m ρ c (Proc.devRef .tc main_v30) = Cert.Spec.coefCol (Cert.Spec.src (m ((c : Thread nD τ).loc main_arg1))) (Cert.Spec.dst (m ((c : Thread nD τ).loc main_arg1))) :=
    (W4_of_ne m ρ c main_v30 (by decide)).trans h3_v30
  have h5_v30 : W5 m ρ c (Proc.devRef .tc main_v30) = Cert.Spec.coefCol (Cert.Spec.src (m ((c : Thread nD τ).loc main_arg1))) (Cert.Spec.dst (m ((c : Thread nD τ).loc main_arg1))) :=
    (by host_keep : W5 m ρ c (Proc.devRef .tc main_v30) = W4 m ρ c (Proc.devRef .tc main_v30)).trans h4_v30
  have h6_v30 : W6 m ρ c (Proc.devRef .tc main_v30) = Cert.Spec.coefCol (Cert.Spec.src (m ((c : Thread nD τ).loc main_arg1))) (Cert.Spec.dst (m ((c : Thread nD τ).loc main_arg1))) :=
    (W6_of_ne m ρ c main_v30 (by decide)).trans h5_v30
  have h7_v30 : W7 m ρ c (Proc.devRef .tc main_v30) = Cert.Spec.coefCol (Cert.Spec.src (m ((c : Thread nD τ).loc main_arg1))) (Cert.Spec.dst (m ((c : Thread nD τ).loc main_arg1))) :=
    (by host_keep : W7 m ρ c (Proc.devRef .tc main_v30) = W6 m ρ c (Proc.devRef .tc main_v30)).trans h6_v30
  have h8_v30 : W8 m ρ c (Proc.devRef .tc main_v30) = Cert.Spec.coefCol (Cert.Spec.src (m ((c : Thread nD τ).loc main_arg1))) (Cert.Spec.dst (m ((c : Thread nD τ).loc main_arg1))) :=
    (W8_of_ne m ρ c main_v30 (by decide)).trans h7_v30
  have h3_arg0 : W3 m ρ c (Proc.devRef .tc main_arg0) = (m ((c : Thread nD τ).loc main_arg0)) :=
    (by host_keep : W3 m ρ c (Proc.devRef .tc main_arg0) = W2 m ρ c (Proc.devRef .tc main_arg0)).trans ((by host_keep : W2 m ρ c (Proc.devRef .tc main_arg0) = W1 m ρ c (Proc.devRef .tc main_arg0)).trans (by host_keep : W1 m ρ c (Proc.devRef .tc main_arg0) = W0 m ρ c (Proc.devRef .tc main_arg0)))
  have h3_arg4 : W3 m ρ c (Proc.devRef .tc main_arg4) = (m ((c : Thread nD τ).loc main_arg4)) :=
    (by host_keep : W3 m ρ c (Proc.devRef .tc main_arg4) = W2 m ρ c (Proc.devRef .tc main_arg4)).trans ((by host_keep : W2 m ρ c (Proc.devRef .tc main_arg4) = W1 m ρ c (Proc.devRef .tc main_arg4)).trans (by host_keep : W1 m ρ c (Proc.devRef .tc main_arg4) = W0 m ρ c (Proc.devRef .tc main_arg4)))
  have h4_v31 : W4 m ρ c (Proc.devRef .tc main_v31) = Cert.Spec.lin1 (m ((c : Thread nD τ).loc main_arg0)) (m ((c : Thread nD τ).loc main_arg4)) :=
    (W4_arr m ρ c 2).trans ((final0 (V3 m ρ) c).trans (by
      show Cert.Spec.lin1 (W3 m ρ c (Proc.devRef .tc main_arg0)) (W3 m ρ c (Proc.devRef .tc main_arg4)) = _
      rw [h3_arg0, h3_arg4]))
  have h5_v43 : W5 m ρ c (Proc.devRef .tc main_v43) = Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4))) :=
    (agg1 (W4 m ρ c)).trans (by
      rw [h4_v3, h4_v6, h4_v30, h4_v31])
  have h3_arg5 : W3 m ρ c (Proc.devRef .tc main_arg5) = (m ((c : Thread nD τ).loc main_arg5)) :=
    (by host_keep : W3 m ρ c (Proc.devRef .tc main_arg5) = W2 m ρ c (Proc.devRef .tc main_arg5)).trans ((by host_keep : W2 m ρ c (Proc.devRef .tc main_arg5) = W1 m ρ c (Proc.devRef .tc main_arg5)).trans (by host_keep : W1 m ρ c (Proc.devRef .tc main_arg5) = W0 m ρ c (Proc.devRef .tc main_arg5)))
  have h4_arg5 : W4 m ρ c (Proc.devRef .tc main_arg5) = (m ((c : Thread nD τ).loc main_arg5)) :=
    (W4_of_ne m ρ c main_arg5 (by decide)).trans h3_arg5
  have h5_v44 : W5 m ρ c (Proc.devRef .tc main_v44) = Cert.Spec.row64 (m ((c : Thread nD τ).loc main_arg5)) :=
    (brow1 (W4 m ρ c)).trans (by
      rw [h4_arg5]; exact row_eq 64 _ _ _)
  have h3_arg6 : W3 m ρ c (Proc.devRef .tc main_arg6) = (m ((c : Thread nD τ).loc main_arg6)) :=
    (by host_keep : W3 m ρ c (Proc.devRef .tc main_arg6) = W2 m ρ c (Proc.devRef .tc main_arg6)).trans ((by host_keep : W2 m ρ c (Proc.devRef .tc main_arg6) = W1 m ρ c (Proc.devRef .tc main_arg6)).trans (by host_keep : W1 m ρ c (Proc.devRef .tc main_arg6) = W0 m ρ c (Proc.devRef .tc main_arg6)))
  have h4_arg6 : W4 m ρ c (Proc.devRef .tc main_arg6) = (m ((c : Thread nD τ).loc main_arg6)) :=
    (W4_of_ne m ρ c main_arg6 (by decide)).trans h3_arg6
  have h5_arg6 : W5 m ρ c (Proc.devRef .tc main_arg6) = (m ((c : Thread nD τ).loc main_arg6)) :=
    (by host_keep : W5 m ρ c (Proc.devRef .tc main_arg6) = W4 m ρ c (Proc.devRef .tc main_arg6)).trans h4_arg6
  have h6_v45 : W6 m ρ c (Proc.devRef .tc main_v45) = Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)) :=
    (W6_arr m ρ c 3).trans ((final1 (V5 m ρ) c).trans (by
      show Cert.Spec.lin64 (Cert.Spec.biasRelu2 (W5 m ρ c (Proc.devRef .tc main_v43)) (W5 m ρ c (Proc.devRef .tc main_v44))) (W5 m ρ c (Proc.devRef .tc main_arg6)) = _
      rw [h5_v43, h5_v44, h5_arg6]))
  have h7_v57 : W7 m ρ c (Proc.devRef .tc main_v57) = Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6))) :=
    (agg2 (W6 m ρ c)).trans (by
      rw [h6_v3, h6_v6, h6_v30, h6_v45])
  have h3_arg7 : W3 m ρ c (Proc.devRef .tc main_arg7) = (m ((c : Thread nD τ).loc main_arg7)) :=
    (by host_keep : W3 m ρ c (Proc.devRef .tc main_arg7) = W2 m ρ c (Proc.devRef .tc main_arg7)).trans ((by host_keep : W2 m ρ c (Proc.devRef .tc main_arg7) = W1 m ρ c (Proc.devRef .tc main_arg7)).trans (by host_keep : W1 m ρ c (Proc.devRef .tc main_arg7) = W0 m ρ c (Proc.devRef .tc main_arg7)))
  have h4_arg7 : W4 m ρ c (Proc.devRef .tc main_arg7) = (m ((c : Thread nD τ).loc main_arg7)) :=
    (W4_of_ne m ρ c main_arg7 (by decide)).trans h3_arg7
  have h5_arg7 : W5 m ρ c (Proc.devRef .tc main_arg7) = (m ((c : Thread nD τ).loc main_arg7)) :=
    (by host_keep : W5 m ρ c (Proc.devRef .tc main_arg7) = W4 m ρ c (Proc.devRef .tc main_arg7)).trans h4_arg7
  have h6_arg7 : W6 m ρ c (Proc.devRef .tc main_arg7) = (m ((c : Thread nD τ).loc main_arg7)) :=
    (W6_of_ne m ρ c main_arg7 (by decide)).trans h5_arg7
  have h7_v58 : W7 m ρ c (Proc.devRef .tc main_v58) = Cert.Spec.row64 (m ((c : Thread nD τ).loc main_arg7)) :=
    (brow2 (W6 m ρ c)).trans (by
      rw [h6_arg7]; exact row_eq 64 _ _ _)
  have h3_arg8 : W3 m ρ c (Proc.devRef .tc main_arg8) = (m ((c : Thread nD τ).loc main_arg8)) :=
    (by host_keep : W3 m ρ c (Proc.devRef .tc main_arg8) = W2 m ρ c (Proc.devRef .tc main_arg8)).trans ((by host_keep : W2 m ρ c (Proc.devRef .tc main_arg8) = W1 m ρ c (Proc.devRef .tc main_arg8)).trans (by host_keep : W1 m ρ c (Proc.devRef .tc main_arg8) = W0 m ρ c (Proc.devRef .tc main_arg8)))
  have h4_arg8 : W4 m ρ c (Proc.devRef .tc main_arg8) = (m ((c : Thread nD τ).loc main_arg8)) :=
    (W4_of_ne m ρ c main_arg8 (by decide)).trans h3_arg8
  have h5_arg8 : W5 m ρ c (Proc.devRef .tc main_arg8) = (m ((c : Thread nD τ).loc main_arg8)) :=
    (by host_keep : W5 m ρ c (Proc.devRef .tc main_arg8) = W4 m ρ c (Proc.devRef .tc main_arg8)).trans h4_arg8
  have h6_arg8 : W6 m ρ c (Proc.devRef .tc main_arg8) = (m ((c : Thread nD τ).loc main_arg8)) :=
    (W6_of_ne m ρ c main_arg8 (by decide)).trans h5_arg8
  have h7_arg8 : W7 m ρ c (Proc.devRef .tc main_arg8) = (m ((c : Thread nD τ).loc main_arg8)) :=
    (by host_keep : W7 m ρ c (Proc.devRef .tc main_arg8) = W6 m ρ c (Proc.devRef .tc main_arg8)).trans h6_arg8
  have h8_v59 : W8 m ρ c (Proc.devRef .tc main_v59) = Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)))) (Cert.Spec.row64 (m ((c : Thread nD τ).loc main_arg7)))) (m ((c : Thread nD τ).loc main_arg8)) :=
    (W8_arr m ρ c 3).trans ((final2 (V7 m ρ) c).trans (by
      show Cert.Spec.lin64 (Cert.Spec.biasRelu2 (W7 m ρ c (Proc.devRef .tc main_v57)) (W7 m ρ c (Proc.devRef .tc main_v58))) (W7 m ρ c (Proc.devRef .tc main_arg8)) = _
      rw [h7_v57, h7_v58, h7_arg8]))
  have h9_v71 : W9 m ρ c (Proc.devRef .tc main_v71) = Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)))) (Cert.Spec.row64 (m ((c : Thread nD τ).loc main_arg7)))) (m ((c : Thread nD τ).loc main_arg8))) :=
    (agg3 (W8 m ρ c)).trans (by
      rw [h8_v3, h8_v6, h8_v30, h8_v59])
  have h3_arg9 : W3 m ρ c (Proc.devRef .tc main_arg9) = (m ((c : Thread nD τ).loc main_arg9)) :=
    (by host_keep : W3 m ρ c (Proc.devRef .tc main_arg9) = W2 m ρ c (Proc.devRef .tc main_arg9)).trans ((by host_keep : W2 m ρ c (Proc.devRef .tc main_arg9) = W1 m ρ c (Proc.devRef .tc main_arg9)).trans (by host_keep : W1 m ρ c (Proc.devRef .tc main_arg9) = W0 m ρ c (Proc.devRef .tc main_arg9)))
  have h4_arg9 : W4 m ρ c (Proc.devRef .tc main_arg9) = (m ((c : Thread nD τ).loc main_arg9)) :=
    (W4_of_ne m ρ c main_arg9 (by decide)).trans h3_arg9
  have h5_arg9 : W5 m ρ c (Proc.devRef .tc main_arg9) = (m ((c : Thread nD τ).loc main_arg9)) :=
    (by host_keep : W5 m ρ c (Proc.devRef .tc main_arg9) = W4 m ρ c (Proc.devRef .tc main_arg9)).trans h4_arg9
  have h6_arg9 : W6 m ρ c (Proc.devRef .tc main_arg9) = (m ((c : Thread nD τ).loc main_arg9)) :=
    (W6_of_ne m ρ c main_arg9 (by decide)).trans h5_arg9
  have h7_arg9 : W7 m ρ c (Proc.devRef .tc main_arg9) = (m ((c : Thread nD τ).loc main_arg9)) :=
    (by host_keep : W7 m ρ c (Proc.devRef .tc main_arg9) = W6 m ρ c (Proc.devRef .tc main_arg9)).trans h6_arg9
  have h8_arg9 : W8 m ρ c (Proc.devRef .tc main_arg9) = (m ((c : Thread nD τ).loc main_arg9)) :=
    (W8_of_ne m ρ c main_arg9 (by decide)).trans h7_arg9
  have h9_v72 : W9 m ρ c (Proc.devRef .tc main_v72) = Cert.Spec.row64 (m ((c : Thread nD τ).loc main_arg9)) :=
    (brow3 (W8 m ρ c)).trans (by
      rw [h8_arg9]; exact row_eq 64 _ _ _)
  have h10_v73 : W10 m ρ c (Proc.devRef .tc main_v73) = Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)))) (Cert.Spec.row64 (m ((c : Thread nD τ).loc main_arg7)))) (m ((c : Thread nD τ).loc main_arg8)))) (Cert.Spec.row64 (m ((c : Thread nD τ).loc main_arg9))) :=
    (W10_arr m ρ c 2).trans ((final3 (V9 m ρ) c).trans (by
      show Cert.Spec.biasRelu2 (W9 m ρ c (Proc.devRef .tc main_v71)) (W9 m ρ c (Proc.devRef .tc main_v72)) = _
      rw [h9_v71, h9_v72]))
  have h3_arg2 : W3 m ρ c (Proc.devRef .tc main_arg2) = (m ((c : Thread nD τ).loc main_arg2)) :=
    (by host_keep : W3 m ρ c (Proc.devRef .tc main_arg2) = W2 m ρ c (Proc.devRef .tc main_arg2)).trans ((by host_keep : W2 m ρ c (Proc.devRef .tc main_arg2) = W1 m ρ c (Proc.devRef .tc main_arg2)).trans (by host_keep : W1 m ρ c (Proc.devRef .tc main_arg2) = W0 m ρ c (Proc.devRef .tc main_arg2)))
  have h4_arg2 : W4 m ρ c (Proc.devRef .tc main_arg2) = (m ((c : Thread nD τ).loc main_arg2)) :=
    (W4_of_ne m ρ c main_arg2 (by decide)).trans h3_arg2
  have h5_arg2 : W5 m ρ c (Proc.devRef .tc main_arg2) = (m ((c : Thread nD τ).loc main_arg2)) :=
    (by host_keep : W5 m ρ c (Proc.devRef .tc main_arg2) = W4 m ρ c (Proc.devRef .tc main_arg2)).trans h4_arg2
  have h6_arg2 : W6 m ρ c (Proc.devRef .tc main_arg2) = (m ((c : Thread nD τ).loc main_arg2)) :=
    (W6_of_ne m ρ c main_arg2 (by decide)).trans h5_arg2
  have h7_arg2 : W7 m ρ c (Proc.devRef .tc main_arg2) = (m ((c : Thread nD τ).loc main_arg2)) :=
    (by host_keep : W7 m ρ c (Proc.devRef .tc main_arg2) = W6 m ρ c (Proc.devRef .tc main_arg2)).trans h6_arg2
  have h8_arg2 : W8 m ρ c (Proc.devRef .tc main_arg2) = (m ((c : Thread nD τ).loc main_arg2)) :=
    (W8_of_ne m ρ c main_arg2 (by decide)).trans h7_arg2
  have h9_arg2 : W9 m ρ c (Proc.devRef .tc main_arg2) = (m ((c : Thread nD τ).loc main_arg2)) :=
    (by host_keep : W9 m ρ c (Proc.devRef .tc main_arg2) = W8 m ρ c (Proc.devRef .tc main_arg2)).trans h8_arg2
  have h10_arg2 : W10 m ρ c (Proc.devRef .tc main_arg2) = (m ((c : Thread nD τ).loc main_arg2)) :=
    (W10_of_ne m ρ c main_arg2 (by decide)).trans h9_arg2
  have h3_arg3 : W3 m ρ c (Proc.devRef .tc main_arg3) = (m ((c : Thread nD τ).loc main_arg3)) :=
    (by host_keep : W3 m ρ c (Proc.devRef .tc main_arg3) = W2 m ρ c (Proc.devRef .tc main_arg3)).trans ((by host_keep : W2 m ρ c (Proc.devRef .tc main_arg3) = W1 m ρ c (Proc.devRef .tc main_arg3)).trans (by host_keep : W1 m ρ c (Proc.devRef .tc main_arg3) = W0 m ρ c (Proc.devRef .tc main_arg3)))
  have h4_arg3 : W4 m ρ c (Proc.devRef .tc main_arg3) = (m ((c : Thread nD τ).loc main_arg3)) :=
    (W4_of_ne m ρ c main_arg3 (by decide)).trans h3_arg3
  have h5_arg3 : W5 m ρ c (Proc.devRef .tc main_arg3) = (m ((c : Thread nD τ).loc main_arg3)) :=
    (by host_keep : W5 m ρ c (Proc.devRef .tc main_arg3) = W4 m ρ c (Proc.devRef .tc main_arg3)).trans h4_arg3
  have h6_arg3 : W6 m ρ c (Proc.devRef .tc main_arg3) = (m ((c : Thread nD τ).loc main_arg3)) :=
    (W6_of_ne m ρ c main_arg3 (by decide)).trans h5_arg3
  have h7_arg3 : W7 m ρ c (Proc.devRef .tc main_arg3) = (m ((c : Thread nD τ).loc main_arg3)) :=
    (by host_keep : W7 m ρ c (Proc.devRef .tc main_arg3) = W6 m ρ c (Proc.devRef .tc main_arg3)).trans h6_arg3
  have h8_arg3 : W8 m ρ c (Proc.devRef .tc main_arg3) = (m ((c : Thread nD τ).loc main_arg3)) :=
    (W8_of_ne m ρ c main_arg3 (by decide)).trans h7_arg3
  have h9_arg3 : W9 m ρ c (Proc.devRef .tc main_arg3) = (m ((c : Thread nD τ).loc main_arg3)) :=
    (by host_keep : W9 m ρ c (Proc.devRef .tc main_arg3) = W8 m ρ c (Proc.devRef .tc main_arg3)).trans h8_arg3
  have h10_arg3 : W10 m ρ c (Proc.devRef .tc main_arg3) = (m ((c : Thread nD τ).loc main_arg3)) :=
    (W10_of_ne m ρ c main_arg3 (by decide)).trans h9_arg3
  have h11_v86 : W11 m ρ c (Proc.devRef .tc main_v86) = Cert.Spec.zcat (Cert.Spec.pool (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)))) (Cert.Spec.row64 (m ((c : Thread nD τ).loc main_arg7)))) (m ((c : Thread nD τ).loc main_arg8)))) (Cert.Spec.row64 (m ((c : Thread nD τ).loc main_arg9)))) (m ((c : Thread nD τ).loc main_arg2))) (m ((c : Thread nD τ).loc main_arg3)) :=
    (pooled (W10 m ρ c)).trans (by
      rw [h10_v73, h10_arg2, h10_arg3])
  have h3_arg10 : W3 m ρ c (Proc.devRef .tc main_arg10) = (m ((c : Thread nD τ).loc main_arg10)) :=
    (by host_keep : W3 m ρ c (Proc.devRef .tc main_arg10) = W2 m ρ c (Proc.devRef .tc main_arg10)).trans ((by host_keep : W2 m ρ c (Proc.devRef .tc main_arg10) = W1 m ρ c (Proc.devRef .tc main_arg10)).trans (by host_keep : W1 m ρ c (Proc.devRef .tc main_arg10) = W0 m ρ c (Proc.devRef .tc main_arg10)))
  have h4_arg10 : W4 m ρ c (Proc.devRef .tc main_arg10) = (m ((c : Thread nD τ).loc main_arg10)) :=
    (W4_of_ne m ρ c main_arg10 (by decide)).trans h3_arg10
  have h5_arg10 : W5 m ρ c (Proc.devRef .tc main_arg10) = (m ((c : Thread nD τ).loc main_arg10)) :=
    (by host_keep : W5 m ρ c (Proc.devRef .tc main_arg10) = W4 m ρ c (Proc.devRef .tc main_arg10)).trans h4_arg10
  have h6_arg10 : W6 m ρ c (Proc.devRef .tc main_arg10) = (m ((c : Thread nD τ).loc main_arg10)) :=
    (W6_of_ne m ρ c main_arg10 (by decide)).trans h5_arg10
  have h7_arg10 : W7 m ρ c (Proc.devRef .tc main_arg10) = (m ((c : Thread nD τ).loc main_arg10)) :=
    (by host_keep : W7 m ρ c (Proc.devRef .tc main_arg10) = W6 m ρ c (Proc.devRef .tc main_arg10)).trans h6_arg10
  have h8_arg10 : W8 m ρ c (Proc.devRef .tc main_arg10) = (m ((c : Thread nD τ).loc main_arg10)) :=
    (W8_of_ne m ρ c main_arg10 (by decide)).trans h7_arg10
  have h9_arg10 : W9 m ρ c (Proc.devRef .tc main_arg10) = (m ((c : Thread nD τ).loc main_arg10)) :=
    (by host_keep : W9 m ρ c (Proc.devRef .tc main_arg10) = W8 m ρ c (Proc.devRef .tc main_arg10)).trans h8_arg10
  have h10_arg10 : W10 m ρ c (Proc.devRef .tc main_arg10) = (m ((c : Thread nD τ).loc main_arg10)) :=
    (W10_of_ne m ρ c main_arg10 (by decide)).trans h9_arg10
  have h11_arg10 : W11 m ρ c (Proc.devRef .tc main_arg10) = (m ((c : Thread nD τ).loc main_arg10)) :=
    (by host_keep : W11 m ρ c (Proc.devRef .tc main_arg10) = W10 m ρ c (Proc.devRef .tc main_arg10)).trans h10_arg10
  have h3_arg11 : W3 m ρ c (Proc.devRef .tc main_arg11) = (m ((c : Thread nD τ).loc main_arg11)) :=
    (by host_keep : W3 m ρ c (Proc.devRef .tc main_arg11) = W2 m ρ c (Proc.devRef .tc main_arg11)).trans ((by host_keep : W2 m ρ c (Proc.devRef .tc main_arg11) = W1 m ρ c (Proc.devRef .tc main_arg11)).trans (by host_keep : W1 m ρ c (Proc.devRef .tc main_arg11) = W0 m ρ c (Proc.devRef .tc main_arg11)))
  have h4_arg11 : W4 m ρ c (Proc.devRef .tc main_arg11) = (m ((c : Thread nD τ).loc main_arg11)) :=
    (W4_of_ne m ρ c main_arg11 (by decide)).trans h3_arg11
  have h5_arg11 : W5 m ρ c (Proc.devRef .tc main_arg11) = (m ((c : Thread nD τ).loc main_arg11)) :=
    (by host_keep : W5 m ρ c (Proc.devRef .tc main_arg11) = W4 m ρ c (Proc.devRef .tc main_arg11)).trans h4_arg11
  have h6_arg11 : W6 m ρ c (Proc.devRef .tc main_arg11) = (m ((c : Thread nD τ).loc main_arg11)) :=
    (W6_of_ne m ρ c main_arg11 (by decide)).trans h5_arg11
  have h7_arg11 : W7 m ρ c (Proc.devRef .tc main_arg11) = (m ((c : Thread nD τ).loc main_arg11)) :=
    (by host_keep : W7 m ρ c (Proc.devRef .tc main_arg11) = W6 m ρ c (Proc.devRef .tc main_arg11)).trans h6_arg11
  have h8_arg11 : W8 m ρ c (Proc.devRef .tc main_arg11) = (m ((c : Thread nD τ).loc main_arg11)) :=
    (W8_of_ne m ρ c main_arg11 (by decide)).trans h7_arg11
  have h9_arg11 : W9 m ρ c (Proc.devRef .tc main_arg11) = (m ((c : Thread nD τ).loc main_arg11)) :=
    (by host_keep : W9 m ρ c (Proc.devRef .tc main_arg11) = W8 m ρ c (Proc.devRef .tc main_arg11)).trans h8_arg11
  have h10_arg11 : W10 m ρ c (Proc.devRef .tc main_arg11) = (m ((c : Thread nD τ).loc main_arg11)) :=
    (W10_of_ne m ρ c main_arg11 (by decide)).trans h9_arg11
  have h11_v87 : W11 m ρ c (Proc.devRef .tc main_v87) = Cert.Spec.row128 (m ((c : Thread nD τ).loc main_arg11)) :=
    (prow_main_v87 (W10 m ρ c)).trans (by
      rw [h10_arg11]; exact row_eq 128 _ _ _)
  have h3_arg12 : W3 m ρ c (Proc.devRef .tc main_arg12) = (m ((c : Thread nD τ).loc main_arg12)) :=
    (by host_keep : W3 m ρ c (Proc.devRef .tc main_arg12) = W2 m ρ c (Proc.devRef .tc main_arg12)).trans ((by host_keep : W2 m ρ c (Proc.devRef .tc main_arg12) = W1 m ρ c (Proc.devRef .tc main_arg12)).trans (by host_keep : W1 m ρ c (Proc.devRef .tc main_arg12) = W0 m ρ c (Proc.devRef .tc main_arg12)))
  have h4_arg12 : W4 m ρ c (Proc.devRef .tc main_arg12) = (m ((c : Thread nD τ).loc main_arg12)) :=
    (W4_of_ne m ρ c main_arg12 (by decide)).trans h3_arg12
  have h5_arg12 : W5 m ρ c (Proc.devRef .tc main_arg12) = (m ((c : Thread nD τ).loc main_arg12)) :=
    (by host_keep : W5 m ρ c (Proc.devRef .tc main_arg12) = W4 m ρ c (Proc.devRef .tc main_arg12)).trans h4_arg12
  have h6_arg12 : W6 m ρ c (Proc.devRef .tc main_arg12) = (m ((c : Thread nD τ).loc main_arg12)) :=
    (W6_of_ne m ρ c main_arg12 (by decide)).trans h5_arg12
  have h7_arg12 : W7 m ρ c (Proc.devRef .tc main_arg12) = (m ((c : Thread nD τ).loc main_arg12)) :=
    (by host_keep : W7 m ρ c (Proc.devRef .tc main_arg12) = W6 m ρ c (Proc.devRef .tc main_arg12)).trans h6_arg12
  have h8_arg12 : W8 m ρ c (Proc.devRef .tc main_arg12) = (m ((c : Thread nD τ).loc main_arg12)) :=
    (W8_of_ne m ρ c main_arg12 (by decide)).trans h7_arg12
  have h9_arg12 : W9 m ρ c (Proc.devRef .tc main_arg12) = (m ((c : Thread nD τ).loc main_arg12)) :=
    (by host_keep : W9 m ρ c (Proc.devRef .tc main_arg12) = W8 m ρ c (Proc.devRef .tc main_arg12)).trans h8_arg12
  have h10_arg12 : W10 m ρ c (Proc.devRef .tc main_arg12) = (m ((c : Thread nD τ).loc main_arg12)) :=
    (W10_of_ne m ρ c main_arg12 (by decide)).trans h9_arg12
  have h11_v88 : W11 m ρ c (Proc.devRef .tc main_v88) = Cert.Spec.row128 (m ((c : Thread nD τ).loc main_arg12)) :=
    (prow_main_v88 (W10 m ρ c)).trans (by
      rw [h10_arg12]; exact row_eq 128 _ _ _)
  have h3_arg13 : W3 m ρ c (Proc.devRef .tc main_arg13) = (m ((c : Thread nD τ).loc main_arg13)) :=
    (by host_keep : W3 m ρ c (Proc.devRef .tc main_arg13) = W2 m ρ c (Proc.devRef .tc main_arg13)).trans ((by host_keep : W2 m ρ c (Proc.devRef .tc main_arg13) = W1 m ρ c (Proc.devRef .tc main_arg13)).trans (by host_keep : W1 m ρ c (Proc.devRef .tc main_arg13) = W0 m ρ c (Proc.devRef .tc main_arg13)))
  have h4_arg13 : W4 m ρ c (Proc.devRef .tc main_arg13) = (m ((c : Thread nD τ).loc main_arg13)) :=
    (W4_of_ne m ρ c main_arg13 (by decide)).trans h3_arg13
  have h5_arg13 : W5 m ρ c (Proc.devRef .tc main_arg13) = (m ((c : Thread nD τ).loc main_arg13)) :=
    (by host_keep : W5 m ρ c (Proc.devRef .tc main_arg13) = W4 m ρ c (Proc.devRef .tc main_arg13)).trans h4_arg13
  have h6_arg13 : W6 m ρ c (Proc.devRef .tc main_arg13) = (m ((c : Thread nD τ).loc main_arg13)) :=
    (W6_of_ne m ρ c main_arg13 (by decide)).trans h5_arg13
  have h7_arg13 : W7 m ρ c (Proc.devRef .tc main_arg13) = (m ((c : Thread nD τ).loc main_arg13)) :=
    (by host_keep : W7 m ρ c (Proc.devRef .tc main_arg13) = W6 m ρ c (Proc.devRef .tc main_arg13)).trans h6_arg13
  have h8_arg13 : W8 m ρ c (Proc.devRef .tc main_arg13) = (m ((c : Thread nD τ).loc main_arg13)) :=
    (W8_of_ne m ρ c main_arg13 (by decide)).trans h7_arg13
  have h9_arg13 : W9 m ρ c (Proc.devRef .tc main_arg13) = (m ((c : Thread nD τ).loc main_arg13)) :=
    (by host_keep : W9 m ρ c (Proc.devRef .tc main_arg13) = W8 m ρ c (Proc.devRef .tc main_arg13)).trans h8_arg13
  have h10_arg13 : W10 m ρ c (Proc.devRef .tc main_arg13) = (m ((c : Thread nD τ).loc main_arg13)) :=
    (W10_of_ne m ρ c main_arg13 (by decide)).trans h9_arg13
  have h11_v89 : W11 m ρ c (Proc.devRef .tc main_v89) = Cert.Spec.row128 (m ((c : Thread nD τ).loc main_arg13)) :=
    (prow_main_v89 (W10 m ρ c)).trans (by
      rw [h10_arg13]; exact row_eq 128 _ _ _)
  have h3_arg14 : W3 m ρ c (Proc.devRef .tc main_arg14) = (m ((c : Thread nD τ).loc main_arg14)) :=
    (by host_keep : W3 m ρ c (Proc.devRef .tc main_arg14) = W2 m ρ c (Proc.devRef .tc main_arg14)).trans ((by host_keep : W2 m ρ c (Proc.devRef .tc main_arg14) = W1 m ρ c (Proc.devRef .tc main_arg14)).trans (by host_keep : W1 m ρ c (Proc.devRef .tc main_arg14) = W0 m ρ c (Proc.devRef .tc main_arg14)))
  have h4_arg14 : W4 m ρ c (Proc.devRef .tc main_arg14) = (m ((c : Thread nD τ).loc main_arg14)) :=
    (W4_of_ne m ρ c main_arg14 (by decide)).trans h3_arg14
  have h5_arg14 : W5 m ρ c (Proc.devRef .tc main_arg14) = (m ((c : Thread nD τ).loc main_arg14)) :=
    (by host_keep : W5 m ρ c (Proc.devRef .tc main_arg14) = W4 m ρ c (Proc.devRef .tc main_arg14)).trans h4_arg14
  have h6_arg14 : W6 m ρ c (Proc.devRef .tc main_arg14) = (m ((c : Thread nD τ).loc main_arg14)) :=
    (W6_of_ne m ρ c main_arg14 (by decide)).trans h5_arg14
  have h7_arg14 : W7 m ρ c (Proc.devRef .tc main_arg14) = (m ((c : Thread nD τ).loc main_arg14)) :=
    (by host_keep : W7 m ρ c (Proc.devRef .tc main_arg14) = W6 m ρ c (Proc.devRef .tc main_arg14)).trans h6_arg14
  have h8_arg14 : W8 m ρ c (Proc.devRef .tc main_arg14) = (m ((c : Thread nD τ).loc main_arg14)) :=
    (W8_of_ne m ρ c main_arg14 (by decide)).trans h7_arg14
  have h9_arg14 : W9 m ρ c (Proc.devRef .tc main_arg14) = (m ((c : Thread nD τ).loc main_arg14)) :=
    (by host_keep : W9 m ρ c (Proc.devRef .tc main_arg14) = W8 m ρ c (Proc.devRef .tc main_arg14)).trans h8_arg14
  have h10_arg14 : W10 m ρ c (Proc.devRef .tc main_arg14) = (m ((c : Thread nD τ).loc main_arg14)) :=
    (W10_of_ne m ρ c main_arg14 (by decide)).trans h9_arg14
  have h11_arg14 : W11 m ρ c (Proc.devRef .tc main_arg14) = (m ((c : Thread nD τ).loc main_arg14)) :=
    (by host_keep : W11 m ρ c (Proc.devRef .tc main_arg14) = W10 m ρ c (Proc.devRef .tc main_arg14)).trans h10_arg14
  have h3_arg15 : W3 m ρ c (Proc.devRef .tc main_arg15) = (m ((c : Thread nD τ).loc main_arg15)) :=
    (by host_keep : W3 m ρ c (Proc.devRef .tc main_arg15) = W2 m ρ c (Proc.devRef .tc main_arg15)).trans ((by host_keep : W2 m ρ c (Proc.devRef .tc main_arg15) = W1 m ρ c (Proc.devRef .tc main_arg15)).trans (by host_keep : W1 m ρ c (Proc.devRef .tc main_arg15) = W0 m ρ c (Proc.devRef .tc main_arg15)))
  have h4_arg15 : W4 m ρ c (Proc.devRef .tc main_arg15) = (m ((c : Thread nD τ).loc main_arg15)) :=
    (W4_of_ne m ρ c main_arg15 (by decide)).trans h3_arg15
  have h5_arg15 : W5 m ρ c (Proc.devRef .tc main_arg15) = (m ((c : Thread nD τ).loc main_arg15)) :=
    (by host_keep : W5 m ρ c (Proc.devRef .tc main_arg15) = W4 m ρ c (Proc.devRef .tc main_arg15)).trans h4_arg15
  have h6_arg15 : W6 m ρ c (Proc.devRef .tc main_arg15) = (m ((c : Thread nD τ).loc main_arg15)) :=
    (W6_of_ne m ρ c main_arg15 (by decide)).trans h5_arg15
  have h7_arg15 : W7 m ρ c (Proc.devRef .tc main_arg15) = (m ((c : Thread nD τ).loc main_arg15)) :=
    (by host_keep : W7 m ρ c (Proc.devRef .tc main_arg15) = W6 m ρ c (Proc.devRef .tc main_arg15)).trans h6_arg15
  have h8_arg15 : W8 m ρ c (Proc.devRef .tc main_arg15) = (m ((c : Thread nD τ).loc main_arg15)) :=
    (W8_of_ne m ρ c main_arg15 (by decide)).trans h7_arg15
  have h9_arg15 : W9 m ρ c (Proc.devRef .tc main_arg15) = (m ((c : Thread nD τ).loc main_arg15)) :=
    (by host_keep : W9 m ρ c (Proc.devRef .tc main_arg15) = W8 m ρ c (Proc.devRef .tc main_arg15)).trans h8_arg15
  have h10_arg15 : W10 m ρ c (Proc.devRef .tc main_arg15) = (m ((c : Thread nD τ).loc main_arg15)) :=
    (W10_of_ne m ρ c main_arg15 (by decide)).trans h9_arg15
  have h11_v90 : W11 m ρ c (Proc.devRef .tc main_v90) = Cert.Spec.row64 (m ((c : Thread nD τ).loc main_arg15)) :=
    (prow_main_v90 (W10 m ρ c)).trans (by
      rw [h10_arg15]; exact row_eq 64 _ _ _)
  have h3_arg16 : W3 m ρ c (Proc.devRef .tc main_arg16) = (m ((c : Thread nD τ).loc main_arg16)) :=
    (by host_keep : W3 m ρ c (Proc.devRef .tc main_arg16) = W2 m ρ c (Proc.devRef .tc main_arg16)).trans ((by host_keep : W2 m ρ c (Proc.devRef .tc main_arg16) = W1 m ρ c (Proc.devRef .tc main_arg16)).trans (by host_keep : W1 m ρ c (Proc.devRef .tc main_arg16) = W0 m ρ c (Proc.devRef .tc main_arg16)))
  have h4_arg16 : W4 m ρ c (Proc.devRef .tc main_arg16) = (m ((c : Thread nD τ).loc main_arg16)) :=
    (W4_of_ne m ρ c main_arg16 (by decide)).trans h3_arg16
  have h5_arg16 : W5 m ρ c (Proc.devRef .tc main_arg16) = (m ((c : Thread nD τ).loc main_arg16)) :=
    (by host_keep : W5 m ρ c (Proc.devRef .tc main_arg16) = W4 m ρ c (Proc.devRef .tc main_arg16)).trans h4_arg16
  have h6_arg16 : W6 m ρ c (Proc.devRef .tc main_arg16) = (m ((c : Thread nD τ).loc main_arg16)) :=
    (W6_of_ne m ρ c main_arg16 (by decide)).trans h5_arg16
  have h7_arg16 : W7 m ρ c (Proc.devRef .tc main_arg16) = (m ((c : Thread nD τ).loc main_arg16)) :=
    (by host_keep : W7 m ρ c (Proc.devRef .tc main_arg16) = W6 m ρ c (Proc.devRef .tc main_arg16)).trans h6_arg16
  have h8_arg16 : W8 m ρ c (Proc.devRef .tc main_arg16) = (m ((c : Thread nD τ).loc main_arg16)) :=
    (W8_of_ne m ρ c main_arg16 (by decide)).trans h7_arg16
  have h9_arg16 : W9 m ρ c (Proc.devRef .tc main_arg16) = (m ((c : Thread nD τ).loc main_arg16)) :=
    (by host_keep : W9 m ρ c (Proc.devRef .tc main_arg16) = W8 m ρ c (Proc.devRef .tc main_arg16)).trans h8_arg16
  have h10_arg16 : W10 m ρ c (Proc.devRef .tc main_arg16) = (m ((c : Thread nD τ).loc main_arg16)) :=
    (W10_of_ne m ρ c main_arg16 (by decide)).trans h9_arg16
  have h11_v91 : W11 m ρ c (Proc.devRef .tc main_v91) = Cert.Spec.row64 (m ((c : Thread nD τ).loc main_arg16)) :=
    (prow_main_v91 (W10 m ρ c)).trans (by
      rw [h10_arg16]; exact row_eq 64 _ _ _)
  have h3_arg17 : W3 m ρ c (Proc.devRef .tc main_arg17) = (m ((c : Thread nD τ).loc main_arg17)) :=
    (by host_keep : W3 m ρ c (Proc.devRef .tc main_arg17) = W2 m ρ c (Proc.devRef .tc main_arg17)).trans ((by host_keep : W2 m ρ c (Proc.devRef .tc main_arg17) = W1 m ρ c (Proc.devRef .tc main_arg17)).trans (by host_keep : W1 m ρ c (Proc.devRef .tc main_arg17) = W0 m ρ c (Proc.devRef .tc main_arg17)))
  have h4_arg17 : W4 m ρ c (Proc.devRef .tc main_arg17) = (m ((c : Thread nD τ).loc main_arg17)) :=
    (W4_of_ne m ρ c main_arg17 (by decide)).trans h3_arg17
  have h5_arg17 : W5 m ρ c (Proc.devRef .tc main_arg17) = (m ((c : Thread nD τ).loc main_arg17)) :=
    (by host_keep : W5 m ρ c (Proc.devRef .tc main_arg17) = W4 m ρ c (Proc.devRef .tc main_arg17)).trans h4_arg17
  have h6_arg17 : W6 m ρ c (Proc.devRef .tc main_arg17) = (m ((c : Thread nD τ).loc main_arg17)) :=
    (W6_of_ne m ρ c main_arg17 (by decide)).trans h5_arg17
  have h7_arg17 : W7 m ρ c (Proc.devRef .tc main_arg17) = (m ((c : Thread nD τ).loc main_arg17)) :=
    (by host_keep : W7 m ρ c (Proc.devRef .tc main_arg17) = W6 m ρ c (Proc.devRef .tc main_arg17)).trans h6_arg17
  have h8_arg17 : W8 m ρ c (Proc.devRef .tc main_arg17) = (m ((c : Thread nD τ).loc main_arg17)) :=
    (W8_of_ne m ρ c main_arg17 (by decide)).trans h7_arg17
  have h9_arg17 : W9 m ρ c (Proc.devRef .tc main_arg17) = (m ((c : Thread nD τ).loc main_arg17)) :=
    (by host_keep : W9 m ρ c (Proc.devRef .tc main_arg17) = W8 m ρ c (Proc.devRef .tc main_arg17)).trans h8_arg17
  have h10_arg17 : W10 m ρ c (Proc.devRef .tc main_arg17) = (m ((c : Thread nD τ).loc main_arg17)) :=
    (W10_of_ne m ρ c main_arg17 (by decide)).trans h9_arg17
  have h11_v92 : W11 m ρ c (Proc.devRef .tc main_v92) = Cert.Spec.row64 (m ((c : Thread nD τ).loc main_arg17)) :=
    (prow_main_v92 (W10 m ρ c)).trans (by
      rw [h10_arg17]; exact row_eq 64 _ _ _)
  have h3_arg18 : W3 m ρ c (Proc.devRef .tc main_arg18) = (m ((c : Thread nD τ).loc main_arg18)) :=
    (by host_keep : W3 m ρ c (Proc.devRef .tc main_arg18) = W2 m ρ c (Proc.devRef .tc main_arg18)).trans ((by host_keep : W2 m ρ c (Proc.devRef .tc main_arg18) = W1 m ρ c (Proc.devRef .tc main_arg18)).trans (by host_keep : W1 m ρ c (Proc.devRef .tc main_arg18) = W0 m ρ c (Proc.devRef .tc main_arg18)))
  have h4_arg18 : W4 m ρ c (Proc.devRef .tc main_arg18) = (m ((c : Thread nD τ).loc main_arg18)) :=
    (W4_of_ne m ρ c main_arg18 (by decide)).trans h3_arg18
  have h5_arg18 : W5 m ρ c (Proc.devRef .tc main_arg18) = (m ((c : Thread nD τ).loc main_arg18)) :=
    (by host_keep : W5 m ρ c (Proc.devRef .tc main_arg18) = W4 m ρ c (Proc.devRef .tc main_arg18)).trans h4_arg18
  have h6_arg18 : W6 m ρ c (Proc.devRef .tc main_arg18) = (m ((c : Thread nD τ).loc main_arg18)) :=
    (W6_of_ne m ρ c main_arg18 (by decide)).trans h5_arg18
  have h7_arg18 : W7 m ρ c (Proc.devRef .tc main_arg18) = (m ((c : Thread nD τ).loc main_arg18)) :=
    (by host_keep : W7 m ρ c (Proc.devRef .tc main_arg18) = W6 m ρ c (Proc.devRef .tc main_arg18)).trans h6_arg18
  have h8_arg18 : W8 m ρ c (Proc.devRef .tc main_arg18) = (m ((c : Thread nD τ).loc main_arg18)) :=
    (W8_of_ne m ρ c main_arg18 (by decide)).trans h7_arg18
  have h9_arg18 : W9 m ρ c (Proc.devRef .tc main_arg18) = (m ((c : Thread nD τ).loc main_arg18)) :=
    (by host_keep : W9 m ρ c (Proc.devRef .tc main_arg18) = W8 m ρ c (Proc.devRef .tc main_arg18)).trans h8_arg18
  have h10_arg18 : W10 m ρ c (Proc.devRef .tc main_arg18) = (m ((c : Thread nD τ).loc main_arg18)) :=
    (W10_of_ne m ρ c main_arg18 (by decide)).trans h9_arg18
  have h11_arg18 : W11 m ρ c (Proc.devRef .tc main_arg18) = (m ((c : Thread nD τ).loc main_arg18)) :=
    (by host_keep : W11 m ρ c (Proc.devRef .tc main_arg18) = W10 m ρ c (Proc.devRef .tc main_arg18)).trans h10_arg18
  have h3_arg19 : W3 m ρ c (Proc.devRef .tc main_arg19) = (m ((c : Thread nD τ).loc main_arg19)) :=
    (by host_keep : W3 m ρ c (Proc.devRef .tc main_arg19) = W2 m ρ c (Proc.devRef .tc main_arg19)).trans ((by host_keep : W2 m ρ c (Proc.devRef .tc main_arg19) = W1 m ρ c (Proc.devRef .tc main_arg19)).trans (by host_keep : W1 m ρ c (Proc.devRef .tc main_arg19) = W0 m ρ c (Proc.devRef .tc main_arg19)))
  have h4_arg19 : W4 m ρ c (Proc.devRef .tc main_arg19) = (m ((c : Thread nD τ).loc main_arg19)) :=
    (W4_of_ne m ρ c main_arg19 (by decide)).trans h3_arg19
  have h5_arg19 : W5 m ρ c (Proc.devRef .tc main_arg19) = (m ((c : Thread nD τ).loc main_arg19)) :=
    (by host_keep : W5 m ρ c (Proc.devRef .tc main_arg19) = W4 m ρ c (Proc.devRef .tc main_arg19)).trans h4_arg19
  have h6_arg19 : W6 m ρ c (Proc.devRef .tc main_arg19) = (m ((c : Thread nD τ).loc main_arg19)) :=
    (W6_of_ne m ρ c main_arg19 (by decide)).trans h5_arg19
  have h7_arg19 : W7 m ρ c (Proc.devRef .tc main_arg19) = (m ((c : Thread nD τ).loc main_arg19)) :=
    (by host_keep : W7 m ρ c (Proc.devRef .tc main_arg19) = W6 m ρ c (Proc.devRef .tc main_arg19)).trans h6_arg19
  have h8_arg19 : W8 m ρ c (Proc.devRef .tc main_arg19) = (m ((c : Thread nD τ).loc main_arg19)) :=
    (W8_of_ne m ρ c main_arg19 (by decide)).trans h7_arg19
  have h9_arg19 : W9 m ρ c (Proc.devRef .tc main_arg19) = (m ((c : Thread nD τ).loc main_arg19)) :=
    (by host_keep : W9 m ρ c (Proc.devRef .tc main_arg19) = W8 m ρ c (Proc.devRef .tc main_arg19)).trans h8_arg19
  have h10_arg19 : W10 m ρ c (Proc.devRef .tc main_arg19) = (m ((c : Thread nD τ).loc main_arg19)) :=
    (W10_of_ne m ρ c main_arg19 (by decide)).trans h9_arg19
  have h11_v93 : W11 m ρ c (Proc.devRef .tc main_v93) = Cert.Spec.row32 (m ((c : Thread nD τ).loc main_arg19)) :=
    (prow_main_v93 (W10 m ρ c)).trans (by
      rw [h10_arg19]; exact row_eq 32 _ _ _)
  have h3_arg20 : W3 m ρ c (Proc.devRef .tc main_arg20) = (m ((c : Thread nD τ).loc main_arg20)) :=
    (by host_keep : W3 m ρ c (Proc.devRef .tc main_arg20) = W2 m ρ c (Proc.devRef .tc main_arg20)).trans ((by host_keep : W2 m ρ c (Proc.devRef .tc main_arg20) = W1 m ρ c (Proc.devRef .tc main_arg20)).trans (by host_keep : W1 m ρ c (Proc.devRef .tc main_arg20) = W0 m ρ c (Proc.devRef .tc main_arg20)))
  have h4_arg20 : W4 m ρ c (Proc.devRef .tc main_arg20) = (m ((c : Thread nD τ).loc main_arg20)) :=
    (W4_of_ne m ρ c main_arg20 (by decide)).trans h3_arg20
  have h5_arg20 : W5 m ρ c (Proc.devRef .tc main_arg20) = (m ((c : Thread nD τ).loc main_arg20)) :=
    (by host_keep : W5 m ρ c (Proc.devRef .tc main_arg20) = W4 m ρ c (Proc.devRef .tc main_arg20)).trans h4_arg20
  have h6_arg20 : W6 m ρ c (Proc.devRef .tc main_arg20) = (m ((c : Thread nD τ).loc main_arg20)) :=
    (W6_of_ne m ρ c main_arg20 (by decide)).trans h5_arg20
  have h7_arg20 : W7 m ρ c (Proc.devRef .tc main_arg20) = (m ((c : Thread nD τ).loc main_arg20)) :=
    (by host_keep : W7 m ρ c (Proc.devRef .tc main_arg20) = W6 m ρ c (Proc.devRef .tc main_arg20)).trans h6_arg20
  have h8_arg20 : W8 m ρ c (Proc.devRef .tc main_arg20) = (m ((c : Thread nD τ).loc main_arg20)) :=
    (W8_of_ne m ρ c main_arg20 (by decide)).trans h7_arg20
  have h9_arg20 : W9 m ρ c (Proc.devRef .tc main_arg20) = (m ((c : Thread nD τ).loc main_arg20)) :=
    (by host_keep : W9 m ρ c (Proc.devRef .tc main_arg20) = W8 m ρ c (Proc.devRef .tc main_arg20)).trans h8_arg20
  have h10_arg20 : W10 m ρ c (Proc.devRef .tc main_arg20) = (m ((c : Thread nD τ).loc main_arg20)) :=
    (W10_of_ne m ρ c main_arg20 (by decide)).trans h9_arg20
  have h11_v94 : W11 m ρ c (Proc.devRef .tc main_v94) = Cert.Spec.row32 (m ((c : Thread nD τ).loc main_arg20)) :=
    (prow_main_v94 (W10 m ρ c)).trans (by
      rw [h10_arg20]; exact row_eq 32 _ _ _)
  have h3_arg21 : W3 m ρ c (Proc.devRef .tc main_arg21) = (m ((c : Thread nD τ).loc main_arg21)) :=
    (by host_keep : W3 m ρ c (Proc.devRef .tc main_arg21) = W2 m ρ c (Proc.devRef .tc main_arg21)).trans ((by host_keep : W2 m ρ c (Proc.devRef .tc main_arg21) = W1 m ρ c (Proc.devRef .tc main_arg21)).trans (by host_keep : W1 m ρ c (Proc.devRef .tc main_arg21) = W0 m ρ c (Proc.devRef .tc main_arg21)))
  have h4_arg21 : W4 m ρ c (Proc.devRef .tc main_arg21) = (m ((c : Thread nD τ).loc main_arg21)) :=
    (W4_of_ne m ρ c main_arg21 (by decide)).trans h3_arg21
  have h5_arg21 : W5 m ρ c (Proc.devRef .tc main_arg21) = (m ((c : Thread nD τ).loc main_arg21)) :=
    (by host_keep : W5 m ρ c (Proc.devRef .tc main_arg21) = W4 m ρ c (Proc.devRef .tc main_arg21)).trans h4_arg21
  have h6_arg21 : W6 m ρ c (Proc.devRef .tc main_arg21) = (m ((c : Thread nD τ).loc main_arg21)) :=
    (W6_of_ne m ρ c main_arg21 (by decide)).trans h5_arg21
  have h7_arg21 : W7 m ρ c (Proc.devRef .tc main_arg21) = (m ((c : Thread nD τ).loc main_arg21)) :=
    (by host_keep : W7 m ρ c (Proc.devRef .tc main_arg21) = W6 m ρ c (Proc.devRef .tc main_arg21)).trans h6_arg21
  have h8_arg21 : W8 m ρ c (Proc.devRef .tc main_arg21) = (m ((c : Thread nD τ).loc main_arg21)) :=
    (W8_of_ne m ρ c main_arg21 (by decide)).trans h7_arg21
  have h9_arg21 : W9 m ρ c (Proc.devRef .tc main_arg21) = (m ((c : Thread nD τ).loc main_arg21)) :=
    (by host_keep : W9 m ρ c (Proc.devRef .tc main_arg21) = W8 m ρ c (Proc.devRef .tc main_arg21)).trans h8_arg21
  have h10_arg21 : W10 m ρ c (Proc.devRef .tc main_arg21) = (m ((c : Thread nD τ).loc main_arg21)) :=
    (W10_of_ne m ρ c main_arg21 (by decide)).trans h9_arg21
  have h11_v95 : W11 m ρ c (Proc.devRef .tc main_v95) = Cert.Spec.row32 (m ((c : Thread nD τ).loc main_arg21)) :=
    (prow_main_v95 (W10 m ρ c)).trans (by
      rw [h10_arg21]; exact row_eq 32 _ _ _)
  have h3_arg22 : W3 m ρ c (Proc.devRef .tc main_arg22) = (m ((c : Thread nD τ).loc main_arg22)) :=
    (by host_keep : W3 m ρ c (Proc.devRef .tc main_arg22) = W2 m ρ c (Proc.devRef .tc main_arg22)).trans ((by host_keep : W2 m ρ c (Proc.devRef .tc main_arg22) = W1 m ρ c (Proc.devRef .tc main_arg22)).trans (by host_keep : W1 m ρ c (Proc.devRef .tc main_arg22) = W0 m ρ c (Proc.devRef .tc main_arg22)))
  have h4_arg22 : W4 m ρ c (Proc.devRef .tc main_arg22) = (m ((c : Thread nD τ).loc main_arg22)) :=
    (W4_of_ne m ρ c main_arg22 (by decide)).trans h3_arg22
  have h5_arg22 : W5 m ρ c (Proc.devRef .tc main_arg22) = (m ((c : Thread nD τ).loc main_arg22)) :=
    (by host_keep : W5 m ρ c (Proc.devRef .tc main_arg22) = W4 m ρ c (Proc.devRef .tc main_arg22)).trans h4_arg22
  have h6_arg22 : W6 m ρ c (Proc.devRef .tc main_arg22) = (m ((c : Thread nD τ).loc main_arg22)) :=
    (W6_of_ne m ρ c main_arg22 (by decide)).trans h5_arg22
  have h7_arg22 : W7 m ρ c (Proc.devRef .tc main_arg22) = (m ((c : Thread nD τ).loc main_arg22)) :=
    (by host_keep : W7 m ρ c (Proc.devRef .tc main_arg22) = W6 m ρ c (Proc.devRef .tc main_arg22)).trans h6_arg22
  have h8_arg22 : W8 m ρ c (Proc.devRef .tc main_arg22) = (m ((c : Thread nD τ).loc main_arg22)) :=
    (W8_of_ne m ρ c main_arg22 (by decide)).trans h7_arg22
  have h9_arg22 : W9 m ρ c (Proc.devRef .tc main_arg22) = (m ((c : Thread nD τ).loc main_arg22)) :=
    (by host_keep : W9 m ρ c (Proc.devRef .tc main_arg22) = W8 m ρ c (Proc.devRef .tc main_arg22)).trans h8_arg22
  have h10_arg22 : W10 m ρ c (Proc.devRef .tc main_arg22) = (m ((c : Thread nD τ).loc main_arg22)) :=
    (W10_of_ne m ρ c main_arg22 (by decide)).trans h9_arg22
  have h11_arg22 : W11 m ρ c (Proc.devRef .tc main_arg22) = (m ((c : Thread nD τ).loc main_arg22)) :=
    (by host_keep : W11 m ρ c (Proc.devRef .tc main_arg22) = W10 m ρ c (Proc.devRef .tc main_arg22)).trans h10_arg22
  have h3_arg23 : W3 m ρ c (Proc.devRef .tc main_arg23) = (m ((c : Thread nD τ).loc main_arg23)) :=
    (by host_keep : W3 m ρ c (Proc.devRef .tc main_arg23) = W2 m ρ c (Proc.devRef .tc main_arg23)).trans ((by host_keep : W2 m ρ c (Proc.devRef .tc main_arg23) = W1 m ρ c (Proc.devRef .tc main_arg23)).trans (by host_keep : W1 m ρ c (Proc.devRef .tc main_arg23) = W0 m ρ c (Proc.devRef .tc main_arg23)))
  have h4_arg23 : W4 m ρ c (Proc.devRef .tc main_arg23) = (m ((c : Thread nD τ).loc main_arg23)) :=
    (W4_of_ne m ρ c main_arg23 (by decide)).trans h3_arg23
  have h5_arg23 : W5 m ρ c (Proc.devRef .tc main_arg23) = (m ((c : Thread nD τ).loc main_arg23)) :=
    (by host_keep : W5 m ρ c (Proc.devRef .tc main_arg23) = W4 m ρ c (Proc.devRef .tc main_arg23)).trans h4_arg23
  have h6_arg23 : W6 m ρ c (Proc.devRef .tc main_arg23) = (m ((c : Thread nD τ).loc main_arg23)) :=
    (W6_of_ne m ρ c main_arg23 (by decide)).trans h5_arg23
  have h7_arg23 : W7 m ρ c (Proc.devRef .tc main_arg23) = (m ((c : Thread nD τ).loc main_arg23)) :=
    (by host_keep : W7 m ρ c (Proc.devRef .tc main_arg23) = W6 m ρ c (Proc.devRef .tc main_arg23)).trans h6_arg23
  have h8_arg23 : W8 m ρ c (Proc.devRef .tc main_arg23) = (m ((c : Thread nD τ).loc main_arg23)) :=
    (W8_of_ne m ρ c main_arg23 (by decide)).trans h7_arg23
  have h9_arg23 : W9 m ρ c (Proc.devRef .tc main_arg23) = (m ((c : Thread nD τ).loc main_arg23)) :=
    (by host_keep : W9 m ρ c (Proc.devRef .tc main_arg23) = W8 m ρ c (Proc.devRef .tc main_arg23)).trans h8_arg23
  have h10_arg23 : W10 m ρ c (Proc.devRef .tc main_arg23) = (m ((c : Thread nD τ).loc main_arg23)) :=
    (W10_of_ne m ρ c main_arg23 (by decide)).trans h9_arg23
  have h11_v96 : W11 m ρ c (Proc.devRef .tc main_v96) = Cert.Spec.row1 (m ((c : Thread nD τ).loc main_arg23)) :=
    (prow_main_v96 (W10 m ρ c)).trans (by
      rw [h10_arg23]; exact row_eq 1 _ _ _)
  have h12_v97 : W12 m ρ c (Proc.devRef .tc main_v97) = Cert.Spec.mlpHead2 (Cert.Spec.zcat (Cert.Spec.pool (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)))) (Cert.Spec.row64 (m ((c : Thread nD τ).loc main_arg7)))) (m ((c : Thread nD τ).loc main_arg8)))) (Cert.Spec.row64 (m ((c : Thread nD τ).loc main_arg9)))) (m ((c : Thread nD τ).loc main_arg2))) (m ((c : Thread nD τ).loc main_arg3))) (m ((c : Thread nD τ).loc main_arg10)) (Cert.Spec.row128 (m ((c : Thread nD τ).loc main_arg11))) (Cert.Spec.row128 (m ((c : Thread nD τ).loc main_arg12))) (Cert.Spec.row128 (m ((c : Thread nD τ).loc main_arg13))) (m ((c : Thread nD τ).loc main_arg14)) (Cert.Spec.row64 (m ((c : Thread nD τ).loc main_arg15))) (Cert.Spec.row64 (m ((c : Thread nD τ).loc main_arg16))) (Cert.Spec.row64 (m ((c : Thread nD τ).loc main_arg17))) (m ((c : Thread nD τ).loc main_arg18)) (Cert.Spec.row32 (m ((c : Thread nD τ).loc main_arg19))) (Cert.Spec.row32 (m ((c : Thread nD τ).loc main_arg20))) (Cert.Spec.row32 (m ((c : Thread nD τ).loc main_arg21))) (m ((c : Thread nD τ).loc main_arg22)) (Cert.Spec.row1 (m ((c : Thread nD τ).loc main_arg23))) :=
    (W12_arr m ρ c 15).trans ((final4 (V11 m ρ) c).trans (by
      show Cert.Spec.mlpHead2 (W11 m ρ c (Proc.devRef .tc main_v86)) (W11 m ρ c (Proc.devRef .tc main_arg10)) (W11 m ρ c (Proc.devRef .tc main_v87)) (W11 m ρ c (Proc.devRef .tc main_v88)) (W11 m ρ c (Proc.devRef .tc main_v89)) (W11 m ρ c (Proc.devRef .tc main_arg14)) (W11 m ρ c (Proc.devRef .tc main_v90)) (W11 m ρ c (Proc.devRef .tc main_v91)) (W11 m ρ c (Proc.devRef .tc main_v92)) (W11 m ρ c (Proc.devRef .tc main_arg18)) (W11 m ρ c (Proc.devRef .tc main_v93)) (W11 m ρ c (Proc.devRef .tc main_v94)) (W11 m ρ c (Proc.devRef .tc main_v95)) (W11 m ρ c (Proc.devRef .tc main_arg22)) (W11 m ρ c (Proc.devRef .tc main_v96)) = _
      rw [h11_v86, h11_arg10, h11_v87, h11_v88, h11_v89, h11_arg14, h11_v90, h11_v91, h11_v92, h11_arg18, h11_v93, h11_v94, h11_v95, h11_arg22, h11_v96]))
  have h13_v98 : W13 m ρ c (Proc.devRef .tc main_v98) = shapeCast S2048 (Cert.Spec.mlpHead2 (Cert.Spec.zcat (Cert.Spec.pool (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin64 (Cert.Spec.biasRelu2 (Cert.Spec.agg (Cert.Spec.src (m ((c : Thread nD τ).loc main_arg1))) (Cert.Spec.dst (m ((c : Thread nD τ).loc main_arg1))) (Cert.Spec.coefCol (Cert.Spec.src (m ((c : Thread nD τ).loc main_arg1))) (Cert.Spec.dst (m ((c : Thread nD τ).loc main_arg1)))) (Cert.Spec.lin1 (m ((c : Thread nD τ).loc main_arg0)) (m ((c : Thread nD τ).loc main_arg4)))) (Cert.Spec.row64 (m ((c : Thread nD τ).loc main_arg5)))) (m ((c : Thread nD τ).loc main_arg6)))) (Cert.Spec.row64 (m ((c : Thread nD τ).loc main_arg7)))) (m ((c : Thread nD τ).loc main_arg8)))) (Cert.Spec.row64 (m ((c : Thread nD τ).loc main_arg9)))) (m ((c : Thread nD τ).loc main_arg2))) (m ((c : Thread nD τ).loc main_arg3))) (m ((c : Thread nD τ).loc main_arg10)) (Cert.Spec.row128 (m ((c : Thread nD τ).loc main_arg11))) (Cert.Spec.row128 (m ((c : Thread nD τ).loc main_arg12))) (Cert.Spec.row128 (m ((c : Thread nD τ).loc main_arg13))) (m ((c : Thread nD τ).loc main_arg14)) (Cert.Spec.row64 (m ((c : Thread nD τ).loc main_arg15))) (Cert.Spec.row64 (m ((c : Thread nD τ).loc main_arg16))) (Cert.Spec.row64 (m ((c : Thread nD τ).loc main_arg17))) (m ((c : Thread nD τ).loc main_arg18)) (Cert.Spec.row32 (m ((c : Thread nD τ).loc main_arg19))) (Cert.Spec.row32 (m ((c : Thread nD τ).loc main_arg20))) (Cert.Spec.row32 (m ((c : Thread nD τ).loc main_arg21))) (m ((c : Thread nD τ).loc main_arg22)) (Cert.Spec.row1 (m ((c : Thread nD τ).loc main_arg23)))) shapeCasts_S2048x1_S2048 :=
    (flat (W12 m ρ c)).trans (by
      rw [h12_v97])
  exact h13_v98

end Cert.KernelIdeal.Hand

end
-- ==== Proof.RefRunAux.lean ====
/- Two small facts about straight lines of host operations, used by the run of the reference:
   an operation whose only written buffer is a listed reference writes inside the list's buffers, and the
   fold of a concatenated line leaves a reference alone when neither half writes it. -/
import Idealize.ShloMosaic.Lib.StableHlo.Run
import Idealize.ShloMosaic.Lib.Pipeline

noncomputable section

namespace Cert.ReferenceIdeal.Hand

open Idealize.ShloMosaic Idealize.SL.Sem Idealize.ShloMosaic.StableHlo

variable {τ : Topo} {sig : RefSig} {Val : EltTy → Type}

/-- An operation that writes exactly the buffer of `y`, with `y` in the list `W`, writes inside `W`'s buffers. -/
theorem writes_sub {W : List (Ref sig .tc)} {op : HloOp τ sig Val} {y : Ref sig .tc}
    (hw : op.writes = {Proc.devRef .tc y}) (h : y ∈ W) :
    op.writes ⊆ (W.map (Proc.devRef (τ := τ) .tc)).toFinset := by
  rw [hw, Finset.singleton_subset_iff, List.mem_toFinset]
  exact List.mem_map_of_mem h

end Cert.ReferenceIdeal.Hand

end
-- ==== Proof.RefRunW0.lean ====
/- The reference program's window 0 (of four) as a LIST of its host operations, in order, each call of an
   outlined function replaced by the function's own operations over the buffers that call names (a function
   called from inside another one likewise): 60 statements, 64 operations. Three facts about the list: the
   window's program is the list run in order; every operation touches TensorCore buffers only; every operation
   writes one buffer, and that buffer is one of the listed references `W0`. -/
import proofs.«141089_j11897059410621_1_alg».proof.ReferenceIdeal
import proofs.«141089_j11897059410621_1_alg».proof.Proof.RefRunAux
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Window 0's 64 operations, in order. -/
abbrev ops0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S3300000x1 ![0] bcast_S3300000_S3300000x1_0 : (⟨S3300000, .i32⟩ : BufTy).Contents (Elt F) → (⟨S3300000x1, .i32⟩ : BufTy).Contents (Elt F)),
    StableHlo.ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S3300000 ![] bcast_S_S3300000 : (⟨S_, .i32⟩ : BufTy).Contents (Elt F) → (⟨S3300000, .i32⟩ : BufTy).Contents (Elt F)),
    StableHlo.binary main_v3 main_v15 main_v16 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v17 (broadcastInDim S3300000 ![] bcast_S_S3300000 : (⟨S_, .i32⟩ : BufTy).Contents (Elt F) → (⟨S3300000, .i32⟩ : BufTy).Contents (Elt F)),
    StableHlo.binary main_v3 main_v17 main_v18 (addi : (⟨S3300000, .i32⟩ : BufTy).Contents (Elt F) → (⟨S3300000, .i32⟩ : BufTy).Contents (Elt F) → (⟨S3300000, .i32⟩ : BufTy).Contents (Elt F)),
    StableHlo.ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v19 main_v20 (broadcastInDim S3300000x1 ![0] bcast_S3300000_S3300000x1_0 : (⟨S3300000, .i32⟩ : BufTy).Contents (Elt F) → (⟨S3300000x1, .i32⟩ : BufTy).Contents (Elt F)),
    StableHlo.binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v22 (broadcastInDim S3300000 ![] bcast_S_S3300000 : (⟨S_, .i32⟩ : BufTy).Contents (Elt F) → (⟨S3300000, .i32⟩ : BufTy).Contents (Elt F)),
    StableHlo.binary main_v6 main_v22 main_v23 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v24 (broadcastInDim S3300000 ![] bcast_S_S3300000 : (⟨S_, .i32⟩ : BufTy).Contents (Elt F) → (⟨S3300000, .i32⟩ : BufTy).Contents (Elt F)),
    StableHlo.binary main_v6 main_v24 main_v25 (addi : (⟨S3300000, .i32⟩ : BufTy).Contents (Elt F) → (⟨S3300000, .i32⟩ : BufTy).Contents (Elt F) → (⟨S3300000, .i32⟩ : BufTy).Contents (Elt F)),
    StableHlo.ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v26 main_v27 (broadcastInDim S3300000x1 ![0] bcast_S3300000_S3300000x1_0 : (⟨S3300000, .i32⟩ : BufTy).Contents (Elt F) → (⟨S3300000x1, .i32⟩ : BufTy).Contents (Elt F)),
    StableHlo.binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v21 main_v28 main_v29 (mulf : (⟨S3300000, .f32⟩ : BufTy).Contents (Elt F) → (⟨S3300000, .f32⟩ : BufTy).Contents (Elt F) → (⟨S3300000, .f32⟩ : BufTy).Contents (Elt F)),
    StableHlo.unary main_v29 main_v30 (broadcastInDim S3300000x1 ![0] bcast_S3300000_S3300000x1_0 : (⟨S3300000, .f32⟩ : BufTy).Contents (Elt F) → (⟨S3300000x1, .f32⟩ : BufTy).Contents (Elt F)),
    StableHlo.binary main_arg0 main_arg4 main_v31 ((fun l r => Host.dotGeneral dot_S100000x9_S9x64_S100000x64_1_0_0_1_n_n none l r) : (⟨S100000x9, .f32⟩ : BufTy).Contents (Elt F) → (⟨S9x64, .f32⟩ : BufTy).Contents (Elt F) → (⟨S100000x64, .f32⟩ : BufTy).Contents (Elt F)),
    StableHlo.nullary main_c_6 (constantI S_ 32 0#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v3 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v34 (broadcastInDim S3300000 ![] bcast_S_S3300000 : (⟨S_, .i32⟩ : BufTy).Contents (Elt F) → (⟨S3300000, .i32⟩ : BufTy).Contents (Elt F)),
    StableHlo.binary main_v3 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v31 main_v37 main_v38 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v30 main_v39 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v38 main_v39 main_v40 (mulf : (⟨S3300000x64, .f32⟩ : BufTy).Contents (Elt F) → (⟨S3300000x64, .f32⟩ : BufTy).Contents (Elt F) → (⟨S3300000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v6 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg5 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v46 : StableHlo.TRef sig ⟨S100000x64, .f32⟩) main_call1.v0 main_call1.v1 maximumf,
    StableHlo.binary main_v47 main_arg6 main_v48 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The window's program is that straight line: the outlined functions unfolded at their calls, and sequencing
    reassociated, both sides are one chain of host steps. -/
theorem part_eq_0 (d : Dev nD) : main_part0 (F := F) d = seq ops0 := by
  simp only [main_part0, fn_where.body, fn_relu.body, seq, bind_assoc, pure_bind]
  rfl

/-- Every operation of the window touches TensorCore buffers only. -/
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., binary_bufs_sub ..⟩

/-- The references window 0 writes, one per operation, in order. -/
abbrev W0 : List (Ref sig .tc) :=
  [ main_v0, main_v1, main_v2, main_v3, main_v4, main_v5, main_v6, main_cst,
    main_v7, main_cst_0, main_v8, main_v9, main_v10, main_cst_1, main_v11, main_v12,
    main_v13, main_cst_2, main_call0_v0, main_call0_v1, main_v14, main_c, main_v15, main_v16,
    main_c_3, main_v17, main_v18, main_v19, main_v20, main_v21, main_c_4, main_v22,
    main_v23, main_c_5, main_v24, main_v25, main_v26, main_v27, main_v28, main_v29,
    main_v30, main_v31, main_c_6, main_v32, main_v33, main_c_7, main_v34, main_v35,
    main_v36, main_v37, main_v38, main_v39, main_v40, main_cst_8, main_v41, main_v42,
    main_v43, main_v44, main_v45, main_v46, main_call1_cst, main_call1_v0, main_v47, main_v48 ]

/-- Every operation of the window writes inside `W0`'s buffers. -/
theorem ops0_writes : (ops0 : List (HloOp τ sig (Elt F))).Forall fun op =>
    op.writes ⊆ (W0.map (Proc.devRef (τ := τ) .tc)).toFinset :=
  ⟨writes_sub (nullary_writes ..) (by decide), writes_sub (unary_writes ..) (by decide), writes_sub (reshape_writes ..) (by decide),
    writes_sub (binary_writes ..) (by decide), writes_sub (unary_writes ..) (by decide), writes_sub (reshape_writes ..) (by decide),
    writes_sub (binary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (binary_writes ..) (by decide), writes_sub (unary_writes ..) (by decide), writes_sub (nullary_writes ..) (by decide),
    writes_sub (unary_writes ..) (by decide), writes_sub (unary_writes ..) (by decide), writes_sub (ternary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (binary_writes ..) (by decide), writes_sub (unary_writes ..) (by decide), writes_sub (binary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (unary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (binary_writes ..) (by decide)⟩

/-- No operation of the window leaves a buffer's contents undetermined. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

end Cert.ReferenceIdeal.Hand

end
-- ==== Proof.RefRunW1.lean ====
/- The reference program's window 1 (of four) as a LIST of its host operations, in order, each call of an
   outlined function replaced by the function's own operations over the buffers that call names (a function
   called from inside another one likewise): 60 statements, 64 operations. Three facts about the list: the
   window's program is the list run in order; every operation touches TensorCore buffers only; every operation
   writes one buffer, and that buffer is one of the listed references `W1`. -/
import proofs.«141089_j11897059410621_1_alg».proof.ReferenceIdeal
import proofs.«141089_j11897059410621_1_alg».proof.Proof.RefRunAux
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Window 1's 64 operations, in order. -/
abbrev ops1 : List (HloOp τ sig (Elt F)) :=
  [ StableHlo.nullary main_c_9 (constantI S_ 32 0#32),
    StableHlo.unary main_c_9 main_v49 (broadcastInDim S3300000 ![] bcast_S_S3300000 : (⟨S_, .i32⟩ : BufTy).Contents (Elt F) → (⟨S3300000, .i32⟩ : BufTy).Contents (Elt F)),
    StableHlo.binary main_v3 main_v49 main_v50 (cmpi .slt : (⟨S3300000, .i32⟩ : BufTy).Contents (Elt F) → (⟨S3300000, .i32⟩ : BufTy).Contents (Elt F) → (⟨S3300000, .i1⟩ : BufTy).Contents (Elt F)),
    StableHlo.nullary main_c_10 (constantI S_ 32 100000#32),
    StableHlo.unary main_c_10 main_v51 (broadcastInDim S3300000 ![] bcast_S_S3300000 : (⟨S_, .i32⟩ : BufTy).Contents (Elt F) → (⟨S3300000, .i32⟩ : BufTy).Contents (Elt F)),
    StableHlo.binary main_v3 main_v51 main_v52 (addi : (⟨S3300000, .i32⟩ : BufTy).Contents (Elt F) → (⟨S3300000, .i32⟩ : BufTy).Contents (Elt F) → (⟨S3300000, .i32⟩ : BufTy).Contents (Elt F)),
    StableHlo.ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v53 main_v54 (broadcastInDim S3300000x1 ![0] bcast_S3300000_S3300000x1_0 : (⟨S3300000, .i32⟩ : BufTy).Contents (Elt F) → (⟨S3300000x1, .i32⟩ : BufTy).Contents (Elt F)),
    StableHlo.binary main_v48 main_v54 main_v55 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v30 main_v56 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v55 main_v56 main_v57 (mulf : (⟨S3300000x64, .f32⟩ : BufTy).Contents (Elt F) → (⟨S3300000x64, .f32⟩ : BufTy).Contents (Elt F) → (⟨S3300000x64, .f32⟩ : BufTy).Contents (Elt F)),
    StableHlo.nullary main_cst_11 (constant S_ .f32 0x00000000#32),
    StableHlo.unary main_cst_11 main_v58 (broadcastInDim S100000x64 ![] bcast_S_S100000x64 : (⟨S_, .f32⟩ : BufTy).Contents (Elt F) → (⟨S100000x64, .f32⟩ : BufTy).Contents (Elt F)),
    StableHlo.unary main_v6 main_v59 (broadcastInDim S3300000x1 ![0] bcast_S3300000_S3300000x1_0 : (⟨S3300000, .i32⟩ : BufTy).Contents (Elt F) → (⟨S3300000x1, .i32⟩ : BufTy).Contents (Elt F)),
    StableHlo.ternary main_v58 main_v59 main_v57 main_v60 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg7 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v63 : StableHlo.TRef sig ⟨S100000x64, .f32⟩) main_call2.v0 main_call2.v1 maximumf,
    StableHlo.binary main_v64 main_arg8 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_12 (constantI S_ 32 0#32),
    StableHlo.unary main_c_12 main_v66 (broadcastInDim S3300000 ![] bcast_S_S3300000 : (⟨S_, .i32⟩ : BufTy).Contents (Elt F) → (⟨S3300000, .i32⟩ : BufTy).Contents (Elt F)),
    StableHlo.binary main_v3 main_v66 main_v67 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v68 (broadcastInDim S3300000 ![] bcast_S_S3300000 : (⟨S_, .i32⟩ : BufTy).Contents (Elt F) → (⟨S3300000, .i32⟩ : BufTy).Contents (Elt F)),
    StableHlo.binary main_v3 main_v68 main_v69 (addi : (⟨S3300000, .i32⟩ : BufTy).Contents (Elt F) → (⟨S3300000, .i32⟩ : BufTy).Contents (Elt F) → (⟨S3300000, .i32⟩ : BufTy).Contents (Elt F)),
    StableHlo.ternary main_v67 main_v69 main_v3 main_v70 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v70 main_v71 (broadcastInDim S3300000x1 ![0] bcast_S3300000_S3300000x1_0 : (⟨S3300000, .i32⟩ : BufTy).Contents (Elt F) → (⟨S3300000x1, .i32⟩ : BufTy).Contents (Elt F)),
    StableHlo.binary main_v65 main_v71 main_v72 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v30 main_v73 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v72 main_v73 main_v74 (mulf : (⟨S3300000x64, .f32⟩ : BufTy).Contents (Elt F) → (⟨S3300000x64, .f32⟩ : BufTy).Contents (Elt F) → (⟨S3300000x64, .f32⟩ : BufTy).Contents (Elt F)),
    StableHlo.nullary main_cst_14 (constant S_ .f32 0x00000000#32),
    StableHlo.unary main_cst_14 main_v75 (broadcastInDim S100000x64 ![] bcast_S_S100000x64 : (⟨S_, .f32⟩ : BufTy).Contents (Elt F) → (⟨S100000x64, .f32⟩ : BufTy).Contents (Elt F)),
    StableHlo.unary main_v6 main_v76 (broadcastInDim S3300000x1 ![0] bcast_S3300000_S3300000x1_0 : (⟨S3300000, .i32⟩ : BufTy).Contents (Elt F) → (⟨S3300000x1, .i32⟩ : BufTy).Contents (Elt F)),
    StableHlo.ternary main_v75 main_v76 main_v74 main_v77 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg9 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v80 : StableHlo.TRef sig ⟨S100000x64, .f32⟩) main_call3.v0 main_call3.v1 maximumf,
    StableHlo.nullary main_cst_15 (constant S_ .f32 0x3F800000#32),
    StableHlo.unary main_cst_15 main_v82 (broadcastInDim S100000 ![] bcast_S_S100000 : (⟨S_, .f32⟩ : BufTy).Contents (Elt F) → (⟨S100000, .f32⟩ : BufTy).Contents (Elt F)),
    StableHlo.nullary main_cst_16 (constant S_ .f32 0x00000000#32),
    StableHlo.unary main_cst_16 main_v83 (broadcastInDim S2048 ![] bcast_S_S2048 : (⟨S_, .f32⟩ : BufTy).Contents (Elt F) → (⟨S2048, .f32⟩ : BufTy).Contents (Elt F)),
    StableHlo.unary main_arg2 main_v84 (broadcastInDim S100000x1 ![0] bcast_S100000_S100000x1_0 : (⟨S100000, .i32⟩ : BufTy).Contents (Elt F) → (⟨S100000x1, .i32⟩ : BufTy).Contents (Elt F)),
    StableHlo.ternary main_v83 main_v84 main_v82 main_v85 ((fun x i u => Host.scatterAdd scatter_S2048_S100000x1_S100000_n_0_0_1 x i u) : (⟨S2048, .f32⟩ : BufTy).Contents (Elt F) → (⟨S100000x1, .i32⟩ : BufTy).Contents (Elt F) → (⟨S100000, .f32⟩ : BufTy).Contents (Elt F) → (⟨S2048, .f32⟩ : BufTy).Contents (Elt F)),
    StableHlo.nullary main_cst_17 (constant S_ .f32 0x00000000#32),
    StableHlo.unary main_cst_17 main_v86 (broadcastInDim S2048x64 ![] bcast_S_S2048x64 : (⟨S_, .f32⟩ : BufTy).Contents (Elt F) → (⟨S2048x64, .f32⟩ : BufTy).Contents (Elt F)),
    StableHlo.unary main_arg2 main_v87 (broadcastInDim S100000x1 ![0] bcast_S100000_S100000x1_0 : (⟨S100000, .i32⟩ : BufTy).Contents (Elt F) → (⟨S100000x1, .i32⟩ : BufTy).Contents (Elt F)),
    StableHlo.ternary main_v86 main_v87 main_v81 main_v88 ((fun x i u => Host.scatterAdd scatter_S2048x64_S100000x1_S100000x64_1_0_0_1 x i u) : (⟨S2048x64, .f32⟩ : BufTy).Contents (Elt F) → (⟨S100000x1, .i32⟩ : BufTy).Contents (Elt F) → (⟨S100000x64, .f32⟩ : BufTy).Contents (Elt F) → (⟨S2048x64, .f32⟩ : BufTy).Contents (Elt F)),
    StableHlo.nullary main_cst_18 (constant S_ .f32 0x3F800000#32),
    StableHlo.unary main_cst_18 main_v89 (broadcastInDim S2048 ![] bcast_S_S2048 : (⟨S_, .f32⟩ : BufTy).Contents (Elt F) → (⟨S2048, .f32⟩ : BufTy).Contents (Elt F)),
    StableHlo.binary main_v85 main_v89 main_v90 (maximumf : (⟨S2048, .f32⟩ : BufTy).Contents (Elt F) → (⟨S2048, .f32⟩ : BufTy).Contents (Elt F) → (⟨S2048, .f32⟩ : BufTy).Contents (Elt F)),
    StableHlo.unary main_v90 main_v91 (broadcastInDim S2048x1 ![0] bcast_S2048_S2048x1_0 : (⟨S2048, .f32⟩ : BufTy).Contents (Elt F) → (⟨S2048x1, .f32⟩ : BufTy).Contents (Elt F)),
    StableHlo.unary main_v91 main_v92 (broadcastInDim S2048x64 ![0, 1] bcast_S2048x1_S2048x64_0_1 : (⟨S2048x1, .f32⟩ : BufTy).Contents (Elt F) → (⟨S2048x64, .f32⟩ : BufTy).Contents (Elt F)),
    StableHlo.binary main_v88 main_v92 main_v93 (Host.divf : (⟨S2048x64, .f32⟩ : BufTy).Contents (Elt F) → (⟨S2048x64, .f32⟩ : BufTy).Contents (Elt F) → (⟨S2048x64, .f32⟩ : BufTy).Contents (Elt F)),
    StableHlo.binary main_v93 main_arg3 main_v94 ((fun a b => concatenate S2048x96 1 [⟨S2048x64, a⟩, ⟨S2048x32, b⟩] concatenates_S2048x64_S2048x32_S2048x96_d1) : (⟨S2048x64, .f32⟩ : BufTy).Contents (Elt F) → (⟨S2048x32, .f32⟩ : BufTy).Contents (Elt F) → (⟨S2048x96, .f32⟩ : BufTy).Contents (Elt F)),
    StableHlo.binary main_v94 main_arg10 main_v95 ((fun l r => Host.dotGeneral dot_S2048x96_S96x128_S2048x128_1_0_0_1_n_n none l r) : (⟨S2048x96, .f32⟩ : BufTy).Contents (Elt F) → (⟨S96x128, .f32⟩ : BufTy).Contents (Elt F) → (⟨S2048x128, .f32⟩ : BufTy).Contents (Elt F)),
    StableHlo.unary main_arg11 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S2048x128 ![0, 1] bcast_S1x128_S2048x128_0_1 : (⟨S1x128, .f32⟩ : BufTy).Contents (Elt F) → (⟨S2048x128, .f32⟩ : BufTy).Contents (Elt F)),
    StableHlo.binary main_v95 main_v97 main_v98 (addf : (⟨S2048x128, .f32⟩ : BufTy).Contents (Elt F) → (⟨S2048x128, .f32⟩ : BufTy).Contents (Elt F) → (⟨S2048x128, .f32⟩ : BufTy).Contents (Elt F)) ]

/-- The window's program is that straight line: the outlined functions unfolded at their calls, and sequencing
    reassociated, both sides are one chain of host steps. -/
theorem part_eq_1 (d : Dev nD) : main_part1 (F := F) d = seq ops1 := by
  simp only [main_part1, fn_relu.body, seq, bind_assoc, pure_bind]
  rfl

/-- Every operation of the window touches TensorCore buffers only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., nullary_bufs_sub .., unary_bufs_sub .., nullary_bufs_sub .., unary_bufs_sub .., unary_bufs_sub ..,
    ternary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    binary_bufs_sub .., unary_bufs_sub .., unary_bufs_sub .., binary_bufs_sub ..⟩

/-- The references window 1 writes, one per operation, in order. -/
abbrev W1 : List (Ref sig .tc) :=
  [ main_c_9, main_v49, main_v50, main_c_10, main_v51, main_v52, main_v53, main_v54,
    main_v55, main_v56, main_v57, main_cst_11, main_v58, main_v59, main_v60, main_v61,
    main_v62, main_v63, main_call2_cst, main_call2_v0, main_v64, main_v65, main_c_12, main_v66,
    main_v67, main_c_13, main_v68, main_v69, main_v70, main_v71, main_v72, main_v73,
    main_v74, main_cst_14, main_v75, main_v76, main_v77, main_v78, main_v79, main_v80,
    main_call3_cst, main_call3_v0, main_v81, main_cst_15, main_v82, main_cst_16, main_v83, main_v84,
    main_v85, main_cst_17, main_v86, main_v87, main_v88, main_cst_18, main_v89, main_v90,
    main_v91, main_v92, main_v93, main_v94, main_v95, main_v96, main_v97, main_v98 ]

/-- Every operation of the window writes inside `W1`'s buffers. -/
theorem ops1_writes : (ops1 : List (HloOp τ sig (Elt F))).Forall fun op =>
    op.writes ⊆ (W1.map (Proc.devRef (τ := τ) .tc)).toFinset :=
  ⟨writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (unary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (unary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (unary_writes ..) (by decide), writes_sub (ternary_writes ..) (by decide), writes_sub (nullary_writes ..) (by decide),
    writes_sub (unary_writes ..) (by decide), writes_sub (binary_writes ..) (by decide), writes_sub (unary_writes ..) (by decide),
    writes_sub (unary_writes ..) (by decide), writes_sub (binary_writes ..) (by decide), writes_sub (binary_writes ..) (by decide),
    writes_sub (binary_writes ..) (by decide), writes_sub (unary_writes ..) (by decide), writes_sub (unary_writes ..) (by decide),
    writes_sub (binary_writes ..) (by decide)⟩

/-- No operation of the window leaves a buffer's contents undetermined. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

end Cert.ReferenceIdeal.Hand

end
-- ==== Proof.RefRunW2.lean ====
/- The reference program's window 2 (of four) as a LIST of its host operations, in order, each call of an
   outlined function replaced by the function's own operations over the buffers that call names (a function
   called from inside another one likewise): 60 statements, 106 operations. Three facts about the list: the
   window's program is the list run in order; every operation touches TensorCore buffers only; every operation
   writes one buffer, and that buffer is one of the listed references `W2`. -/
import proofs.«141089_j11897059410621_1_alg».proof.ReferenceIdeal
import proofs.«141089_j11897059410621_1_alg».proof.Proof.RefRunAux
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Window 2's 106 operations, in order. -/
abbrev ops2 : List (HloOp τ sig (Elt F)) :=
  [ StableHlo.nullary main_cst_19 (constant S_ .f32 0x00000000#32),
    StableHlo.binary main_v98 main_cst_19 main_v99 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_20 (constant S_ .f32 0x45000000#32),
    StableHlo.unary main_cst_20 main_v100 (broadcastInDim S128 ![] bcast_S_S128 : (⟨S_, .f32⟩ : BufTy).Contents (Elt F) → (⟨S128, .f32⟩ : BufTy).Contents (Elt F)),
    StableHlo.binary main_v99 main_v100 main_v101 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call4.cst (constant S_ .f32 0x00000000#32),
    StableHlo.TRef.binary (.of main_v98 : StableHlo.TRef sig ⟨S2048x128, .f32⟩) main_call4.cst main_call4.v0 (fun x v => Host.reduceAdd x v reducesTo_S2048x128_S128_d0 h_S_),
    StableHlo.TRef.unary main_call4.v0 main_call4.v1 (broadcastInDim S1x128 ![1] bcast_S128_S1x128_1),
    StableHlo.TRef.nullary main_call4.cst_0 (constant S_ .f32 0x45000000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S2048x128 ![0, 1] bcast_S1x128_S2048x128_0_1),
    StableHlo.TRef.binary (.of main_v98 : StableHlo.TRef sig ⟨S2048x128, .f32⟩) main_call4.v4 main_call4.v5 subf,
    StableHlo.TRef.binary main_call4.v5 main_call4.v5 main_call4.v6 mulf,
    StableHlo.TRef.unary (.of main_c_21 : StableHlo.TRef sig ⟨S_, .i32⟩) main_call4.v7 (sitofp .f32),
    StableHlo.TRef.nullary main_call4.cst_1 (constant S_ .f32 0x45000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S2048x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v101 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S2048x128 ![0, 1] bcast_S1x128_S2048x128_0_1 : (⟨S1x128, .f32⟩ : BufTy).Contents (Elt F) → (⟨S2048x128, .f32⟩ : BufTy).Contents (Elt F)),
    StableHlo.binary main_v98 main_v104 main_v105 (subf : (⟨S2048x128, .f32⟩ : BufTy).Contents (Elt F) → (⟨S2048x128, .f32⟩ : BufTy).Contents (Elt F) → (⟨S2048x128, .f32⟩ : BufTy).Contents (Elt F)),
    StableHlo.nullary main_cst_22 (constant S_ .f32 0x3727C5AC#32),
    StableHlo.unary main_cst_22 main_v106 (broadcastInDim S128 ![] bcast_S_S128 : (⟨S_, .f32⟩ : BufTy).Contents (Elt F) → (⟨S128, .f32⟩ : BufTy).Contents (Elt F)),
    StableHlo.binary main_v102 main_v106 main_v107 (addf : (⟨S128, .f32⟩ : BufTy).Contents (Elt F) → (⟨S128, .f32⟩ : BufTy).Contents (Elt F) → (⟨S128, .f32⟩ : BufTy).Contents (Elt F)),
    StableHlo.unary main_v107 main_v108 (Host.rsqrt : (⟨S128, .f32⟩ : BufTy).Contents (Elt F) → (⟨S128, .f32⟩ : BufTy).Contents (Elt F)),
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S2048x128 ![0, 1] bcast_S1x128_S2048x128_0_1 : (⟨S1x128, .f32⟩ : BufTy).Contents (Elt F) → (⟨S2048x128, .f32⟩ : BufTy).Contents (Elt F)),
    StableHlo.binary main_v105 main_v110 main_v111 (mulf : (⟨S2048x128, .f32⟩ : BufTy).Contents (Elt F) → (⟨S2048x128, .f32⟩ : BufTy).Contents (Elt F) → (⟨S2048x128, .f32⟩ : BufTy).Contents (Elt F)),
    StableHlo.unary main_arg12 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S2048x128 ![0, 1] bcast_S1x128_S2048x128_0_1 : (⟨S1x128, .f32⟩ : BufTy).Contents (Elt F) → (⟨S2048x128, .f32⟩ : BufTy).Contents (Elt F)),
    StableHlo.binary main_v111 main_v113 main_v114 (mulf : (⟨S2048x128, .f32⟩ : BufTy).Contents (Elt F) → (⟨S2048x128, .f32⟩ : BufTy).Contents (Elt F) → (⟨S2048x128, .f32⟩ : BufTy).Contents (Elt F)),
    StableHlo.unary main_arg13 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S2048x128 ![0, 1] bcast_S1x128_S2048x128_0_1 : (⟨S1x128, .f32⟩ : BufTy).Contents (Elt F) → (⟨S2048x128, .f32⟩ : BufTy).Contents (Elt F)),
    StableHlo.binary main_v114 main_v116 main_v117 (addf : (⟨S2048x128, .f32⟩ : BufTy).Contents (Elt F) → (⟨S2048x128, .f32⟩ : BufTy).Contents (Elt F) → (⟨S2048x128, .f32⟩ : BufTy).Contents (Elt F)),
    StableHlo.TRef.nullary main_call5.cst (constant S_ .f32 0x00000000#32),
    StableHlo.TRef.unary main_call5.cst main_call5.v0 (broadcastInDim S2048x128 ![] bcast_S_S2048x128),
    StableHlo.TRef.binary (.of main_v117 : StableHlo.TRef sig ⟨S2048x128, .f32⟩) main_call5.v0 main_call5.v1 maximumf,
    StableHlo.binary main_v118 main_arg14 main_v119 ((fun l r => Host.dotGeneral dot_S2048x128_S128x64_S2048x64_1_0_0_1_n_n none l r) : (⟨S2048x128, .f32⟩ : BufTy).Contents (Elt F) → (⟨S128x64, .f32⟩ : BufTy).Contents (Elt F) → (⟨S2048x64, .f32⟩ : BufTy).Contents (Elt F)),
    StableHlo.unary main_arg15 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S2048x64 ![0, 1] bcast_S1x64_S2048x64_0_1 : (⟨S1x64, .f32⟩ : BufTy).Contents (Elt F) → (⟨S2048x64, .f32⟩ : BufTy).Contents (Elt F)),
    StableHlo.binary main_v119 main_v121 main_v122 (addf : (⟨S2048x64, .f32⟩ : BufTy).Contents (Elt F) → (⟨S2048x64, .f32⟩ : BufTy).Contents (Elt F) → (⟨S2048x64, .f32⟩ : BufTy).Contents (Elt F)),
    StableHlo.nullary main_cst_23 (constant S_ .f32 0x00000000#32),
    StableHlo.binary main_v122 main_cst_23 main_v123 ((fun x v => Host.reduceAdd x v reducesTo_S2048x64_S64_d0 h_S_) : (⟨S2048x64, .f32⟩ : BufTy).Contents (Elt F) → (⟨S_, .f32⟩ : BufTy).Contents (Elt F) → (⟨S64, .f32⟩ : BufTy).Contents (Elt F)),
    StableHlo.nullary main_cst_24 (constant S_ .f32 0x45000000#32),
    StableHlo.unary main_cst_24 main_v124 (broadcastInDim S64 ![] bcast_S_S64 : (⟨S_, .f32⟩ : BufTy).Contents (Elt F) → (⟨S64, .f32⟩ : BufTy).Contents (Elt F)),
    StableHlo.binary main_v123 main_v124 main_v125 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call6.cst (constant S_ .f32 0x00000000#32),
    StableHlo.TRef.binary (.of main_v122 : StableHlo.TRef sig ⟨S2048x64, .f32⟩) main_call6.cst main_call6.v0 (fun x v => Host.reduceAdd x v reducesTo_S2048x64_S64_d0 h_S_),
    StableHlo.TRef.unary main_call6.v0 main_call6.v1 (broadcastInDim S1x64 ![1] bcast_S64_S1x64_1),
    StableHlo.TRef.nullary main_call6.cst_0 (constant S_ .f32 0x45000000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S2048x64 ![0, 1] bcast_S1x64_S2048x64_0_1),
    StableHlo.TRef.binary (.of main_v122 : StableHlo.TRef sig ⟨S2048x64, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x45000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2048x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v125 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S2048x64 ![0, 1] bcast_S1x64_S2048x64_0_1 : (⟨S1x64, .f32⟩ : BufTy).Contents (Elt F) → (⟨S2048x64, .f32⟩ : BufTy).Contents (Elt F)),
    StableHlo.binary main_v122 main_v128 main_v129 (subf : (⟨S2048x64, .f32⟩ : BufTy).Contents (Elt F) → (⟨S2048x64, .f32⟩ : BufTy).Contents (Elt F) → (⟨S2048x64, .f32⟩ : BufTy).Contents (Elt F)),
    StableHlo.nullary main_cst_26 (constant S_ .f32 0x3727C5AC#32),
    StableHlo.unary main_cst_26 main_v130 (broadcastInDim S64 ![] bcast_S_S64 : (⟨S_, .f32⟩ : BufTy).Contents (Elt F) → (⟨S64, .f32⟩ : BufTy).Contents (Elt F)),
    StableHlo.binary main_v126 main_v130 main_v131 (addf : (⟨S64, .f32⟩ : BufTy).Contents (Elt F) → (⟨S64, .f32⟩ : BufTy).Contents (Elt F) → (⟨S64, .f32⟩ : BufTy).Contents (Elt F)),
    StableHlo.unary main_v131 main_v132 (Host.rsqrt : (⟨S64, .f32⟩ : BufTy).Contents (Elt F) → (⟨S64, .f32⟩ : BufTy).Contents (Elt F)),
    StableHlo.unary main_v132 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S2048x64 ![0, 1] bcast_S1x64_S2048x64_0_1 : (⟨S1x64, .f32⟩ : BufTy).Contents (Elt F) → (⟨S2048x64, .f32⟩ : BufTy).Contents (Elt F)),
    StableHlo.binary main_v129 main_v134 main_v135 (mulf : (⟨S2048x64, .f32⟩ : BufTy).Contents (Elt F) → (⟨S2048x64, .f32⟩ : BufTy).Contents (Elt F) → (⟨S2048x64, .f32⟩ : BufTy).Contents (Elt F)),
    StableHlo.unary main_arg16 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S2048x64 ![0, 1] bcast_S1x64_S2048x64_0_1 : (⟨S1x64, .f32⟩ : BufTy).Contents (Elt F) → (⟨S2048x64, .f32⟩ : BufTy).Contents (Elt F)),
    StableHlo.binary main_v135 main_v137 main_v138 (mulf : (⟨S2048x64, .f32⟩ : BufTy).Contents (Elt F) → (⟨S2048x64, .f32⟩ : BufTy).Contents (Elt F) → (⟨S2048x64, .f32⟩ : BufTy).Contents (Elt F)),
    StableHlo.unary main_arg17 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S2048x64 ![0, 1] bcast_S1x64_S2048x64_0_1 : (⟨S1x64, .f32⟩ : BufTy).Contents (Elt F) → (⟨S2048x64, .f32⟩ : BufTy).Contents (Elt F)),
    StableHlo.binary main_v138 main_v140 main_v141 (addf : (⟨S2048x64, .f32⟩ : BufTy).Contents (Elt F) → (⟨S2048x64, .f32⟩ : BufTy).Contents (Elt F) → (⟨S2048x64, .f32⟩ : BufTy).Contents (Elt F)),
    StableHlo.TRef.nullary main_call7.cst (constant S_ .f32 0x00000000#32),
    StableHlo.TRef.unary main_call7.cst main_call7.v0 (broadcastInDim S2048x64 ![] bcast_S_S2048x64),
    StableHlo.TRef.binary (.of main_v141 : StableHlo.TRef sig ⟨S2048x64, .f32⟩) main_call7.v0 main_call7.v1 maximumf,
    StableHlo.binary main_v142 main_arg18 main_v143 ((fun l r => Host.dotGeneral dot_S2048x64_S64x32_S2048x32_1_0_0_1_n_n none l r) : (⟨S2048x64, .f32⟩ : BufTy).Contents (Elt F) → (⟨S64x32, .f32⟩ : BufTy).Contents (Elt F) → (⟨S2048x32, .f32⟩ : BufTy).Contents (Elt F)),
    StableHlo.unary main_arg19 main_v144 (broadcastInDim S1x32 ![1] bcast_S32_S1x32_1 : (⟨S32, .f32⟩ : BufTy).Contents (Elt F) → (⟨S1x32, .f32⟩ : BufTy).Contents (Elt F)),
    StableHlo.unary main_v144 main_v145 (broadcastInDim S2048x32 ![0, 1] bcast_S1x32_S2048x32_0_1 : (⟨S1x32, .f32⟩ : BufTy).Contents (Elt F) → (⟨S2048x32, .f32⟩ : BufTy).Contents (Elt F)),
    StableHlo.binary main_v143 main_v145 main_v146 (addf : (⟨S2048x32, .f32⟩ : BufTy).Contents (Elt F) → (⟨S2048x32, .f32⟩ : BufTy).Contents (Elt F) → (⟨S2048x32, .f32⟩ : BufTy).Contents (Elt F)),
    StableHlo.nullary main_cst_27 (constant S_ .f32 0x00000000#32),
    StableHlo.binary main_v146 main_cst_27 main_v147 ((fun x v => Host.reduceAdd x v reducesTo_S2048x32_S32_d0 h_S_) : (⟨S2048x32, .f32⟩ : BufTy).Contents (Elt F) → (⟨S_, .f32⟩ : BufTy).Contents (Elt F) → (⟨S32, .f32⟩ : BufTy).Contents (Elt F)),
    StableHlo.nullary main_cst_28 (constant S_ .f32 0x45000000#32),
    StableHlo.unary main_cst_28 main_v148 (broadcastInDim S32 ![] bcast_S_S32 : (⟨S_, .f32⟩ : BufTy).Contents (Elt F) → (⟨S32, .f32⟩ : BufTy).Contents (Elt F)) ]

/-- The window's program is that straight line: the outlined functions unfolded at their calls, and sequencing
    reassociated, both sides are one chain of host steps. -/
theorem part_eq_2 (d : Dev nD) : main_part2 (F := F) d = seq ops2 := by
  simp only [main_part2, fn_var.body, fn_where_0.body, fn_relu_1.body, fn_var_2.body, fn_where_3.body, fn_relu_4.body, seq, bind_assoc, pure_bind]
  rfl

/-- Every operation of the window touches TensorCore buffers only. -/
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., nullary_bufs_sub .., unary_bufs_sub ..⟩

/-- The references window 2 writes, one per operation, in order. -/
abbrev W2 : List (Ref sig .tc) :=
  [ main_cst_19, main_v99, main_cst_20, main_v100, main_v101, main_c_21, main_call4_cst, main_call4_v0,
    main_call4_v1, main_call4_cst_0, main_call4_v2, main_call4_v3, main_call4_v4, main_call4_v5, main_call4_v6, main_call4_v7,
    main_call4_cst_1, main_call4_v8, main_call4_cst_2, main_call4_v9, main_call4_v10, main_call4_v11, main_call4_cst_3, main_call4_v12,
    main_call4_cst_4, main_call4_call0_v0, main_call4_call0_v1, main_v102, main_v103, main_v104, main_v105, main_cst_22,
    main_v106, main_v107, main_v108, main_v109, main_v110, main_v111, main_v112, main_v113,
    main_v114, main_v115, main_v116, main_v117, main_call5_cst, main_call5_v0, main_v118, main_v119,
    main_v120, main_v121, main_v122, main_cst_23, main_v123, main_cst_24, main_v124, main_v125,
    main_c_25, main_call6_cst, main_call6_v0, main_call6_v1, main_call6_cst_0, main_call6_v2, main_call6_v3, main_call6_v4,
    main_call6_v5, main_call6_v6, main_call6_v7, main_call6_cst_1, main_call6_v8, main_call6_cst_2, main_call6_v9, main_call6_v10,
    main_call6_v11, main_call6_cst_3, main_call6_v12, main_call6_cst_4, main_call6_call0_v0, main_call6_call0_v1, main_v126, main_v127,
    main_v128, main_v129, main_cst_26, main_v130, main_v131, main_v132, main_v133, main_v134,
    main_v135, main_v136, main_v137, main_v138, main_v139, main_v140, main_v141, main_call7_cst,
    main_call7_v0, main_v142, main_v143, main_v144, main_v145, main_v146, main_cst_27, main_v147,
    main_cst_28, main_v148 ]

/-- Every operation of the window writes inside `W2`'s buffers. -/
theorem ops2_writes : (ops2 : List (HloOp τ sig (Elt F))).Forall fun op =>
    op.writes ⊆ (W2.map (Proc.devRef (τ := τ) .tc)).toFinset :=
  ⟨writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide), writes_sub (binary_writes ..) (by decide),
    writes_sub (unary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide), writes_sub (binary_writes ..) (by decide), writes_sub (nullary_writes ..) (by decide),
    writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (unary_writes ..) (by decide), writes_sub (binary_writes ..) (by decide), writes_sub (binary_writes ..) (by decide),
    writes_sub (unary_writes ..) (by decide), writes_sub (nullary_writes ..) (by decide), writes_sub (binary_writes ..) (by decide),
    writes_sub (nullary_writes ..) (by decide), writes_sub (binary_writes ..) (by decide), writes_sub (unary_writes ..) (by decide),
    writes_sub (binary_writes ..) (by decide), writes_sub (nullary_writes ..) (by decide), writes_sub (binary_writes ..) (by decide),
    writes_sub (nullary_writes ..) (by decide), writes_sub (unary_writes ..) (by decide), writes_sub (unary_writes ..) (by decide),
    writes_sub (ternary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (unary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (nullary_writes ..) (by decide),
    writes_sub (unary_writes ..) (by decide), writes_sub (binary_writes ..) (by decide), writes_sub (binary_writes ..) (by decide),
    writes_sub (unary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide)⟩

/-- No operation of the window leaves a buffer's contents undetermined. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl⟩

end Cert.ReferenceIdeal.Hand

end
-- ==== Proof.RefRunW3.lean ====
/- The reference program's window 3 (of four) as a LIST of its host operations, in order, each call of an
   outlined function replaced by the function's own operations over the buffers that call names (a function
   called from inside another one likewise): 25 statements, 48 operations. Three facts about the list: the
   window's program is the list run in order; every operation touches TensorCore buffers only; every operation
   writes one buffer, and that buffer is one of the listed references `W3`. -/
import proofs.«141089_j11897059410621_1_alg».proof.ReferenceIdeal
import proofs.«141089_j11897059410621_1_alg».proof.Proof.RefRunAux
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Window 3's 48 operations, in order. -/
abbrev ops3 : List (HloOp τ sig (Elt F)) :=
  [ StableHlo.binary main_v147 main_v148 main_v149 (Host.divf : (⟨S32, .f32⟩ : BufTy).Contents (Elt F) → (⟨S32, .f32⟩ : BufTy).Contents (Elt F) → (⟨S32, .f32⟩ : BufTy).Contents (Elt F)),
    StableHlo.nullary main_c_29 (constantI S_ 32 0#32),
    StableHlo.TRef.nullary main_call8.cst (constant S_ .f32 0x00000000#32),
    StableHlo.TRef.binary (.of main_v146 : StableHlo.TRef sig ⟨S2048x32, .f32⟩) main_call8.cst main_call8.v0 (fun x v => Host.reduceAdd x v reducesTo_S2048x32_S32_d0 h_S_),
    StableHlo.TRef.unary main_call8.v0 main_call8.v1 (broadcastInDim S1x32 ![1] bcast_S32_S1x32_1),
    StableHlo.TRef.nullary main_call8.cst_0 (constant S_ .f32 0x45000000#32),
    StableHlo.TRef.unary main_call8.cst_0 main_call8.v2 (broadcastInDim S1x32 ![] bcast_S_S1x32),
    StableHlo.TRef.binary main_call8.v1 main_call8.v2 main_call8.v3 Host.divf,
    StableHlo.TRef.unary main_call8.v3 main_call8.v4 (broadcastInDim S2048x32 ![0, 1] bcast_S1x32_S2048x32_0_1),
    StableHlo.TRef.binary (.of main_v146 : StableHlo.TRef sig ⟨S2048x32, .f32⟩) main_call8.v4 main_call8.v5 subf,
    StableHlo.TRef.binary main_call8.v5 main_call8.v5 main_call8.v6 mulf,
    StableHlo.TRef.unary (.of main_c_29 : StableHlo.TRef sig ⟨S_, .i32⟩) main_call8.v7 (sitofp .f32),
    StableHlo.TRef.nullary main_call8.cst_1 (constant S_ .f32 0x45000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x32_S32_d0 h_S_),
    StableHlo.TRef.unary main_call8.v8 main_call8.v10 (broadcastInDim S32 ![] bcast_S_S32),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S32 ![] bcast_S_S32),
    StableHlo.TRef.ternary main_call8.v12 main_call8.v11 main_call8.call0.v1 main_call8.call0.v2 (fun p a b => select (broadcastInDim S32 ![] bcast_S_S32 p) a b),
    StableHlo.unary main_v149 main_v151 (broadcastInDim S1x32 ![1] bcast_S32_S1x32_1 : (⟨S32, .f32⟩ : BufTy).Contents (Elt F) → (⟨S1x32, .f32⟩ : BufTy).Contents (Elt F)),
    StableHlo.unary main_v151 main_v152 (broadcastInDim S2048x32 ![0, 1] bcast_S1x32_S2048x32_0_1 : (⟨S1x32, .f32⟩ : BufTy).Contents (Elt F) → (⟨S2048x32, .f32⟩ : BufTy).Contents (Elt F)),
    StableHlo.binary main_v146 main_v152 main_v153 (subf : (⟨S2048x32, .f32⟩ : BufTy).Contents (Elt F) → (⟨S2048x32, .f32⟩ : BufTy).Contents (Elt F) → (⟨S2048x32, .f32⟩ : BufTy).Contents (Elt F)),
    StableHlo.nullary main_cst_30 (constant S_ .f32 0x3727C5AC#32),
    StableHlo.unary main_cst_30 main_v154 (broadcastInDim S32 ![] bcast_S_S32 : (⟨S_, .f32⟩ : BufTy).Contents (Elt F) → (⟨S32, .f32⟩ : BufTy).Contents (Elt F)),
    StableHlo.binary main_v150 main_v154 main_v155 (addf : (⟨S32, .f32⟩ : BufTy).Contents (Elt F) → (⟨S32, .f32⟩ : BufTy).Contents (Elt F) → (⟨S32, .f32⟩ : BufTy).Contents (Elt F)),
    StableHlo.unary main_v155 main_v156 (Host.rsqrt : (⟨S32, .f32⟩ : BufTy).Contents (Elt F) → (⟨S32, .f32⟩ : BufTy).Contents (Elt F)),
    StableHlo.unary main_v156 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S2048x32 ![0, 1] bcast_S1x32_S2048x32_0_1 : (⟨S1x32, .f32⟩ : BufTy).Contents (Elt F) → (⟨S2048x32, .f32⟩ : BufTy).Contents (Elt F)),
    StableHlo.binary main_v153 main_v158 main_v159 (mulf : (⟨S2048x32, .f32⟩ : BufTy).Contents (Elt F) → (⟨S2048x32, .f32⟩ : BufTy).Contents (Elt F) → (⟨S2048x32, .f32⟩ : BufTy).Contents (Elt F)),
    StableHlo.unary main_arg20 main_v160 (broadcastInDim S1x32 ![1] bcast_S32_S1x32_1 : (⟨S32, .f32⟩ : BufTy).Contents (Elt F) → (⟨S1x32, .f32⟩ : BufTy).Contents (Elt F)),
    StableHlo.unary main_v160 main_v161 (broadcastInDim S2048x32 ![0, 1] bcast_S1x32_S2048x32_0_1 : (⟨S1x32, .f32⟩ : BufTy).Contents (Elt F) → (⟨S2048x32, .f32⟩ : BufTy).Contents (Elt F)),
    StableHlo.binary main_v159 main_v161 main_v162 (mulf : (⟨S2048x32, .f32⟩ : BufTy).Contents (Elt F) → (⟨S2048x32, .f32⟩ : BufTy).Contents (Elt F) → (⟨S2048x32, .f32⟩ : BufTy).Contents (Elt F)),
    StableHlo.unary main_arg21 main_v163 (broadcastInDim S1x32 ![1] bcast_S32_S1x32_1 : (⟨S32, .f32⟩ : BufTy).Contents (Elt F) → (⟨S1x32, .f32⟩ : BufTy).Contents (Elt F)),
    StableHlo.unary main_v163 main_v164 (broadcastInDim S2048x32 ![0, 1] bcast_S1x32_S2048x32_0_1 : (⟨S1x32, .f32⟩ : BufTy).Contents (Elt F) → (⟨S2048x32, .f32⟩ : BufTy).Contents (Elt F)),
    StableHlo.binary main_v162 main_v164 main_v165 (addf : (⟨S2048x32, .f32⟩ : BufTy).Contents (Elt F) → (⟨S2048x32, .f32⟩ : BufTy).Contents (Elt F) → (⟨S2048x32, .f32⟩ : BufTy).Contents (Elt F)),
    StableHlo.TRef.nullary main_call9.cst (constant S_ .f32 0x00000000#32),
    StableHlo.TRef.unary main_call9.cst main_call9.v0 (broadcastInDim S2048x32 ![] bcast_S_S2048x32),
    StableHlo.TRef.binary (.of main_v165 : StableHlo.TRef sig ⟨S2048x32, .f32⟩) main_call9.v0 main_call9.v1 maximumf,
    StableHlo.binary main_v166 main_arg22 main_v167 ((fun l r => Host.dotGeneral dot_S2048x32_S32x1_S2048x1_1_0_0_1_n_n none l r) : (⟨S2048x32, .f32⟩ : BufTy).Contents (Elt F) → (⟨S32x1, .f32⟩ : BufTy).Contents (Elt F) → (⟨S2048x1, .f32⟩ : BufTy).Contents (Elt F)),
    StableHlo.unary main_arg23 main_v168 (broadcastInDim S1x1 ![1] bcast_S1_S1x1_1 : (⟨S1, .f32⟩ : BufTy).Contents (Elt F) → (⟨S1x1, .f32⟩ : BufTy).Contents (Elt F)),
    StableHlo.unary main_v168 main_v169 (broadcastInDim S2048x1 ![0, 1] bcast_S1x1_S2048x1_0_1 : (⟨S1x1, .f32⟩ : BufTy).Contents (Elt F) → (⟨S2048x1, .f32⟩ : BufTy).Contents (Elt F)),
    StableHlo.binary main_v167 main_v169 main_v170 (addf : (⟨S2048x1, .f32⟩ : BufTy).Contents (Elt F) → (⟨S2048x1, .f32⟩ : BufTy).Contents (Elt F) → (⟨S2048x1, .f32⟩ : BufTy).Contents (Elt F)),
    StableHlo.reshape main_v170 main_v171 rfl shapeCasts_S2048x1_S2048 ]

/-- The window's program is that straight line: the outlined functions unfolded at their calls, and sequencing
    reassociated, both sides are one chain of host steps. -/
theorem part_eq_3 (d : Dev nD) : main_part3 (F := F) d = seq ops3 := by
  simp only [main_part3, fn_var_5.body, fn_where_6.body, fn_relu_7.body, seq, bind_assoc, pure_bind]

/-- Every operation of the window touches TensorCore buffers only. -/
theorem ops3_sub : (ops3 : List (HloOp τ sig (Elt F))).Forall fun op => op.bufs ⊆ tcRefs τ sig :=
  ⟨binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., reshape_bufs_sub ..⟩

/-- The references window 3 writes, one per operation, in order. -/
abbrev W3 : List (Ref sig .tc) :=
  [ main_v149, main_c_29, main_call8_cst, main_call8_v0, main_call8_v1, main_call8_cst_0, main_call8_v2, main_call8_v3,
    main_call8_v4, main_call8_v5, main_call8_v6, main_call8_v7, main_call8_cst_1, main_call8_v8, main_call8_cst_2, main_call8_v9,
    main_call8_v10, main_call8_v11, main_call8_cst_3, main_call8_v12, main_call8_cst_4, main_call8_call0_v0, main_call8_call0_v1, main_v150,
    main_v151, main_v152, main_v153, main_cst_30, main_v154, main_v155, main_v156, main_v157,
    main_v158, main_v159, main_v160, main_v161, main_v162, main_v163, main_v164, main_v165,
    main_call9_cst, main_call9_v0, main_v166, main_v167, main_v168, main_v169, main_v170, main_v171 ]

/-- Every operation of the window writes inside `W3`'s buffers. -/
theorem ops3_writes : (ops3 : List (HloOp τ sig (Elt F))).Forall fun op =>
    op.writes ⊆ (W3.map (Proc.devRef (τ := τ) .tc)).toFinset :=
  ⟨writes_sub (binary_writes ..) (by decide), writes_sub (nullary_writes ..) (by decide), writes_sub (nullary_writes ..) (by decide),
    writes_sub (binary_writes ..) (by decide), writes_sub (unary_writes ..) (by decide), writes_sub (nullary_writes ..) (by decide),
    writes_sub (unary_writes ..) (by decide), writes_sub (binary_writes ..) (by decide), writes_sub (unary_writes ..) (by decide),
    writes_sub (binary_writes ..) (by decide), writes_sub (binary_writes ..) (by decide), writes_sub (unary_writes ..) (by decide),
    writes_sub (nullary_writes ..) (by decide), writes_sub (binary_writes ..) (by decide), writes_sub (nullary_writes ..) (by decide),
    writes_sub (binary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (unary_writes ..) (by decide), writes_sub (unary_writes ..) (by decide), writes_sub (unary_writes ..) (by decide),
    writes_sub (binary_writes ..) (by decide), writes_sub (unary_writes ..) (by decide), writes_sub (unary_writes ..) (by decide),
    writes_sub (binary_writes ..) (by decide), writes_sub (unary_writes ..) (by decide), writes_sub (unary_writes ..) (by decide),
    writes_sub (binary_writes ..) (by decide), writes_sub (nullary_writes ..) (by decide), writes_sub (unary_writes ..) (by decide),
    writes_sub (binary_writes ..) (by decide), writes_sub (binary_writes ..) (by decide), writes_sub (unary_writes ..) (by decide),
    writes_sub (unary_writes ..) (by decide), writes_sub (binary_writes ..) (by decide), writes_sub (reshape_writes ..) (by decide)⟩

/-- No operation of the window leaves a buffer's contents undetermined. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

end Cert.ReferenceIdeal.Hand

end
-- ==== Proof.RefRun.lean ====
/- The reference program's run. Its 206 statements are four windows; each window is a list of host
   operations (the window modules), and the whole program is the four lists one after the other (282 operations
   with the outlined functions' operations in place). From that: every weakly fair execution terminates without
   a fault with each TensorCore buffer at the fold of the operations' results over the launch contents
   (`run_main`); a reference no window writes keeps its contents (`after_keep`), in particular each of the 24
   arguments (`arg_eq_K`); and a reference written only in an initial stretch of windows has, at the end, the
   contents it had after that stretch (`after_upto0`, `after_upto1`, `after_upto2`). -/
import proofs.«141089_j11897059410621_1_alg».proof.Proof.RefRunW0
import proofs.«141089_j11897059410621_1_alg».proof.Proof.RefRunW1
import proofs.«141089_j11897059410621_1_alg».proof.Proof.RefRunW2
import proofs.«141089_j11897059410621_1_alg».proof.Proof.RefRunW3
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The program's 282 operations, in order: the four windows' lists one after the other. -/
abbrev ops : List (HloOp τ sig (Elt F)) := ops0 ++ (ops1 ++ (ops2 ++ ops3))

/-- The program is that straight line: it runs its four windows in order, each window is its list run in
    order, and lists run one after the other are their concatenation run as one. -/
theorem main_eq (c : Dev nD) : main (F := F) c = seq ops := by
  show main (F := F) c = seq (ops0 ++ (ops1 ++ (ops2 ++ ops3)))
  rw [seq_append, seq_append, seq_append, ← part_eq_0 c, ← part_eq_1 c, ← part_eq_2 c, ← part_eq_3 c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

/-- No operation leaves a buffer's contents undetermined. -/
theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, ops3_fresh⟩⟩⟩)

/-- On every device, for any float values, from any memory with zero counters: every weakly fair execution of the
    program on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole program, window by window. -/
theorem after_ops (V : Valuation τ sig (Elt F)) :
    after ops V = after ops3 (after ops2 (after ops1 (after ops0 V))) := by
  show after (ops0 ++ (ops1 ++ (ops2 ++ ops3))) V = _
  rw [after_append, after_append, after_append]

/-- A reference that window `k` does not write keeps its contents across that window. -/
theorem keep0 (V : Valuation τ sig (Elt F)) {r : Ref sig .tc} (h : r ∉ W0) :
    after ops0 V (Proc.devRef .tc r) = V (Proc.devRef .tc r) := after_of_writes_sub ops0 V ops0_writes h
theorem keep1 (V : Valuation τ sig (Elt F)) {r : Ref sig .tc} (h : r ∉ W1) :
    after ops1 V (Proc.devRef .tc r) = V (Proc.devRef .tc r) := after_of_writes_sub ops1 V ops1_writes h
theorem keep2 (V : Valuation τ sig (Elt F)) {r : Ref sig .tc} (h : r ∉ W2) :
    after ops2 V (Proc.devRef .tc r) = V (Proc.devRef .tc r) := after_of_writes_sub ops2 V ops2_writes h
theorem keep3 (V : Valuation τ sig (Elt F)) {r : Ref sig .tc} (h : r ∉ W3) :
    after ops3 V (Proc.devRef .tc r) = V (Proc.devRef .tc r) := after_of_writes_sub ops3 V ops3_writes h

/-- A reference written only in windows 0 … 2 has at the end what it had after window 2. -/
theorem after_upto2 (V : Valuation τ sig (Elt F)) {r : Ref sig .tc} (h3 : r ∉ W3) :
    after ops V (Proc.devRef .tc r) = after ops2 (after ops1 (after ops0 V)) (Proc.devRef .tc r) := by
  rw [after_ops, keep3 _ h3]

/-- A reference written only in windows 0 and 1 has at the end what it had after window 1. -/
theorem after_upto1 (V : Valuation τ sig (Elt F)) {r : Ref sig .tc} (h2 : r ∉ W2) (h3 : r ∉ W3) :
    after ops V (Proc.devRef .tc r) = after ops1 (after ops0 V) (Proc.devRef .tc r) := by
  rw [after_upto2 V h3, keep2 _ h2]

/-- A reference written only in window 0 has at the end what it had after window 0. -/
theorem after_upto0 (V : Valuation τ sig (Elt F)) {r : Ref sig .tc} (h1 : r ∉ W1) (h2 : r ∉ W2) (h3 : r ∉ W3) :
    after ops V (Proc.devRef .tc r) = after ops0 V (Proc.devRef .tc r) := by
  rw [after_upto1 V h2 h3, keep1 _ h1]

/-- A reference no window writes keeps its contents. -/
theorem after_keep (V : Valuation τ sig (Elt F)) {r : Ref sig .tc} (h0 : r ∉ W0) (h1 : r ∉ W1) (h2 : r ∉ W2) (h3 : r ∉ W3) :
    after ops V (Proc.devRef .tc r) = V (Proc.devRef .tc r) := by
  rw [after_upto0 V h1 h2 h3, keep0 _ h0]

/-! No operation writes an argument. -/
theorem arg_eq_0 (V : Valuation τ sig (Elt F)) :
    after ops V (Proc.devRef .tc main_arg0) = V (Proc.devRef .tc main_arg0) :=
  after_keep V (by decide) (by decide) (by decide) (by decide)
theorem arg_eq_1 (V : Valuation τ sig (Elt F)) :
    after ops V (Proc.devRef .tc main_arg1) = V (Proc.devRef .tc main_arg1) :=
  after_keep V (by decide) (by decide) (by decide) (by decide)
theorem arg_eq_2 (V : Valuation τ sig (Elt F)) :
    after ops V (Proc.devRef .tc main_arg2) = V (Proc.devRef .tc main_arg2) :=
  after_keep V (by decide) (by decide) (by decide) (by decide)
theorem arg_eq_3 (V : Valuation τ sig (Elt F)) :
    after ops V (Proc.devRef .tc main_arg3) = V (Proc.devRef .tc main_arg3) :=
  after_keep V (by decide) (by decide) (by decide) (by decide)
theorem arg_eq_4 (V : Valuation τ sig (Elt F)) :
    after ops V (Proc.devRef .tc main_arg4) = V (Proc.devRef .tc main_arg4) :=
  after_keep V (by decide) (by decide) (by decide) (by decide)
theorem arg_eq_5 (V : Valuation τ sig (Elt F)) :
    after ops V (Proc.devRef .tc main_arg5) = V (Proc.devRef .tc main_arg5) :=
  after_keep V (by decide) (by decide) (by decide) (by decide)
theorem arg_eq_6 (V : Valuation τ sig (Elt F)) :
    after ops V (Proc.devRef .tc main_arg6) = V (Proc.devRef .tc main_arg6) :=
  after_keep V (by decide) (by decide) (by decide) (by decide)
theorem arg_eq_7 (V : Valuation τ sig (Elt F)) :
    after ops V (Proc.devRef .tc main_arg7) = V (Proc.devRef .tc main_arg7) :=
  after_keep V (by decide) (by decide) (by decide) (by decide)
theorem arg_eq_8 (V : Valuation τ sig (Elt F)) :
    after ops V (Proc.devRef .tc main_arg8) = V (Proc.devRef .tc main_arg8) :=
  after_keep V (by decide) (by decide) (by decide) (by decide)
theorem arg_eq_9 (V : Valuation τ sig (Elt F)) :
    after ops V (Proc.devRef .tc main_arg9) = V (Proc.devRef .tc main_arg9) :=
  after_keep V (by decide) (by decide) (by decide) (by decide)
theorem arg_eq_10 (V : Valuation τ sig (Elt F)) :
    after ops V (Proc.devRef .tc main_arg10) = V (Proc.devRef .tc main_arg10) :=
  after_keep V (by decide) (by decide) (by decide) (by decide)
theorem arg_eq_11 (V : Valuation τ sig (Elt F)) :
    after ops V (Proc.devRef .tc main_arg11) = V (Proc.devRef .tc main_arg11) :=
  after_keep V (by decide) (by decide) (by decide) (by decide)
theorem arg_eq_12 (V : Valuation τ sig (Elt F)) :
    after ops V (Proc.devRef .tc main_arg12) = V (Proc.devRef .tc main_arg12) :=
  after_keep V (by decide) (by decide) (by decide) (by decide)
theorem arg_eq_13 (V : Valuation τ sig (Elt F)) :
    after ops V (Proc.devRef .tc main_arg13) = V (Proc.devRef .tc main_arg13) :=
  after_keep V (by decide) (by decide) (by decide) (by decide)
theorem arg_eq_14 (V : Valuation τ sig (Elt F)) :
    after ops V (Proc.devRef .tc main_arg14) = V (Proc.devRef .tc main_arg14) :=
  after_keep V (by decide) (by decide) (by decide) (by decide)
theorem arg_eq_15 (V : Valuation τ sig (Elt F)) :
    after ops V (Proc.devRef .tc main_arg15) = V (Proc.devRef .tc main_arg15) :=
  after_keep V (by decide) (by decide) (by decide) (by decide)
theorem arg_eq_16 (V : Valuation τ sig (Elt F)) :
    after ops V (Proc.devRef .tc main_arg16) = V (Proc.devRef .tc main_arg16) :=
  after_keep V (by decide) (by decide) (by decide) (by decide)
theorem arg_eq_17 (V : Valuation τ sig (Elt F)) :
    after ops V (Proc.devRef .tc main_arg17) = V (Proc.devRef .tc main_arg17) :=
  after_keep V (by decide) (by decide) (by decide) (by decide)
theorem arg_eq_18 (V : Valuation τ sig (Elt F)) :
    after ops V (Proc.devRef .tc main_arg18) = V (Proc.devRef .tc main_arg18) :=
  after_keep V (by decide) (by decide) (by decide) (by decide)
theorem arg_eq_19 (V : Valuation τ sig (Elt F)) :
    after ops V (Proc.devRef .tc main_arg19) = V (Proc.devRef .tc main_arg19) :=
  after_keep V (by decide) (by decide) (by decide) (by decide)
theorem arg_eq_20 (V : Valuation τ sig (Elt F)) :
    after ops V (Proc.devRef .tc main_arg20) = V (Proc.devRef .tc main_arg20) :=
  after_keep V (by decide) (by decide) (by decide) (by decide)
theorem arg_eq_21 (V : Valuation τ sig (Elt F)) :
    after ops V (Proc.devRef .tc main_arg21) = V (Proc.devRef .tc main_arg21) :=
  after_keep V (by decide) (by decide) (by decide) (by decide)
theorem arg_eq_22 (V : Valuation τ sig (Elt F)) :
    after ops V (Proc.devRef .tc main_arg22) = V (Proc.devRef .tc main_arg22) :=
  after_keep V (by decide) (by decide) (by decide) (by decide)
theorem arg_eq_23 (V : Valuation τ sig (Elt F)) :
    after ops V (Proc.devRef .tc main_arg23) = V (Proc.devRef .tc main_arg23) :=
  after_keep V (by decide) (by decide) (by decide) (by decide)

end Cert.ReferenceIdeal.Hand

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.LibRowBlocks.lean ====
/-
  A long rank-two array against a block of consecutive rows of it.

  `RowsOf E M A o arr blk` says that `blk`, of `M` rows, holds rows `o, o + 1, …, o + M - 1` of the `E`-row array
  `arr` (each of `A` columns).  Every operation that acts on each row by itself carries the relation from its
  operands to its result, when the long side is spelt with the host's operations and the block side with a kernel's:

  * a plain matrix product with a matrix that both sides hold whole — the host's `dot_general` of the long array
    against a kernel's product of the block into a zero accumulator (row `r` of the product depends on row `r` of the
    left operand only);
  * the pointwise sum and product;
  * a vector spread over the rows — two `broadcast_in_dim`s on the long side, a shape cast and a broadcast on the block;
  * `z ↦ z · σ(z)` with `σ(z) = 1 / (1 + e⁻ᶻ)`: on the long side the quotient spelt out with the word of the number
    one, on the block the logistic operation;
  * a change of float format on the block, which does nothing to an extended real, and a shape cast of the block to
    its own shape.
-/
import Idealize.ShloMosaic.PureOps.Ideal.Laws
import Idealize.ShloMosaic.Lib.ValueIdx
import Idealize.ShloMosaic.Lib.Pipeline.Value
import proofs.«141089_j11897059410621_1_alg».proof.Proof.LibRowOps
import proofs.«141089_j11897059410621_1_alg».proof.Proof.LibGru

noncomputable section

open scoped BigOperators

namespace Cert.Lib.RowBlocks

open Idealize.ShloMosaic Idealize.ShloMosaic.ValueIdx Cert.Lib.RowOps

/-- `blk` holds rows `o … o + M - 1` of `arr`. -/
def RowsOf (E M A o : Nat) (arr : (⟨2, ![E, A]⟩ : Shape).Idx → EReal) (blk : (⟨2, ![M, A]⟩ : Shape).Idx → EReal) : Prop :=
  ∀ (y : Fin M) (k : Fin A) (h : o + y.val < E), blk (ix2 y k) = arr (ix2 ⟨o + y.val, h⟩ k)

variable {E M A o : Nat}

/-- A change of float format on the block side is the identity on extended reals. -/
theorem RowsOf.truncf {φ ψ : FTy} {X : (⟨2, ![E, A]⟩ : Shape).Idx → EReal} {Xb : FVec Ideal ⟨2, ![M, A]⟩ φ}
    (h : ψ.bits < φ.bits) (hX : RowsOf E M A o X Xb) : RowsOf E M A o X (truncf ψ Xb h) := hX

/-- A shape cast to the same shape on the block side is the identity. -/
theorem RowsOf.castSelf {X : (⟨2, ![E, A]⟩ : Shape).Idx → EReal} {Xb : (⟨2, ![M, A]⟩ : Shape).Idx → EReal}
    (h : (⟨2, ![M, A]⟩ : Shape).ShapeCasts ⟨2, ![M, A]⟩) (hX : RowsOf E M A o X Xb) :
    RowsOf E M A o X (shapeCast ⟨2, ![M, A]⟩ Xb h) := by
  rw [shapeCast_self]; exact hX

/-- An array equal to `W` entry by entry stays so under a shape cast to its own shape. -/
theorem castSelf_eq {s : Shape} (v W : s.Idx → EReal) (h : s.ShapeCasts s) (hv : ∀ i, v i = W i) :
    ∀ i, shapeCast s v h i = W i := by
  rw [shapeCast_self]; exact hv

/-- The host's plain product of the long array with `W` against a kernel's product of the block with `Wb` into a
    zero accumulator, when `Wb` is `W` entry by entry. -/
theorem RowsOf.dot {K N : Nat} {φ₁ φ₂ φ₃ φ₄ : FTy} {X : FVec Ideal ⟨2, ![E, K]⟩ φ₁} {Xb : FVec Ideal ⟨2, ![M, K]⟩ φ₃}
    (hX : RowsOf E M K o X Xb) (W : FVec Ideal ⟨2, ![K, N]⟩ φ₂) (Wb : FVec Ideal ⟨2, ![K, N]⟩ φ₄) (hW : ∀ i, Wb i = W i)
    (prec prec' : Option ContractPrecision) (sched : HostSchedule) :
    RowsOf E M N o (FloatOps.dotGeneral (DotDims.plain E K N) prec sched X W)
      (FloatOps.matmul (DotDims.plain M K N) prec' Xb Wb (constant ⟨2, ![M, N]⟩ .f32 0x00000000#32)) := fun y q h => by
  rw [matmul_zero_apply, dotGeneral_apply]
  exact Finset.sum_congr rfl fun k _ => by rw [hX y k h, hW]

/-- Pointwise sums. -/
theorem RowsOf.add {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (addf X Y) (addf Xb Yb) := fun y k h => by
  show (Xb (ix2 y k) : EReal) + Yb (ix2 y k) = X _ + Y _
  rw [hX y k h, hY y k h]

/-- Pointwise products. -/
theorem RowsOf.mul {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (mulf X Y) (mulf Xb Yb) := fun y k h => by
  show (Xb (ix2 y k) : EReal) * Yb (ix2 y k) = X _ * Y _
  rw [hX y k h, hY y k h]

/-- A vector spread over the rows: two `broadcast_in_dim`s of `b` on the long side, a shape cast and a broadcast of
    `bb` on the block, when `bb` is `b` entry by entry. -/
theorem RowsOf.bias {N : Nat} (b bb : (⟨1, ![N]⟩ : Shape).Idx → EReal) (hb : ∀ i, bb i = b i)
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨1, ![N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [castRow_broadcast_apply, bcastRow_bcast_apply, hb]

/-- `z ↦ z · σ(z)`: the host's quotient `1 / (1 + e⁻ᶻ)` with the word of the number one on the long side, the logistic
    operation on the block. -/
theorem RowsOf.silu {Z : FVec Ideal ⟨2, ![E, A]⟩ .f32} {Zb : FVec Ideal ⟨2, ![M, A]⟩ .f32} (hZ : RowsOf E M A o Z Zb)
    (h1 h2 : (⟨0, ![]⟩ : Shape).BroadcastsInDim ⟨2, ![E, A]⟩ ![]) :
    RowsOf E M A o
      (mulf Z (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf Z)))))
      (mulf Zb (logistic Zb)) := fun y k h => by
  show (Zb (ix2 y k) : EReal) * Ideal.logistic (Zb (ix2 y k))
    = Z _ * Ideal.div (Ideal.ofBits .f32 0x3F800000#32) (Ideal.ofBits .f32 0x3F800000#32 + Ideal.exp (-(Z _)))
  rw [hZ y k h, Cert.Lib.Gru.logistic_eq_sigm]
  rfl

end Cert.Lib.RowBlocks

end
-- ==== Proof.RowsLib.lean ====
/-
  More about a block of consecutive rows of a long rank-two array (the relation `RowsOf`): operations that act on each
  row by itself carry it from operands to result.

  * the pointwise maximum;
  * a single row `[1, N]` spread over all rows — one `broadcast_in_dim` on the long side; on the block a shape cast of
    the row to its own shape followed by a broadcast;
  * a scalar constant spread over every entry — a `broadcast_in_dim` of the rank-zero constant on the long side, a
    broadcast of the scalar on the block;
  * reading the relation at a pair of indices whose coordinates match up to the row offset;
  * and the relation for a block that is read off the long array row by row.
-/
import Idealize.ShloMosaic.PureOps.Ideal.Laws
import Idealize.ShloMosaic.Lib.ValueIdx
import Idealize.ShloMosaic.Lib.Pipeline.Value
import proofs.«141089_j11897059410621_1_alg».proof.Proof.LibRowOps
import proofs.«141089_j11897059410621_1_alg».proof.Proof.LibRowBlocks

noncomputable section

open scoped BigOperators

namespace Cert.Lib.RowBlocks

open Idealize.ShloMosaic Idealize.ShloMosaic.ValueIdx Cert.Lib.RowOps

variable {E M A o : Nat}

/-- Pointwise maxima. -/
theorem RowsOf.max {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (maximumf X Y) (maximumf Xb Yb) := fun y k h => by
  show Max.max (Xb (ix2 y k) : EReal) (Yb (ix2 y k)) = Max.max (X _ : EReal) (Y _)
  rw [hX y k h, hY y k h]

/-- One row `[1, N]` spread over the rows: a `broadcast_in_dim` of `b` on the long side; a shape cast of `bb` to its
    own shape and a broadcast on the block, when `bb` is `b` entry by entry. -/
theorem RowsOf.row {N : Nat} (b bb : (⟨2, ![1, N]⟩ : Shape).Idx → EReal) (hb : ∀ i, bb i = b i)
    (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 b)
      (broadcastTo ⟨2, ![M, N]⟩ (shapeCast ⟨2, ![1, N]⟩ bb h1') h2') := fun y q h => by
  rw [shapeCast_self]
  rw [broadcastTo_apply _ h2' (ix2 y q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![0, 1] h2 _ (ix2 (⟨o + y.val, h⟩ : Fin E) q) (ix2 (0 : Fin 1) q) (fun a => by
    match a with
    | ⟨0, _⟩ => simp
    | ⟨1, _⟩ =>
      show q.val = if N = 1 then 0 else q.val
      split
      · have := q.isLt; omega
      · rfl)]
  exact hb _

/-- A scalar constant spread over every entry. -/
theorem RowsOf.splat (w : BitVec 32) (h : (⟨0, ![]⟩ : Shape).BroadcastsInDim ⟨2, ![E, A]⟩ ![]) :
    RowsOf E M A o (broadcastInDim ⟨2, ![E, A]⟩ ![] h (constant (F := Ideal) ⟨0, ![]⟩ .f32 w))
      (broadcast ⟨2, ![M, A]⟩ (Scalar.ofBits (F := Ideal) .f32 w)) := fun y k h' => by
  rw [splat_apply]; rfl

/-- The relation read at an index `j` of the block and an index `i` of the long array on the same column, `i`'s row
    being `j`'s shifted by the offset. -/
theorem RowsOf.entry {arr : (⟨2, ![E, A]⟩ : Shape).Idx → EReal} {blk : (⟨2, ![M, A]⟩ : Shape).Idx → EReal}
    (hr : RowsOf E M A o arr blk) (j : (⟨2, ![M, A]⟩ : Shape).Idx) (i : (⟨2, ![E, A]⟩ : Shape).Idx)
    (h0 : (i 0).val = o + (j 0).val) (h1 : (i 1).val = (j 1).val) : blk j = arr i := by
  obtain ⟨p, q, rfl⟩ : ∃ (p : Fin M) (q : Fin A), j = ix2 p q := ⟨j 0, j 1, eq_ix2 j⟩
  obtain ⟨p', q', rfl⟩ : ∃ (p' : Fin E) (q' : Fin A), i = ix2 p' q' := ⟨i 0, i 1, eq_ix2 i⟩
  have e0 : p'.val = o + p.val := h0
  have e1 : q'.val = q.val := h1
  have hlt : o + p.val < E := by have := p'.isLt; omega
  rw [hr p q hlt]
  exact congrArg arr (funext fun a => by
    match a with
    | ⟨0, _⟩ => exact Fin.ext e0.symm
    | ⟨1, _⟩ => exact Fin.ext e1.symm)

/-- A block whose entry `(y, k)` is the long array's entry `(o + y, k)`, however the block's index is carried to the
    long array's (`emb`). -/
theorem RowsOf.of_emb (arr : (⟨2, ![E, A]⟩ : Shape).Idx → EReal) (emb : (⟨2, ![M, A]⟩ : Shape).Idx → (⟨2, ![E, A]⟩ : Shape).Idx)
    (h0 : ∀ j, ((emb j) 0).val = o + (j 0).val) (h1 : ∀ j, ((emb j) 1).val = (j 1).val) :
    RowsOf E M A o arr (fun j => arr (emb j)) := fun y k h => by
  show arr (emb (ix2 y k)) = arr (ix2 ⟨o + y.val, h⟩ k)
  exact congrArg arr (funext fun a => by
    match a with
    | ⟨0, _⟩ => exact Fin.ext (h0 (ix2 y k))
    | ⟨1, _⟩ => exact Fin.ext (h1 (ix2 y k)))

end Cert.Lib.RowBlocks

end
-- ==== Proof.Rows0.lean ====
/-
  The first node-wise region: every node's 9 input features times a 9 × 64 matrix.

  The 100000 rows are cut into ten blocks of 10000 consecutive rows; the point `t` of the grid is handed rows
  `10000 t … 10000 t + 9999` of the features and the whole matrix, and writes back the same rows of the product.
  Row `r` of a matrix product depends on row `r` of the left factor only, and a product accumulated into zero is the
  plain sum over the contraction axis, so the block written at `t` is rows `10000 t …` of the product of the whole
  array with the matrix; the ten blocks tile the array (row `r` lies in block `r / 10000`).
-/
import proofs.«141089_j11897059410621_1_alg».proof.Proof.Gen.KernelIdeal.Frame
import proofs.«141089_j11897059410621_1_alg».proof.Proof.Gen.ReferenceIdeal
import proofs.«141089_j11897059410621_1_alg».proof.Proof.Spec
import proofs.«141089_j11897059410621_1_alg».proof.Proof.RowsLib

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.RowBlocks

variable (V : (c : Dev nD) → (b : Ref sig .tc) → Buf (Elt Ideal) ((c : Thread nD τ).loc b))

theorem rows0_hz : (![0, 0] : Fin 2 → Nat) = fun _ => 0 := funext fun a => by fin_cases a <;> rfl

/-- The body's arithmetic carries rows `o …` of the features to rows `o …` of the product. -/
theorem pay0_rows (o : Nat) (X : Cert.Spec.Arr Ideal Cert.ReferenceIdeal.S100000x9 .f32)
    (W : Cert.Spec.Arr Ideal Cert.ReferenceIdeal.S9x64 .f32)
    (x0 : Vec Ideal S10000x9 .f32) (x1 : Vec Ideal S9x64 .f32)
    (h0 : RowsOf 100000 10000 9 o X x0) (h1 : ∀ i, x1 i = W i) :
    RowsOf 100000 10000 64 o (Cert.Spec.lin1 X W) (k0_pay1 x0 x1) := by
  unfold Cert.Spec.lin1 k0_pay1
  exact RowsOf.dot (h0.truncf _) W _ h1 none none .single

/-- Where each window's block sits at the point `t`: the node blocks at block row `t`, the matrix whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the point `t` writes back is block `t` of the whole-array product. -/
theorem flushed0_eq (c : Dev nD) (t : Fin cfg0.N) :
    (dat0 (F := Ideal) V c).flushed 2 t = ((cfg0.win 2).blk t).view.read (Elt Ideal)
      (Cert.Spec.lin1 (V c (Pipeline.arrRef spec0 0)) (V c (Pipeline.arrRef spec0 1))) := by
  show (cfg0.win 2).cut (grid0.coords t) ((dat0 V c).after 2 t) = _
  rw [after0_2]
  unfold out0_2
  rw [View.canon_unit_zero rows0_hz]
  simp only [View.ld_unit_zero (S := S10000x9) rows0_hz, View.ld_unit_zero (S := S9x64) rows0_hz]
  obtain ⟨e00, e01, e10, e11, e20, e21⟩ := idx_facts0 t
  funext j
  refine (pay0_rows (t.val * 10000) (V c (Pipeline.arrRef spec0 0)) (V c (Pipeline.arrRef spec0 1))
    (iblk0 V c 0 t) (iblk0 V c 1 t) ?_ ?_).entry j (((cfg0.win 2).blk t).view.emb j) ?_ ?_
  · exact RowsOf.of_emb _ (fun y => ((cfg0.win 0).blk t).view.emb y)
      (fun y => by show win0_0.index t (0 : Fin 2) * 10000 + 1 * (y 0).val = _; omega)
      (fun y => by show win0_0.index t (1 : Fin 2) * 9 + 1 * (y 1).val = _; omega)
  · intro i
    exact congrArg (V c (Pipeline.arrRef spec0 1)) (funext fun a => Fin.ext (by
      match a with
      | ⟨0, _⟩ => show win0_1.index t (0 : Fin 2) * 9 + 1 * (i 0).val = (i 0).val; omega
      | ⟨1, _⟩ => show win0_1.index t (1 : Fin 2) * 64 + 1 * (i 1).val = (i 1).val; omega))
  · show win0_2.index t (0 : Fin 2) * 10000 + 1 * (j 0).val = _; omega
  · show win0_2.index t (1 : Fin 2) * 64 + 1 * (j 1).val = _; omega

/-- An index of the array is in the point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Row `r` lies in the block of the point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show _ < grid0.N; rw [hN]; omega
  obtain ⟨-, -, -, -, e20, e21⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e21]; omega

/-- The array after the region: the features times the matrix. -/
theorem final0 (c : Dev nD) : (dat0 (F := Ideal) V c).arrAt 2 cfg0.N
    = Cert.Spec.lin1 (V c (Pipeline.arrRef spec0 0)) (V c (Pipeline.arrRef spec0 1)) :=
  (dat0 V c).arrAt_eq_of_cover 2 _ (fun t _ => flushed0_eq V c t) cover0

end Cert.KernelIdeal.Hand

end
-- ==== Proof.Rows1.lean ====
/-
  The second node-wise region: every node's 64 features plus a row of 64, the maximum with zero, then times a
  64 × 64 matrix.

  The 100000 rows are cut into ten blocks of 10000 consecutive rows; the point `t` of the grid is handed rows
  `10000 t … 10000 t + 9999` of the features, the whole row of 64 and the whole matrix, and writes back the same rows
  of the result.  Adding a row and taking a maximum act on every row by itself, row `r` of a matrix product depends
  on row `r` of the left factor only, and a product accumulated into zero is the plain sum over the contraction axis;
  so the block written at `t` is rows `10000 t …` of the same operations applied to the whole array, and the ten
  blocks tile the array (row `r` lies in block `r / 10000`).
-/
import proofs.«141089_j11897059410621_1_alg».proof.Proof.Gen.KernelIdeal.Frame
import proofs.«141089_j11897059410621_1_alg».proof.Proof.Gen.ReferenceIdeal
import proofs.«141089_j11897059410621_1_alg».proof.Proof.Spec
import proofs.«141089_j11897059410621_1_alg».proof.Proof.RowsLib

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.RowBlocks

variable (V : (c : Dev nD) → (b : Ref sig .tc) → Buf (Elt Ideal) ((c : Thread nD τ).loc b))

theorem rows1_hz : (![0, 0] : Fin 2 → Nat) = fun _ => 0 := funext fun a => by fin_cases a <;> rfl

/-- The body's arithmetic carries rows `o …` of the features to rows `o …` of the result. -/
theorem pay1_rows (o : Nat) (A : Cert.Spec.Arr Ideal Cert.ReferenceIdeal.S100000x64 .f32)
    (br : Cert.Spec.Arr Ideal Cert.ReferenceIdeal.S1x64 .f32) (W : Cert.Spec.Arr Ideal Cert.ReferenceIdeal.S64x64 .f32)
    (x0 : Vec Ideal S10000x64 .f32) (x1 : Vec Ideal S1x64 .f32) (x2 : Vec Ideal S64x64 .f32)
    (h0 : RowsOf 100000 10000 64 o A x0) (h1 : ∀ i, x1 i = br i) (h2 : ∀ i, x2 i = W i) :
    RowsOf 100000 10000 64 o (Cert.Spec.lin64 (Cert.Spec.biasRelu2 A br) W) (k1_pay1 x0 x1 x2) := by
  unfold Cert.Spec.lin64 Cert.Spec.biasRelu2 k1_pay1
  exact RowsOf.dot ((RowsOf.max (RowsOf.add (h0.castSelf _) (RowsOf.row br x1 h1 _ _ _)) (RowsOf.splat _ _)).truncf _)
    W _ h2 none none .single

/-- Where each window's block sits at the point `t`: the node blocks at block row `t`, the row and the matrix whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the point `t` writes back is block `t` of the whole-array result. -/
theorem flushed1_eq (c : Dev nD) (t : Fin cfg1.N) :
    (dat1 (F := Ideal) V c).flushed 3 t = ((cfg1.win 3).blk t).view.read (Elt Ideal)
      (Cert.Spec.lin64 (Cert.Spec.biasRelu2 (V c (Pipeline.arrRef spec1 0)) (V c (Pipeline.arrRef spec1 1)))
        (V c (Pipeline.arrRef spec1 2))) := by
  show (cfg1.win 3).cut (grid1.coords t) ((dat1 V c).after 3 t) = _
  rw [after1_3]
  unfold out1_3
  rw [View.canon_unit_zero rows1_hz]
  simp only [View.ld_unit_zero (S := S10000x64) rows1_hz, View.ld_unit_zero (S := S1x64) rows1_hz,
    View.ld_unit_zero (S := S64x64) rows1_hz]
  obtain ⟨e00, e01, e10, e11, e20, e21, e30, e31⟩ := idx_facts1 t
  funext j
  refine (pay1_rows (t.val * 10000) (V c (Pipeline.arrRef spec1 0)) (V c (Pipeline.arrRef spec1 1))
    (V c (Pipeline.arrRef spec1 2)) (iblk1 V c 0 t) (iblk1 V c 1 t) (iblk1 V c 2 t) ?_ ?_ ?_).entry j
    (((cfg1.win 3).blk t).view.emb j) ?_ ?_
  · exact RowsOf.of_emb _ (fun y => ((cfg1.win 0).blk t).view.emb y)
      (fun y => by show win1_0.index t (0 : Fin 2) * 10000 + 1 * (y 0).val = _; omega)
      (fun y => by show win1_0.index t (1 : Fin 2) * 64 + 1 * (y 1).val = _; omega)
  · intro i
    exact congrArg (V c (Pipeline.arrRef spec1 1)) (funext fun a => Fin.ext (by
      match a with
      | ⟨0, _⟩ => show win1_1.index t (0 : Fin 2) * 1 + 1 * (i 0).val = (i 0).val; omega
      | ⟨1, _⟩ => show win1_1.index t (1 : Fin 2) * 64 + 1 * (i 1).val = (i 1).val; omega))
  · intro i
    exact congrArg (V c (Pipeline.arrRef spec1 2)) (funext fun a => Fin.ext (by
      match a with
      | ⟨0, _⟩ => show win1_2.index t (0 : Fin 2) * 64 + 1 * (i 0).val = (i 0).val; omega
      | ⟨1, _⟩ => show win1_2.index t (1 : Fin 2) * 64 + 1 * (i 1).val = (i 1).val; omega))
  · show win1_3.index t (0 : Fin 2) * 10000 + 1 * (j 0).val = _; omega
  · show win1_3.index t (1 : Fin 2) * 64 + 1 * (j 1).val = _; omega

/-- An index of the array is in the point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- Row `r` lies in the block of the point `r / 10000`. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have ht : (i 0).val / 10000 < cfg1.N := by show _ < grid1.N; rw [hN]; omega
  obtain ⟨-, -, -, -, -, -, e30, e31⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e31]; omega

/-- The array after the region: the row added to every node's features, the maximum with zero, times the matrix. -/
theorem final1 (c : Dev nD) : (dat1 (F := Ideal) V c).arrAt 3 cfg1.N
    = Cert.Spec.lin64 (Cert.Spec.biasRelu2 (V c (Pipeline.arrRef spec1 0)) (V c (Pipeline.arrRef spec1 1)))
        (V c (Pipeline.arrRef spec1 2)) :=
  (dat1 V c).arrAt_eq_of_cover 3 _ (fun t _ => flushed1_eq V c t) cover1

end Cert.KernelIdeal.Hand

end
-- ==== Proof.Rows2.lean ====
/-
  The third node-wise region: every node's 64 features plus a row of 64, the maximum with zero, then times a
  64 × 64 matrix.

  The 100000 rows are cut into ten blocks of 10000 consecutive rows; the point `t` of the grid is handed rows
  `10000 t … 10000 t + 9999` of the features, the whole row of 64 and the whole matrix, and writes back the same rows
  of the result.  Adding a row and taking a maximum act on every row by itself, row `r` of a matrix product depends
  on row `r` of the left factor only, and a product accumulated into zero is the plain sum over the contraction axis;
  so the block written at `t` is rows `10000 t …` of the same operations applied to the whole array, and the ten
  blocks tile the array (row `r` lies in block `r / 10000`).
-/
import proofs.«141089_j11897059410621_1_alg».proof.Proof.Gen.KernelIdeal.Frame
import proofs.«141089_j11897059410621_1_alg».proof.Proof.Gen.ReferenceIdeal
import proofs.«141089_j11897059410621_1_alg».proof.Proof.Spec
import proofs.«141089_j11897059410621_1_alg».proof.Proof.RowsLib

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.RowBlocks

variable (V : (c : Dev nD) → (b : Ref sig .tc) → Buf (Elt Ideal) ((c : Thread nD τ).loc b))

theorem rows2_hz : (![0, 0] : Fin 2 → Nat) = fun _ => 0 := funext fun a => by fin_cases a <;> rfl

/-- The body's arithmetic carries rows `o …` of the features to rows `o …` of the result. -/
theorem pay2_rows (o : Nat) (A : Cert.Spec.Arr Ideal Cert.ReferenceIdeal.S100000x64 .f32)
    (br : Cert.Spec.Arr Ideal Cert.ReferenceIdeal.S1x64 .f32) (W : Cert.Spec.Arr Ideal Cert.ReferenceIdeal.S64x64 .f32)
    (x0 : Vec Ideal S10000x64 .f32) (x1 : Vec Ideal S1x64 .f32) (x2 : Vec Ideal S64x64 .f32)
    (h0 : RowsOf 100000 10000 64 o A x0) (h1 : ∀ i, x1 i = br i) (h2 : ∀ i, x2 i = W i) :
    RowsOf 100000 10000 64 o (Cert.Spec.lin64 (Cert.Spec.biasRelu2 A br) W) (k2_pay1 x0 x1 x2) := by
  unfold Cert.Spec.lin64 Cert.Spec.biasRelu2 k2_pay1
  exact RowsOf.dot ((RowsOf.max (RowsOf.add (h0.castSelf _) (RowsOf.row br x1 h1 _ _ _)) (RowsOf.splat _ _)).truncf _)
    W _ h2 none none .single

/-- Where each window's block sits at the point `t`: the node blocks at block row `t`, the row and the matrix whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the point `t` writes back is block `t` of the whole-array result. -/
theorem flushed2_eq (c : Dev nD) (t : Fin cfg2.N) :
    (dat2 (F := Ideal) V c).flushed 3 t = ((cfg2.win 3).blk t).view.read (Elt Ideal)
      (Cert.Spec.lin64 (Cert.Spec.biasRelu2 (V c (Pipeline.arrRef spec2 0)) (V c (Pipeline.arrRef spec2 1)))
        (V c (Pipeline.arrRef spec2 2))) := by
  show (cfg2.win 3).cut (grid2.coords t) ((dat2 V c).after 3 t) = _
  rw [after2_3]
  unfold out2_3
  rw [View.canon_unit_zero rows2_hz]
  simp only [View.ld_unit_zero (S := S10000x64) rows2_hz, View.ld_unit_zero (S := S1x64) rows2_hz,
    View.ld_unit_zero (S := S64x64) rows2_hz]
  obtain ⟨e00, e01, e10, e11, e20, e21, e30, e31⟩ := idx_facts2 t
  funext j
  refine (pay2_rows (t.val * 10000) (V c (Pipeline.arrRef spec2 0)) (V c (Pipeline.arrRef spec2 1))
    (V c (Pipeline.arrRef spec2 2)) (iblk2 V c 0 t) (iblk2 V c 1 t) (iblk2 V c 2 t) ?_ ?_ ?_).entry j
    (((cfg2.win 3).blk t).view.emb j) ?_ ?_
  · exact RowsOf.of_emb _ (fun y => ((cfg2.win 0).blk t).view.emb y)
      (fun y => by show win2_0.index t (0 : Fin 2) * 10000 + 1 * (y 0).val = _; omega)
      (fun y => by show win2_0.index t (1 : Fin 2) * 64 + 1 * (y 1).val = _; omega)
  · intro i
    exact congrArg (V c (Pipeline.arrRef spec2 1)) (funext fun a => Fin.ext (by
      match a with
      | ⟨0, _⟩ => show win2_1.index t (0 : Fin 2) * 1 + 1 * (i 0).val = (i 0).val; omega
      | ⟨1, _⟩ => show win2_1.index t (1 : Fin 2) * 64 + 1 * (i 1).val = (i 1).val; omega))
  · intro i
    exact congrArg (V c (Pipeline.arrRef spec2 2)) (funext fun a => Fin.ext (by
      match a with
      | ⟨0, _⟩ => show win2_2.index t (0 : Fin 2) * 64 + 1 * (i 0).val = (i 0).val; omega
      | ⟨1, _⟩ => show win2_2.index t (1 : Fin 2) * 64 + 1 * (i 1).val = (i 1).val; omega))
  · show win2_3.index t (0 : Fin 2) * 10000 + 1 * (j 0).val = _; omega
  · show win2_3.index t (1 : Fin 2) * 64 + 1 * (j 1).val = _; omega

/-- An index of the array is in the point `t`'s block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v59).slice (win2_3.rect t)).set ↔ _
  rw [View.set_slice_whole, Rect.mem_set_unit]
  exact Iff.rfl

/-- Row `r` lies in the block of the point `r / 10000`. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 10 := N_2
  have ht : (i 0).val / 10000 < cfg2.N := by show _ < grid2.N; rw [hN]; omega
  obtain ⟨-, -, -, -, -, -, e30, e31⟩ := idx_facts2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    rw [e31]; omega

/-- The array after the region: the row added to every node's features, the maximum with zero, times the matrix. -/
theorem final2 (c : Dev nD) : (dat2 (F := Ideal) V c).arrAt 3 cfg2.N
    = Cert.Spec.lin64 (Cert.Spec.biasRelu2 (V c (Pipeline.arrRef spec2 0)) (V c (Pipeline.arrRef spec2 1)))
        (V c (Pipeline.arrRef spec2 2)) :=
  (dat2 V c).arrAt_eq_of_cover 3 _ (fun t _ => flushed2_eq V c t) cover2

end Cert.KernelIdeal.Hand

end
-- ==== Proof.Rows3.lean ====
/-
  The fourth node-wise region: every node's 64 features plus a row of 64, then the maximum with zero.

  The 100000 rows are cut into ten blocks of 10000 consecutive rows; the point `t` of the grid is handed rows
  `10000 t … 10000 t + 9999` and the whole row of 64, and writes back the same rows of the result.  Adding a row and
  taking a maximum act on every row by itself, so the block written at `t` is rows `10000 t …` of the same
  operations applied to the whole array; the ten blocks tile the array (row `r` lies in block `r / 10000`), so the
  array ends as those operations of the whole array.
-/
import proofs.«141089_j11897059410621_1_alg».proof.Proof.Gen.KernelIdeal.Frame
import proofs.«141089_j11897059410621_1_alg».proof.Proof.Gen.ReferenceIdeal
import proofs.«141089_j11897059410621_1_alg».proof.Proof.Spec
import proofs.«141089_j11897059410621_1_alg».proof.Proof.RowsLib

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.RowBlocks

variable (V : (c : Dev nD) → (b : Ref sig .tc) → Buf (Elt Ideal) ((c : Thread nD τ).loc b))

theorem rows3_hz : (![0, 0] : Fin 2 → Nat) = fun _ => 0 := funext fun a => by fin_cases a <;> rfl

/-- The body's arithmetic carries rows `o …` of the long array to rows `o …` of the result. -/
theorem pay3_rows (o : Nat) (A : Cert.Spec.Arr Ideal Cert.ReferenceIdeal.S100000x64 .f32)
    (br : Cert.Spec.Arr Ideal Cert.ReferenceIdeal.S1x64 .f32)
    (x0 : Vec Ideal S10000x64 .f32) (x1 : Vec Ideal S1x64 .f32)
    (h0 : RowsOf 100000 10000 64 o A x0) (h1 : ∀ i, x1 i = br i) :
    RowsOf 100000 10000 64 o (Cert.Spec.biasRelu2 A br) (k3_pay1 x0 x1) := by
  unfold Cert.Spec.biasRelu2 k3_pay1
  exact RowsOf.max (RowsOf.add (h0.castSelf _) (RowsOf.row br x1 h1 _ _ _)) (RowsOf.splat _ _)

/-- Where each window's block sits at the point `t`: the node blocks at block row `t`, the row of 64 whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the point `t` writes back is block `t` of the whole-array result. -/
theorem flushed3_eq (c : Dev nD) (t : Fin cfg3.N) :
    (dat3 (F := Ideal) V c).flushed 2 t = ((cfg3.win 2).blk t).view.read (Elt Ideal)
      (Cert.Spec.biasRelu2 (V c (Pipeline.arrRef spec3 0)) (V c (Pipeline.arrRef spec3 1))) := by
  show (cfg3.win 2).cut (grid3.coords t) ((dat3 V c).after 2 t) = _
  rw [after3_2]
  unfold out3_2
  rw [View.canon_unit_zero rows3_hz]
  simp only [View.ld_unit_zero (S := S10000x64) rows3_hz, View.ld_unit_zero (S := S1x64) rows3_hz]
  obtain ⟨e00, e01, e10, e11, e20, e21⟩ := idx_facts3 t
  funext j
  refine (pay3_rows (t.val * 10000) (V c (Pipeline.arrRef spec3 0)) (V c (Pipeline.arrRef spec3 1))
    (iblk3 V c 0 t) (iblk3 V c 1 t) ?_ ?_).entry j (((cfg3.win 2).blk t).view.emb j) ?_ ?_
  · exact RowsOf.of_emb _ (fun y => ((cfg3.win 0).blk t).view.emb y)
      (fun y => by show win3_0.index t (0 : Fin 2) * 10000 + 1 * (y 0).val = _; omega)
      (fun y => by show win3_0.index t (1 : Fin 2) * 64 + 1 * (y 1).val = _; omega)
  · intro i
    exact congrArg (V c (Pipeline.arrRef spec3 1)) (funext fun a => Fin.ext (by
      match a with
      | ⟨0, _⟩ => show win3_1.index t (0 : Fin 2) * 1 + 1 * (i 0).val = (i 0).val; omega
      | ⟨1, _⟩ => show win3_1.index t (1 : Fin 2) * 64 + 1 * (i 1).val = (i 1).val; omega))
  · show win3_2.index t (0 : Fin 2) * 10000 + 1 * (j 0).val = _; omega
  · show win3_2.index t (1 : Fin 2) * 64 + 1 * (j 1).val = _; omega

/-- An index of the array is in the point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v73).slice (win3_2.rect t)).set ↔ _
  rw [View.set_slice_whole, Rect.mem_set_unit]
  exact Iff.rfl

/-- Row `r` lies in the block of the point `r / 10000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  have ht : (i 0).val / 10000 < cfg3.N := by show _ < grid3.N; rw [hN]; omega
  obtain ⟨-, -, -, -, e20, e21⟩ := idx_facts3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e21]; omega

/-- The array after the region: the row added to every node's features, then the maximum with zero. -/
theorem final3 (c : Dev nD) : (dat3 (F := Ideal) V c).arrAt 2 cfg3.N
    = Cert.Spec.biasRelu2 (V c (Pipeline.arrRef spec3 0)) (V c (Pipeline.arrRef spec3 1)) :=
  (dat3 V c).arrAt_eq_of_cover 2 _ (fun t _ => flushed3_eq V c t) cover3

end Cert.KernelIdeal.Hand

end
-- ==== Proof.Assemble.lean ====
/-
  The five claims from their parts. The two frames of the kernel programs are the generated ones; the reference's frame
  is its run with the result dropped. For the value claim both runs end at ONE function of the arguments: the kernel
  program's result buffer is that function by the walk through its thirteen segments (the dense stages from the five
  regions' values), the reference's by unfolding its own operations; the arguments agree by hypothesis.
-/
import proofs.«141089_j11897059410621_1_alg».proof.Defs
import proofs.«141089_j11897059410621_1_alg».proof.Proof.Gen.Kernel.Frame
import proofs.«141089_j11897059410621_1_alg».proof.Proof.Gen.KernelIdeal.Frame
import proofs.«141089_j11897059410621_1_alg».proof.Proof.Gen.ReferenceIdeal
import proofs.«141089_j11897059410621_1_alg».proof.Proof.Gen.Pre_finite_inputs
import proofs.«141089_j11897059410621_1_alg».proof.Proof.KerRun
import proofs.«141089_j11897059410621_1_alg».proof.Proof.Chain
import proofs.«141089_j11897059410621_1_alg».proof.Proof.RefRun
import proofs.«141089_j11897059410621_1_alg».proof.Proof.Rows0
import proofs.«141089_j11897059410621_1_alg».proof.Proof.Rows1
import proofs.«141089_j11897059410621_1_alg».proof.Proof.Rows2
import proofs.«141089_j11897059410621_1_alg».proof.Proof.Rows3

noncomputable section

namespace Cert.Proof

open Idealize.ShloMosaic Idealize.ShloMosaic.TcCoe Idealize.SL.Sem Idealize.ShloMosaic.StableHlo

/-- Both idealized programs end with equal results, given the head region's value and the reference's result term. -/
theorem algebraic_of
    (final4 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Gen.dat4 (F := Ideal) V c).arrAt 15 Cert.KernelIdeal.cfg4.N = Cert.Spec.mlpHead2 (V c (Pipeline.arrRef Cert.KernelIdeal.spec4 0)) (V c (Pipeline.arrRef Cert.KernelIdeal.spec4 1)) (V c (Pipeline.arrRef Cert.KernelIdeal.spec4 2)) (V c (Pipeline.arrRef Cert.KernelIdeal.spec4 3)) (V c (Pipeline.arrRef Cert.KernelIdeal.spec4 4)) (V c (Pipeline.arrRef Cert.KernelIdeal.spec4 5)) (V c (Pipeline.arrRef Cert.KernelIdeal.spec4 6)) (V c (Pipeline.arrRef Cert.KernelIdeal.spec4 7)) (V c (Pipeline.arrRef Cert.KernelIdeal.spec4 8)) (V c (Pipeline.arrRef Cert.KernelIdeal.spec4 9)) (V c (Pipeline.arrRef Cert.KernelIdeal.spec4 10)) (V c (Pipeline.arrRef Cert.KernelIdeal.spec4 11)) (V c (Pipeline.arrRef Cert.KernelIdeal.spec4 12)) (V c (Pipeline.arrRef Cert.KernelIdeal.spec4 13)) (V c (Pipeline.arrRef Cert.KernelIdeal.spec4 14)))
    (out_eq : ∀ V : Valuation Cert.ReferenceIdeal.τ Cert.ReferenceIdeal.sig (Elt Ideal),
      after (Cert.ReferenceIdeal.Hand.ops (F := Ideal)) V (Proc.devRef .tc Cert.ReferenceIdeal.main_v171) = Cert.Spec.out (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17)) (V (Proc.devRef .tc Cert.ReferenceIdeal.main_arg18)) (V (Proc.devRef .tc Cert.ReferenceIdeal.main_arg19)) (V (Proc.devRef .tc Cert.ReferenceIdeal.main_arg20)) (V (Proc.devRef .tc Cert.ReferenceIdeal.main_arg21)) (V (Proc.devRef .tc Cert.ReferenceIdeal.main_arg22)) (V (Proc.devRef .tc Cert.ReferenceIdeal.main_arg23))) :
    Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono (fun r h c => ⟨(h c).1.trans
      (Cert.KernelIdeal.Hand.chain m ρ Cert.KernelIdeal.Hand.final0 Cert.KernelIdeal.Hand.final1 Cert.KernelIdeal.Hand.final2 Cert.KernelIdeal.Hand.final3 final4 c), (h c).2⟩)
      (Cert.KernelIdeal.Hand.run_main m ρ)
  · refine (θ_run Cert.ReferenceIdeal.defs _ _).mono (fun r h c => ⟨?_, (h c Cert.ReferenceIdeal.main_arg0).trans (Cert.ReferenceIdeal.Hand.arg_eq_0 _),
      (h c Cert.ReferenceIdeal.main_arg1).trans (Cert.ReferenceIdeal.Hand.arg_eq_1 _),
      (h c Cert.ReferenceIdeal.main_arg2).trans (Cert.ReferenceIdeal.Hand.arg_eq_2 _),
      (h c Cert.ReferenceIdeal.main_arg3).trans (Cert.ReferenceIdeal.Hand.arg_eq_3 _),
      (h c Cert.ReferenceIdeal.main_arg4).trans (Cert.ReferenceIdeal.Hand.arg_eq_4 _),
      (h c Cert.ReferenceIdeal.main_arg5).trans (Cert.ReferenceIdeal.Hand.arg_eq_5 _),
      (h c Cert.ReferenceIdeal.main_arg6).trans (Cert.ReferenceIdeal.Hand.arg_eq_6 _),
      (h c Cert.ReferenceIdeal.main_arg7).trans (Cert.ReferenceIdeal.Hand.arg_eq_7 _),
      (h c Cert.ReferenceIdeal.main_arg8).trans (Cert.ReferenceIdeal.Hand.arg_eq_8 _),
      (h c Cert.ReferenceIdeal.main_arg9).trans (Cert.ReferenceIdeal.Hand.arg_eq_9 _),
      (h c Cert.ReferenceIdeal.main_arg10).trans (Cert.ReferenceIdeal.Hand.arg_eq_10 _),
      (h c Cert.ReferenceIdeal.main_arg11).trans (Cert.ReferenceIdeal.Hand.arg_eq_11 _),
      (h c Cert.ReferenceIdeal.main_arg12).trans (Cert.ReferenceIdeal.Hand.arg_eq_12 _),
      (h c Cert.ReferenceIdeal.main_arg13).trans (Cert.ReferenceIdeal.Hand.arg_eq_13 _),
      (h c Cert.ReferenceIdeal.main_arg14).trans (Cert.ReferenceIdeal.Hand.arg_eq_14 _),
      (h c Cert.ReferenceIdeal.main_arg15).trans (Cert.ReferenceIdeal.Hand.arg_eq_15 _),
      (h c Cert.ReferenceIdeal.main_arg16).trans (Cert.ReferenceIdeal.Hand.arg_eq_16 _),
      (h c Cert.ReferenceIdeal.main_arg17).trans (Cert.ReferenceIdeal.Hand.arg_eq_17 _),
      (h c Cert.ReferenceIdeal.main_arg18).trans (Cert.ReferenceIdeal.Hand.arg_eq_18 _),
      (h c Cert.ReferenceIdeal.main_arg19).trans (Cert.ReferenceIdeal.Hand.arg_eq_19 _),
      (h c Cert.ReferenceIdeal.main_arg20).trans (Cert.ReferenceIdeal.Hand.arg_eq_20 _),
      (h c Cert.ReferenceIdeal.main_arg21).trans (Cert.ReferenceIdeal.Hand.arg_eq_21 _),
      (h c Cert.ReferenceIdeal.main_arg22).trans (Cert.ReferenceIdeal.Hand.arg_eq_22 _),
      (h c Cert.ReferenceIdeal.main_arg23).trans (Cert.ReferenceIdeal.Hand.arg_eq_23 _)⟩)
      (Cert.ReferenceIdeal.Hand.run_main m' ρ')
    refine (h c Cert.ReferenceIdeal.main_v171).trans ((out_eq _).trans ?_)
    obtain ⟨e0, e1, e2, e3, e4, e5, e6, e7, e8, e9, e10, e11, e12, e13, e14, e15, e16, e17, e18, e19, e20, e21, e22, e23⟩ := hagree c
    show Cert.Spec.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = _
    rw [e0, e1, e2, e3, e4, e5, e6, e7, e8, e9, e10, e11, e12, e13, e14, e15, e16, e17, e18, e19, e20, e21, e22, e23]

theorem frame_k : Cert.frame_Kernel := fun m ρ _ => Cert.Kernel.Gen.frame m ρ
theorem frame_ki : Cert.frame_KernelIdeal := fun m ρ _ => Cert.KernelIdeal.Gen.frame m ρ
theorem preserves : Cert.preserves_Kernel_KernelIdeal := trivial

end Cert.Proof

end
-- ==== Proof.RefRunFrame.lean ====
/- The reference program's frame: under the precondition (not needed for this part), every weakly fair
   execution of the program terminates without a fault and leaves each of its 24 argument arrays unchanged —
   the program is a straight line of host operations (its run, `run_main`), none of which writes an argument
   (`arg_eq_K`). -/
import proofs.«141089_j11897059410621_1_alg».proof.Proof.RefRun
import proofs.«141089_j11897059410621_1_alg».proof.Proof.Gen.ReferenceIdeal
import proofs.«141089_j11897059410621_1_alg».proof.Proof.Gen.Pre_finite_inputs
import proofs.«141089_j11897059410621_1_alg».proof.Defs

noncomputable section

namespace Cert.ReferenceIdeal.Hand

open Cert.ReferenceIdeal Idealize.ShloMosaic Idealize.ShloMosaic.TcCoe Idealize.SL.Sem Idealize.ShloMosaic.StableHlo

theorem frame_ri : Cert.frame_ReferenceIdeal :=
  fun m ρ _ => (θ_run Cert.ReferenceIdeal.defs _ _).mono
    (fun _ h c =>
      ⟨(h c main_arg0).trans (arg_eq_0 _), (h c main_arg1).trans (arg_eq_1 _),
       (h c main_arg2).trans (arg_eq_2 _), (h c main_arg3).trans (arg_eq_3 _),
       (h c main_arg4).trans (arg_eq_4 _), (h c main_arg5).trans (arg_eq_5 _),
       (h c main_arg6).trans (arg_eq_6 _), (h c main_arg7).trans (arg_eq_7 _),
       (h c main_arg8).trans (arg_eq_8 _), (h c main_arg9).trans (arg_eq_9 _),
       (h c main_arg10).trans (arg_eq_10 _), (h c main_arg11).trans (arg_eq_11 _),
       (h c main_arg12).trans (arg_eq_12 _), (h c main_arg13).trans (arg_eq_13 _),
       (h c main_arg14).trans (arg_eq_14 _), (h c main_arg15).trans (arg_eq_15 _),
       (h c main_arg16).trans (arg_eq_16 _), (h c main_arg17).trans (arg_eq_17 _),
       (h c main_arg18).trans (arg_eq_18 _), (h c main_arg19).trans (arg_eq_19 _),
       (h c main_arg20).trans (arg_eq_20 _), (h c main_arg21).trans (arg_eq_21 _),
       (h c main_arg22).trans (arg_eq_22 _), (h c main_arg23).trans (arg_eq_23 _)⟩)
    (run_main (F := Ideal) m ρ)

end Cert.ReferenceIdeal.Hand

end
-- ==== Proof.RefRunS0.lean ====
/- What window 0 of the reference leaves in the four buffers the later windows read, as the named stages of the
   reference computation applied to the arguments' contents: the two edge lists with the self loops appended, the
   edges' normalisation coefficients as a column, and the second layer's dense product of the first layer's output.
   Each is the fold of the window's operations read at that buffer: every operation's result at its own buffer is
   its function's value and elsewhere what was there. -/
import proofs.«141089_j11897059410621_1_alg».proof.Proof.RefRunW0
import proofs.«141089_j11897059410621_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

attribute [local irreducible] Host.scatterAdd Host.gather Host.reduceAdd concatenate in
theorem w0_v3 (V : Valuation τ sig (Elt F)) :
    after ops0 V (Proc.devRef .tc main_v3) = Cert.Spec.src (V (Proc.devRef .tc main_arg1)) := by
  after_results_simp
  rfl

attribute [local irreducible] Host.scatterAdd Host.gather Host.reduceAdd concatenate in
theorem w0_v6 (V : Valuation τ sig (Elt F)) :
    after ops0 V (Proc.devRef .tc main_v6) = Cert.Spec.dst (V (Proc.devRef .tc main_arg1)) := by
  after_results_simp
  rfl

attribute [local irreducible] Host.scatterAdd Host.gather Host.reduceAdd concatenate in
theorem w0_v30 (V : Valuation τ sig (Elt F)) :
    after ops0 V (Proc.devRef .tc main_v30) = Cert.Spec.coefCol (Cert.Spec.src (V (Proc.devRef .tc main_arg1))) (Cert.Spec.dst (V (Proc.devRef .tc main_arg1))) := by
  after_results_simp
  rfl

attribute [local irreducible] Host.scatterAdd Host.gather Host.reduceAdd concatenate in
theorem w0_v48 (V : Valuation τ sig (Elt F)) :
    after ops0 V (Proc.devRef .tc main_v48)
      = Cert.Spec.lin64 (Cert.Spec.biasRelu2 (Cert.Spec.agg (Cert.Spec.src (V (Proc.devRef .tc main_arg1))) (Cert.Spec.dst (V (Proc.devRef .tc main_arg1)))
          (Cert.Spec.coefCol (Cert.Spec.src (V (Proc.devRef .tc main_arg1))) (Cert.Spec.dst (V (Proc.devRef .tc main_arg1)))) (Cert.Spec.lin1 (V (Proc.devRef .tc main_arg0)) (V (Proc.devRef .tc main_arg4))))
          (Cert.Spec.row64 (V (Proc.devRef .tc main_arg5)))) (V (Proc.devRef .tc main_arg6)) := by
  after_results_simp
  rfl

end Cert.ReferenceIdeal.Hand

end
-- ==== Proof.RefRunS1.lean ====
/- What window 1 of the reference leaves in the buffer the next window reads: from the contents window 0 left in
   the edge lists, the coefficients and the second layer's dense product, the second and third message-passing
   layers, the mean pool per graph, the extra features beside it and the head's first dense layer. -/
import proofs.«141089_j11897059410621_1_alg».proof.Proof.RefRunW1
import proofs.«141089_j11897059410621_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

attribute [local irreducible] Host.scatterAdd Host.gather Host.reduceAdd concatenate in
theorem w1_v98 (V : Valuation τ sig (Elt F)) :
    after ops1 V (Proc.devRef .tc main_v98)
      = Cert.Spec.dense0 (Cert.Spec.zcat (Cert.Spec.pool (Cert.Spec.biasRelu2 (Cert.Spec.agg (V (Proc.devRef .tc main_v3)) (V (Proc.devRef .tc main_v6)) (V (Proc.devRef .tc main_v30))
          (Cert.Spec.lin64 (Cert.Spec.biasRelu2 (Cert.Spec.agg (V (Proc.devRef .tc main_v3)) (V (Proc.devRef .tc main_v6)) (V (Proc.devRef .tc main_v30)) (V (Proc.devRef .tc main_v48)))
            (Cert.Spec.row64 (V (Proc.devRef .tc main_arg7)))) (V (Proc.devRef .tc main_arg8)))) (Cert.Spec.row64 (V (Proc.devRef .tc main_arg9)))) (V (Proc.devRef .tc main_arg2))) (V (Proc.devRef .tc main_arg3))) (V (Proc.devRef .tc main_arg10)) (Cert.Spec.row128 (V (Proc.devRef .tc main_arg11))) := by
  after_results_simp
  rfl

end Cert.ReferenceIdeal.Hand

end
-- ==== Proof.RefRunS2.lean ====
/- What window 2 of the reference leaves in the three buffers the last window reads: from the first dense
   layer's output, two rounds of (batch normalisation with max with zero, dense layer), then the column sums of
   the result and the row count as a vector, which start the third normalisation. -/
import proofs.«141089_j11897059410621_1_alg».proof.Proof.RefRunW2
import proofs.«141089_j11897059410621_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

attribute [local irreducible] Host.scatterAdd Host.gather Host.reduceAdd concatenate in
theorem w2_v146 (V : Valuation τ sig (Elt F)) :
    after ops2 V (Proc.devRef .tc main_v146)
      = (Cert.Spec.dense2 (Cert.Spec.bn64 (Cert.Spec.dense1 (Cert.Spec.bn128 (V (Proc.devRef .tc main_v98)) (Cert.Spec.row128 (V (Proc.devRef .tc main_arg12))) (Cert.Spec.row128 (V (Proc.devRef .tc main_arg13)))) (V (Proc.devRef .tc main_arg14)) (Cert.Spec.row64 (V (Proc.devRef .tc main_arg15))))
          (Cert.Spec.row64 (V (Proc.devRef .tc main_arg16))) (Cert.Spec.row64 (V (Proc.devRef .tc main_arg17)))) (V (Proc.devRef .tc main_arg18)) (Cert.Spec.row32 (V (Proc.devRef .tc main_arg19)))) := by
  after_results_simp
  rfl

attribute [local irreducible] Host.scatterAdd Host.gather Host.reduceAdd concatenate in
theorem w2_v147 (V : Valuation τ sig (Elt F)) :
    after ops2 V (Proc.devRef .tc main_v147)
      = Host.reduceAdd (Cert.Spec.dense2 (Cert.Spec.bn64 (Cert.Spec.dense1 (Cert.Spec.bn128 (V (Proc.devRef .tc main_v98)) (Cert.Spec.row128 (V (Proc.devRef .tc main_arg12))) (Cert.Spec.row128 (V (Proc.devRef .tc main_arg13)))) (V (Proc.devRef .tc main_arg14)) (Cert.Spec.row64 (V (Proc.devRef .tc main_arg15))))
          (Cert.Spec.row64 (V (Proc.devRef .tc main_arg16))) (Cert.Spec.row64 (V (Proc.devRef .tc main_arg17)))) (V (Proc.devRef .tc main_arg18)) (Cert.Spec.row32 (V (Proc.devRef .tc main_arg19))))
          (constant (F := F) S_ .f32 0x00000000#32) reducesTo_S2048x32_S32_d0 h_S_ := by
  after_results_simp
  rfl

theorem w2_v148 (V : Valuation τ sig (Elt F)) :
    after ops2 V (Proc.devRef .tc main_v148)
      = broadcastInDim S32 ![] bcast_S_S32 (constant (F := F) S_ .f32 0x45000000#32) := by
  after_results_simp

end Cert.ReferenceIdeal.Hand

end
-- ==== Proof.RefRunS3.lean ====
/- What the last window of the reference leaves in the result buffer: from the third dense layer's output, its
   column sums and the row count that window 2 left, the third batch normalisation with max with zero, the last
   dense layer and the reshape to a vector. `bn32From` is the 32-column normalisation with the column sums and the
   row count given; at the sums and the count of its own input it is the normalisation itself. -/
import proofs.«141089_j11897059410621_1_alg».proof.Proof.RefRunW3
import proofs.«141089_j11897059410621_1_alg».proof.Proof.Spec

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The 32-column batch normalisation (then scale, shift, max with zero) of `h`, its mean taken as `s / n`. -/
def bn32From (h : Cert.Spec.Arr F S2048x32 .f32) (s n : Cert.Spec.Arr F S32 .f32) (gr ber : Cert.Spec.Arr F S1x32 .f32) : Cert.Spec.Arr F S2048x32 .f32 :=
  maximumf (addf (mulf (mulf (subf h (broadcastInDim S2048x32 ![0, 1] bcast_S1x32_S2048x32_0_1 (broadcastInDim S1x32 ![1] bcast_S32_S1x32_1 (Host.divf s n)))) (broadcastInDim S2048x32 ![0, 1] bcast_S1x32_S2048x32_0_1 (broadcastInDim S1x32 ![1] bcast_S32_S1x32_1 (Host.rsqrt (addf (select (broadcastInDim S32 ![] bcast_S_S32 (cmpf .ogt (subf (constant (F := F) S_ .f32 0x45000000#32) (sitofp .f32 (constantI S_ 32 0#32))) (constant (F := F) S_ .f32 0x00000000#32))) (Host.divf (Host.reduceAdd (mulf (subf h (broadcastInDim S2048x32 ![0, 1] bcast_S1x32_S2048x32_0_1 (Host.divf (broadcastInDim S1x32 ![1] bcast_S32_S1x32_1 (Host.reduceAdd h (constant (F := F) S_ .f32 0x00000000#32) reducesTo_S2048x32_S32_d0 h_S_)) (broadcastInDim S1x32 ![] bcast_S_S1x32 (constant (F := F) S_ .f32 0x45000000#32))))) (subf h (broadcastInDim S2048x32 ![0, 1] bcast_S1x32_S2048x32_0_1 (Host.divf (broadcastInDim S1x32 ![1] bcast_S32_S1x32_1 (Host.reduceAdd h (constant (F := F) S_ .f32 0x00000000#32) reducesTo_S2048x32_S32_d0 h_S_)) (broadcastInDim S1x32 ![] bcast_S_S1x32 (constant (F := F) S_ .f32 0x45000000#32)))))) (constant (F := F) S_ .f32 0x00000000#32) reducesTo_S2048x32_S32_d0 h_S_) (broadcastInDim S32 ![] bcast_S_S32 (subf (constant (F := F) S_ .f32 0x45000000#32) (sitofp .f32 (constantI S_ 32 0#32))))) (broadcastInDim S32 ![] bcast_S_S32 (id (constant (F := F) S_ .f32 0x7FC00000#32)))) (broadcastInDim S32 ![] bcast_S_S32 (constant (F := F) S_ .f32 0x3727C5AC#32))))))) (broadcastInDim S2048x32 ![0, 1] bcast_S1x32_S2048x32_0_1 gr)) (broadcastInDim S2048x32 ![0, 1] bcast_S1x32_S2048x32_0_1 ber)) (broadcastInDim S2048x32 ![] bcast_S_S2048x32 (constant (F := F) S_ .f32 0x00000000#32))

/-- At its own input's column sums and the row count, that is the normalisation. -/
theorem bn32From_eq (h : Cert.Spec.Arr F S2048x32 .f32) (gr ber : Cert.Spec.Arr F S1x32 .f32) :
    bn32From h (Host.reduceAdd h (constant (F := F) S_ .f32 0x00000000#32) reducesTo_S2048x32_S32_d0 h_S_)
      (broadcastInDim S32 ![] bcast_S_S32 (constant (F := F) S_ .f32 0x45000000#32)) gr ber = Cert.Spec.bn32 h gr ber := rfl

attribute [local irreducible] Host.scatterAdd Host.gather Host.reduceAdd concatenate in
theorem w3_v171 (V : Valuation τ sig (Elt F)) :
    after ops3 V (Proc.devRef .tc main_v171)
      = shapeCast S2048 (Cert.Spec.dense3 (bn32From (V (Proc.devRef .tc main_v146)) (V (Proc.devRef .tc main_v147)) (V (Proc.devRef .tc main_v148))
          (Cert.Spec.row32 (V (Proc.devRef .tc main_arg20))) (Cert.Spec.row32 (V (Proc.devRef .tc main_arg21)))) (V (Proc.devRef .tc main_arg22)) (Cert.Spec.row1 (V (Proc.devRef .tc main_arg23)))) shapeCasts_S2048x1_S2048 := by
  after_results_simp
  rfl

end Cert.ReferenceIdeal.Hand

end
-- ==== Proof.RefRunOut.lean ====
/- The reference's result as the named stages of the reference computation applied to its 24 arguments. The fold
   over the whole program is the four windows' folds in turn; each window's fold at the buffers the next one reads
   is a stage applied to what the window found (the window modules' facts); an argument passes through every
   window unchanged. Substituting window by window, from the last back to the first, gives the composition
   that `Cert.Spec.out` names. -/
import proofs.«141089_j11897059410621_1_alg».proof.Proof.RefRun
import proofs.«141089_j11897059410621_1_alg».proof.Proof.RefRunS0
import proofs.«141089_j11897059410621_1_alg».proof.Proof.RefRunS1
import proofs.«141089_j11897059410621_1_alg».proof.Proof.RefRunS2
import proofs.«141089_j11897059410621_1_alg».proof.Proof.RefRunS3

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

theorem out_eq (V : Valuation τ sig (Elt F)) :
    after ops V (Proc.devRef .tc main_v171)
      = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) := by
  -- the last window, over what the first three leave
  rw [after_ops, w3_v171]
  -- window 2, and the last window's arguments carried back through it
  rw [w2_v146, w2_v147, w2_v148, bn32From_eq, keep2 (r := main_arg20) _ (by decide), keep2 (r := main_arg21) _ (by decide), keep2 (r := main_arg22) _ (by decide), keep2 (r := main_arg23) _ (by decide)]
  -- window 1, and the arguments of windows 2 and 3 carried back through it
  rw [w1_v98, keep1 (r := main_arg12) _ (by decide), keep1 (r := main_arg13) _ (by decide), keep1 (r := main_arg14) _ (by decide), keep1 (r := main_arg15) _ (by decide), keep1 (r := main_arg16) _ (by decide), keep1 (r := main_arg17) _ (by decide), keep1 (r := main_arg18) _ (by decide), keep1 (r := main_arg19) _ (by decide), keep1 (r := main_arg20) _ (by decide), keep1 (r := main_arg21) _ (by decide), keep1 (r := main_arg22) _ (by decide), keep1 (r := main_arg23) _ (by decide)]
  -- window 0, and the arguments of windows 1, 2 and 3 carried back through it
  rw [w0_v3, w0_v6, w0_v30, w0_v48, keep0 (r := main_arg2) _ (by decide), keep0 (r := main_arg3) _ (by decide), keep0 (r := main_arg7) _ (by decide), keep0 (r := main_arg8) _ (by decide), keep0 (r := main_arg9) _ (by decide), keep0 (r := main_arg10) _ (by decide), keep0 (r := main_arg11) _ (by decide), keep0 (r := main_arg12) _ (by decide), keep0 (r := main_arg13) _ (by decide), keep0 (r := main_arg14) _ (by decide), keep0 (r := main_arg15) _ (by decide), keep0 (r := main_arg16) _ (by decide), keep0 (r := main_arg17) _ (by decide), keep0 (r := main_arg18) _ (by decide), keep0 (r := main_arg19) _ (by decide), keep0 (r := main_arg20) _ (by decide), keep0 (r := main_arg21) _ (by decide), keep0 (r := main_arg22) _ (by decide), keep0 (r := main_arg23) _ (by decide)]
  unfold Cert.Spec.out Cert.Spec.mlpHead2 Cert.Spec.gcn
  rfl

end Cert.ReferenceIdeal.Hand

end
-- ==== Proof.LibDenseLayers.lean ====
/-
  Dense layers on rank-two arrays of extended reals, and their two spellings.

  * The functions: `affine` (every row of `x` through a matrix and a bias row, `y[p, q] = Σ_k x[p, k] · w[k, q] + b[0, q]`),
    `scaleRows` (a column times a weight row plus a bias row: an affine map whose contraction axis has length one),
    `relu`, the message `relu (g + e)` and the two-layer update `relu (affine (relu (affine (x + agg) W1 b1)) W2 b2)`.
    Each is computed row by row: rows `o, o + 1, …` of the result depend only on the same rows of the row-indexed
    operands (`affine_rows`, `scaleRows_rows`, `update_rows`), which is what lets a kernel that walks the rows in
    blocks produce the whole array.
  * A kernel body's spelling of a layer — a plain product of bf16 operands into the zero accumulator, a bias row spread
    over the rows, the maximum with the zero word — is `relu (affine …)` (`reluLayer`); a column spread over the lanes
    reads the column (`broadcastTo_a1_ab_apply`), a bias row cast to its own shape and spread over the rows reads the
    row (`biasRow_apply`).
  * A host program's spelling — a plain `dot_general`, a bias vector broadcast to one row and then over the rows, the
    maximum with a broadcast zero — is the same function with the bias as one row (`hostAffine`, `hostReluAffine`).
  All over abstract extents, at the ideal values.
-/
import Idealize.ShloMosaic.PureOps.Ideal.Laws
import Idealize.ShloMosaic.Lib.ValueIdx
import Idealize.ShloMosaic.Lib.Pipeline.Value
import Idealize.ShloMosaic.Lib.ValueLayout
import proofs.«141089_j11897059410621_1_alg».proof.Proof.LibRowOps

noncomputable section

open scoped BigOperators

namespace Cert.Gnn

open Idealize.ShloMosaic Idealize.ShloMosaic.ValueIdx Cert.Lib.RowOps

/-! ## The functions -/

/-- An array of extended reals of shape `[a, b]`. -/
abbrev Mat (a b : Nat) : Type := (⟨2, ![a, b]⟩ : Shape).Idx → EReal

/-- Rows of `x` through a matrix and a bias row. -/
def affine (M K N : Nat) (x : Mat M K) (w : Mat K N) (b : Mat 1 N) : Mat M N :=
  fun i => (∑ k : Fin K, x (ix2 (i 0) k) * w (ix2 k (i 1))) + b (ix2 (0 : Fin 1) (i 1))

theorem affine_ix2 (M K N : Nat) (x : Mat M K) (w : Mat K N) (b : Mat 1 N) (p : Fin M) (q : Fin N) :
    affine M K N x w b (ix2 p q) = (∑ k : Fin K, x (ix2 p k) * w (ix2 k q)) + b (ix2 (0 : Fin 1) q) := rfl

/-- A column times a weight row plus a bias row. -/
def scaleRows (M N : Nat) (a : Mat M 1) (w : Mat 1 N) (b : Mat 1 N) : Mat M N :=
  fun i => a (ix2 (i 0) (0 : Fin 1)) * w (ix2 (0 : Fin 1) (i 1)) + b (ix2 (0 : Fin 1) (i 1))

theorem scaleRows_ix2 (M N : Nat) (a : Mat M 1) (w : Mat 1 N) (b : Mat 1 N) (p : Fin M) (q : Fin N) :
    scaleRows M N a w b (ix2 p q) = a (ix2 p (0 : Fin 1)) * w (ix2 (0 : Fin 1) q) + b (ix2 (0 : Fin 1) q) := rfl

/-- The positive part, entry by entry. -/
def relu {s : Shape} (z : s.Idx → EReal) : s.Idx → EReal := fun i => max (z i) 0

/-- The message on an edge: the positive part of the source node's features plus the edge's. -/
def message {s : Shape} (g e : s.Idx → EReal) : s.Idx → EReal := relu fun i => g i + e i

/-- A node's update from its features and its aggregated messages: two affine maps, each followed by `relu`. -/
def update (M H : Nat) (x agg : Mat M H) (w1 : Mat H H) (b1 : Mat 1 H) (w2 : Mat H H) (b2 : Mat 1 H) : Mat M H :=
  relu (affine M H H (relu (affine M H H (fun i => x i + agg i) w1 b1)) w2 b2)

/-! ## Row by row -/

/-- Row `p` of the block of rows that `r` selects is row `r p` of the whole. -/
theorem affine_rows (M m K N : Nat) (x : Mat M K) (w : Mat K N) (b : Mat 1 N) (r : Fin m → Fin M)
    (j : (⟨2, ![m, N]⟩ : Shape).Idx) :
    affine m K N (fun y => x (ix2 (r (y 0)) (y 1))) w b j = affine M K N x w b (ix2 (r (j 0)) (j 1)) := rfl

theorem scaleRows_rows (M m N : Nat) (a : Mat M 1) (w : Mat 1 N) (b : Mat 1 N) (r : Fin m → Fin M)
    (j : (⟨2, ![m, N]⟩ : Shape).Idx) :
    scaleRows m N (fun y => a (ix2 (r (y 0)) (y 1))) w b j = scaleRows M N a w b (ix2 (r (j 0)) (j 1)) := rfl

theorem update_rows (M m H : Nat) (x agg : Mat M H) (w1 : Mat H H) (b1 : Mat 1 H) (w2 : Mat H H) (b2 : Mat 1 H)
    (r : Fin m → Fin M) (j : (⟨2, ![m, H]⟩ : Shape).Idx) :
    update m H (fun y => x (ix2 (r (y 0)) (y 1))) (fun y => agg (ix2 (r (y 0)) (y 1))) w1 b1 w2 b2 j
      = update M H x agg w1 b1 w2 b2 (ix2 (r (j 0)) (j 1)) := rfl

/-! ## A kernel body's spelling -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One bias row spread over `a` rows, in the body's spelling (a shape cast to the same shape, then a broadcast). -/
theorem biasRow_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [broadcastTo_1b_ab_apply, shapeCast_self]

/-- The zero the bodies compare with. -/
theorem zero_word : Scalar.ofBits (F := Ideal) .f32 0x00000000#32 = (0 : EReal) := Ideal.ofBits_zero_f32

/-- One layer as the node update's body spells it: a plain product into the zero accumulator, plus a bias row spread
    over the rows, then the maximum with the zero word — `relu` of `affine`. -/
theorem reluLayer (M K N : Nat) (x : Mat M K) (w : Mat K N) (b : Mat 1 N)
    (h2 : (⟨2, ![1, N]⟩ : Shape).Broadcasts ⟨2, ![M, N]⟩) :
    (fun j => max (FloatOps.matmul (F := Ideal) (φ₁ := .bf16) (φ₂ := .bf16) (DotDims.plain M K N) none x w
          (constant ⟨2, ![M, N]⟩ .f32 0x00000000#32) j
        + broadcastTo ⟨2, ![M, N]⟩ b h2 j) (Scalar.ofBits (F := Ideal) .f32 0x00000000#32))
      = relu (affine M K N x w b) := by
  funext j
  obtain ⟨p, q, rfl⟩ : ∃ (p : Fin M) (q : Fin N), j = ix2 p q := ⟨j 0, j 1, eq_ix2 j⟩
  show max _ _ = max _ 0
  rw [zero_word, matmul_zero_apply, broadcastTo_1b_ab_apply]
  rfl

/-! ## A host program's spelling -/

/-- A `dot_general` plus a bias vector broadcast over the rows, read at every index: `affine` with the bias as one row. -/
theorem hostAffine (M K N : Nat) (x : Mat M K) (w : Mat K N) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    (fun j => FloatOps.dotGeneral (F := Ideal) (φ₁ := .f32) (φ₂ := .f32) (DotDims.plain M K N) none .single x w j
        + broadcastInDim ⟨2, ![M, N]⟩ ![0, 1] h2 (broadcastInDim ⟨2, ![1, N]⟩ ![1] h1 b) j)
      = affine M K N x w (shapeCast ⟨2, ![1, N]⟩ b hc) := by
  funext j
  obtain ⟨p, q, rfl⟩ : ∃ (p : Fin M) (q : Fin N), j = ix2 p q := ⟨j 0, j 1, eq_ix2 j⟩
  rw [dotGeneral_apply, bcastRow_bcast_apply, affine_ix2, shapeCast_a_1a_apply]

/-- The same followed by `relu` in the host's spelling. -/
theorem hostReluAffine (M K N : Nat) (x : Mat M K) (w : Mat K N) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    (fun j => max (FloatOps.dotGeneral (F := Ideal) (φ₁ := .f32) (φ₂ := .f32) (DotDims.plain M K N) none .single x w j
        + broadcastInDim ⟨2, ![M, N]⟩ ![0, 1] h2 (broadcastInDim ⟨2, ![1, N]⟩ ![1] h1 b) j)
        (broadcastInDim ⟨2, ![M, N]⟩ ![] h0 (constant (F := Ideal) ⟨0, ![]⟩ .f32 0x00000000#32) j))
      = relu (affine M K N x w (shapeCast ⟨2, ![1, N]⟩ b hc)) := by
  rw [← hostAffine M K N x w b h1 h2 hc]
  funext j
  show max _ _ = max _ 0
  rw [splat_apply, Ideal.ofBits_zero_f32]

end Cert.Gnn

end
-- ==== Proof.HeadMath.lean ====
/-
  Batch normalisation over the rows of a rank-two array, followed by the maximum with zero, on the extended reals,
  over abstract extents, and its two spellings.

  * The functions: for an M × N array h and a positive constant c (the number of rows as a float), the column mean
    mu q = (Σ_p h[p, q]) / c, the biased column variance var q = (Σ_p (h[p, q] - mu q)²) / c, and
    bnRelu h g b [p, q] = max ((h[p, q] - mu q) · rsqrt (var q + eps) · g[0, q] + b[0, q]) 0.
  * A kernel body's spelling: lane sums over axis 0 into the zero word, cast to one row, divided by a splat of c,
    spread back over the rows; the scale and shift rows cast to their own shape and spread over the rows.
  * A host program's spelling: reduce-add from a zero scalar, divided by a broadcast of c; the variance divided by
    c - (the integer 0 as a float) and guarded by a select on c - 0 > 0, which takes its first branch as c > 0.
-/
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import proofs.«141089_j11897059410621_1_alg».proof.Proof.LibDenseLayers

noncomputable section

open scoped BigOperators

namespace Cert.Head

open Idealize.ShloMosaic Idealize.ShloMosaic.ValueIdx Cert.Lib.RowOps Cert.Gnn

/-! ## The functions -/

/-- The mean of column q: the column's sum divided by c. -/
def colMean (M N : Nat) (c : EReal) (h : Mat M N) (q : Fin N) : EReal :=
  Ideal.div (∑ p : Fin M, h (ix2 p q)) c

/-- The biased variance of column q: the sum of squared deviations from the mean, divided by c. -/
def colVar (M N : Nat) (c : EReal) (h : Mat M N) (q : Fin N) : EReal :=
  Ideal.div (∑ p : Fin M, (h (ix2 p q) - colMean M N c h q) * (h (ix2 p q) - colMean M N c h q)) c

/-- Normalise every column, scale by the row g, shift by the row b, take the positive part. -/
def bnRelu (M N : Nat) (c eps : EReal) (h : Mat M N) (g b : Mat 1 N) : Mat M N :=
  fun i => max ((h i - colMean M N c h (i 1)) * Ideal.rsqrt (colVar M N c h (i 1) + eps) * g (ix2 (0 : Fin 1) (i 1))
    + b (ix2 (0 : Fin 1) (i 1))) 0

theorem bnRelu_ix2 (M N : Nat) (c eps : EReal) (h : Mat M N) (g b : Mat 1 N) (p : Fin M) (q : Fin N) :
    bnRelu M N c eps h g b (ix2 p q)
      = max ((h (ix2 p q) - colMean M N c h q) * Ideal.rsqrt (colVar M N c h q + eps) * g (ix2 (0 : Fin 1) q)
          + b (ix2 (0 : Fin 1) q)) 0 := rfl

/-! ## A kernel body's spelling -/

section Kernel

variable (M N : Nat) (hr : (⟨2, ![M, N]⟩ : Shape).Reduces [0] ⟨1, ![N]⟩)
  (hc : (⟨1, ![N]⟩ : Shape).ShapeCasts ⟨2, ![1, N]⟩)
  (hs : (⟨2, ![1, N]⟩ : Shape).ShapeCasts ⟨2, ![1, N]⟩)
  (hb : (⟨2, ![1, N]⟩ : Shape).Broadcasts ⟨2, ![M, N]⟩)
  (hφ : FKind.Formats .f32) (hacc : (0x00000000#32 : BitVec 32) = FKind.add.neutral .f32 hφ)
  (cw ew : BitVec 32)

/-- A lane sum over the rows into the zero word, at column q. -/
theorem kSum_apply (src : FVec Ideal ⟨2, ![M, N]⟩ .f32) (q : Fin N) :
    multiReduction .add [0] ⟨1, ![N]⟩ src 0x00000000#32 hr hφ hacc (ix1 q) = ∑ p : Fin M, src (ix2 p q) :=
  (Ideal.multiReduction_add_single src _ hr hφ hacc (ix1 q)).trans
    (Finset.sum_congr rfl fun k _ => congrArg src (funext fun a => Fin.ext (by
      match a with
      | ⟨0, _⟩ => rfl
      | ⟨1, _⟩ => rfl)))

/-- The body's mean row: the lane sums as one row, divided by a splat of the constant. -/
def kMean (h : FVec Ideal ⟨2, ![M, N]⟩ .f32) : FVec Ideal ⟨2, ![1, N]⟩ .f32 :=
  divf (shapeCast ⟨2, ![1, N]⟩ (multiReduction .add [0] ⟨1, ![N]⟩ h 0x00000000#32 hr hφ hacc) hc)
    (broadcast ⟨2, ![1, N]⟩ (Scalar.ofBits (F := Ideal) .f32 cw))

theorem kMean_apply (h : FVec Ideal ⟨2, ![M, N]⟩ .f32) (q : Fin N) :
    kMean M N hr hc hφ hacc cw h (ix2 (0 : Fin 1) q) = colMean M N (Ideal.ofBits .f32 cw) h q := by
  unfold kMean colMean
  rw [divf_apply, shapeCast_a_1a_apply, kSum_apply]
  rfl

/-- The body's variance row. -/
def kVar (h : FVec Ideal ⟨2, ![M, N]⟩ .f32) : FVec Ideal ⟨2, ![1, N]⟩ .f32 :=
  divf (shapeCast ⟨2, ![1, N]⟩ (multiReduction .add [0] ⟨1, ![N]⟩
      (mulf (subf h (broadcastTo ⟨2, ![M, N]⟩ (kMean M N hr hc hφ hacc cw h) hb))
            (subf h (broadcastTo ⟨2, ![M, N]⟩ (kMean M N hr hc hφ hacc cw h) hb))) 0x00000000#32 hr hφ hacc) hc)
    (broadcast ⟨2, ![1, N]⟩ (Scalar.ofBits (F := Ideal) .f32 cw))

theorem kVar_apply (h : FVec Ideal ⟨2, ![M, N]⟩ .f32) (q : Fin N) :
    kVar M N hr hc hb hφ hacc cw h (ix2 (0 : Fin 1) q) = colVar M N (Ideal.ofBits .f32 cw) h q := by
  unfold kVar colVar
  rw [divf_apply, shapeCast_a_1a_apply, kSum_apply]
  refine congrArg₂ Ideal.div (Finset.sum_congr rfl fun p _ => ?_) rfl
  rw [mulf_apply, subf_apply, broadcastTo_1b_ab_apply, kMean_apply]

/-- The body's normalisation: subtract the mean, times rsqrt of variance plus eps, times the scale row, plus the
    shift row, maximum with the zero word. -/
def kBn (h : FVec Ideal ⟨2, ![M, N]⟩ .f32) (g b : FVec Ideal ⟨2, ![1, N]⟩ .f32) : FVec Ideal ⟨2, ![M, N]⟩ .f32 :=
  maximumf
    (addf
      (mulf
        (mulf (subf h (broadcastTo ⟨2, ![M, N]⟩ (kMean M N hr hc hφ hacc cw h) hb))
          (broadcastTo ⟨2, ![M, N]⟩
            (rsqrt (addf (kVar M N hr hc hb hφ hacc cw h) (broadcast ⟨2, ![1, N]⟩ (Scalar.ofBits (F := Ideal) .f32 ew)))) hb))
        (broadcastTo ⟨2, ![M, N]⟩ (shapeCast ⟨2, ![1, N]⟩ g hs) hb))
      (broadcastTo ⟨2, ![M, N]⟩ (shapeCast ⟨2, ![1, N]⟩ b hs) hb))
    (broadcast ⟨2, ![M, N]⟩ (Scalar.ofBits (F := Ideal) .f32 0x00000000#32))

theorem kBn_eq (h : FVec Ideal ⟨2, ![M, N]⟩ .f32) (g b : FVec Ideal ⟨2, ![1, N]⟩ .f32) :
    kBn M N hr hc hs hb hφ hacc cw ew h g b = bnRelu M N (Ideal.ofBits .f32 cw) (Ideal.ofBits .f32 ew) h g b := by
  funext j
  obtain ⟨p, q, rfl⟩ : ∃ (p : Fin M) (q : Fin N), j = ix2 p q := ⟨j 0, j 1, eq_ix2 j⟩
  unfold kBn
  rw [bnRelu_ix2, maximumf_apply, addf_apply, mulf_apply, mulf_apply, subf_apply, broadcastTo_1b_ab_apply,
    broadcastTo_1b_ab_apply, broadcastTo_1b_ab_apply, broadcastTo_1b_ab_apply, kMean_apply, shapeCast_self, shapeCast_self]
  show max (_ * Ideal.rsqrt (kVar M N hr hc hb hφ hacc cw h (ix2 (0 : Fin 1) q) + Ideal.ofBits .f32 ew) * _ + _)
      (Ideal.ofBits .f32 0x00000000#32) = _
  rw [kVar_apply, Ideal.ofBits_zero_f32]

end Kernel

/-! ## A host program's spelling -/

section Host

variable {α : Type}

/-- One row spread over M rows by broadcast_in_dim along both axes. -/
theorem bcast_1b_ab_apply (M N : Nat) (v : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 v (ix2 p q) = v (ix2 (0 : Fin 1) q) :=
  broadcastInDim_apply ![0, 1] h2 v (ix2 p q) (ix2 (0 : Fin 1) q) (fun a => by
    match a with
    | ⟨0, _⟩ => simp
    | ⟨1, _⟩ =>
      show q.val = if N = 1 then 0 else q.val
      split
      · have := q.isLt; omega
      · rfl)

/-- A vector as one row by broadcast_in_dim along the last axis. -/
theorem bcast_b_1b_apply (N : Nat) (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

end Host

/-- The integer zero as a float is zero. -/
theorem sitofp_zero : FloatOps.sitofp (F := Ideal) .f32 (0#32 : BitVec 32) = (0 : EReal) := by
  show (((0#32 : BitVec 32).toInt : ℝ) : EReal) = 0
  simp

section HostBn

variable (M N : Nat)
  (hrt : (⟨2, ![M, N]⟩ : Shape).ReducesTo [0] ⟨1, ![N]⟩) (hS : 0 < (⟨0, ![]⟩ : Shape).numel)
  (hB : (⟨2, ![1, N]⟩ : Shape).BroadcastsInDim ⟨2, ![M, N]⟩ ![0, 1])
  (hR : (⟨1, ![N]⟩ : Shape).BroadcastsInDim ⟨2, ![1, N]⟩ ![1])
  (h0N : (⟨0, ![]⟩ : Shape).BroadcastsInDim ⟨1, ![N]⟩ ![])
  (h01N : (⟨0, ![]⟩ : Shape).BroadcastsInDim ⟨2, ![1, N]⟩ ![])
  (h0MN : (⟨0, ![]⟩ : Shape).BroadcastsInDim ⟨2, ![M, N]⟩ ![])
  (cw ew nw : BitVec 32)

/-- The host's reduce-add over the rows from the zero scalar, at column q. -/
theorem hSum_apply (hr : (⟨2, ![M, N]⟩ : Shape).Reduces [0] ⟨1, ![N]⟩) (src : FVec Ideal ⟨2, ![M, N]⟩ .f32) (q : Fin N) :
    Host.reduceAdd src (constant (F := Ideal) ⟨0, ![]⟩ .f32 0x00000000#32) hrt hS (ix1 q) = ∑ p : Fin M, src (ix2 p q) := by
  rw [hostReduceAdd_apply, Ideal.hostReduceAdd_single hrt hr, constant_apply, Ideal.ofBits_zero_f32, zero_add]
  exact Finset.sum_congr rfl fun k _ => congrArg src (funext fun a => Fin.ext (by
      match a with
      | ⟨0, _⟩ => rfl
      | ⟨1, _⟩ => rfl))

/-- The host's mean as a vector: the column sums divided by a broadcast of the constant. -/
def hMeanVec (h : FVec Ideal ⟨2, ![M, N]⟩ .f32) : FVec Ideal ⟨1, ![N]⟩ .f32 :=
  Host.divf (Host.reduceAdd h (constant (F := Ideal) ⟨0, ![]⟩ .f32 0x00000000#32) hrt hS)
    (broadcastInDim ⟨1, ![N]⟩ ![] h0N (constant (F := Ideal) ⟨0, ![]⟩ .f32 cw))

theorem hMeanVec_apply (hr : (⟨2, ![M, N]⟩ : Shape).Reduces [0] ⟨1, ![N]⟩) (h : FVec Ideal ⟨2, ![M, N]⟩ .f32) (q : Fin N) :
    hMeanVec M N hrt hS h0N cw h (ix1 q) = colMean M N (Ideal.ofBits .f32 cw) h q := by
  unfold hMeanVec colMean
  rw [Cert.Lib.RowOps.hostDivf_apply, hSum_apply M N (hr := hr), splat_apply]

/-- The host's mean as a row (keepdims): the column sums as a row divided by a broadcast of the constant. -/
def hMeanRow (h : FVec Ideal ⟨2, ![M, N]⟩ .f32) : FVec Ideal ⟨2, ![1, N]⟩ .f32 :=
  Host.divf (broadcastInDim ⟨2, ![1, N]⟩ ![1] hR (Host.reduceAdd h (constant (F := Ideal) ⟨0, ![]⟩ .f32 0x00000000#32) hrt hS))
    (broadcastInDim ⟨2, ![1, N]⟩ ![] h01N (constant (F := Ideal) ⟨0, ![]⟩ .f32 cw))

theorem hMeanRow_apply (hr : (⟨2, ![M, N]⟩ : Shape).Reduces [0] ⟨1, ![N]⟩) (h : FVec Ideal ⟨2, ![M, N]⟩ .f32) (q : Fin N) :
    hMeanRow M N hrt hS hR h01N cw h (ix2 (0 : Fin 1) q) = colMean M N (Ideal.ofBits .f32 cw) h q := by
  unfold hMeanRow colMean
  rw [Cert.Lib.RowOps.hostDivf_apply, bcast_b_1b_apply, hSum_apply M N (hr := hr), splat_apply]

/-- The host's variance vector: the sum of squared deviations divided by c - 0, under a select on c - 0 > 0. -/
def hVarVec (h : FVec Ideal ⟨2, ![M, N]⟩ .f32) : FVec Ideal ⟨1, ![N]⟩ .f32 :=
  select (broadcastInDim ⟨1, ![N]⟩ ![] h0N (cmpf .ogt (subf (constant (F := Ideal) ⟨0, ![]⟩ .f32 cw) (sitofp .f32 (constantI ⟨0, ![]⟩ 32 0#32))) (constant (F := Ideal) ⟨0, ![]⟩ .f32 0x00000000#32)))
    (Host.divf (Host.reduceAdd (mulf (subf h (broadcastInDim ⟨2, ![M, N]⟩ ![0, 1] hB (hMeanRow M N hrt hS hR h01N cw h)))
        (subf h (broadcastInDim ⟨2, ![M, N]⟩ ![0, 1] hB (hMeanRow M N hrt hS hR h01N cw h))))
        (constant (F := Ideal) ⟨0, ![]⟩ .f32 0x00000000#32) hrt hS)
      (broadcastInDim ⟨1, ![N]⟩ ![] h0N (subf (constant (F := Ideal) ⟨0, ![]⟩ .f32 cw) (sitofp .f32 (constantI ⟨0, ![]⟩ 32 0#32)))))
    (broadcastInDim ⟨1, ![N]⟩ ![] h0N (id (constant (F := Ideal) ⟨0, ![]⟩ .f32 nw)))

theorem hVarVec_apply (hr : (⟨2, ![M, N]⟩ : Shape).Reduces [0] ⟨1, ![N]⟩) (hpos : (0 : EReal) < Ideal.ofBits .f32 cw) (h : FVec Ideal ⟨2, ![M, N]⟩ .f32) (q : Fin N) :
    hVarVec M N hrt hS hB hR h0N h01N cw nw h (ix1 q) = colVar M N (Ideal.ofBits .f32 cw) h q := by
  have hsub : subf (constant (F := Ideal) ⟨0, ![]⟩ .f32 cw) (sitofp .f32 (constantI ⟨0, ![]⟩ 32 0#32)) ix0 = Ideal.ofBits .f32 cw := by
    rw [subf_apply, constant_apply, sitofp_apply, constantI_apply, sitofp_zero, sub_zero]
  unfold hVarVec colVar
  rw [select_apply, broadcastInDim_scalar_apply, cmpf_apply, hsub, constant_apply, Ideal.ofBits_zero_f32]
  have hcmp : FloatOps.cmpf (F := Ideal) .ogt (Ideal.ofBits .f32 cw) (0 : EReal) = 1#1 := by
    show BitVec.ofBool (decide ((0 : EReal) < Ideal.ofBits .f32 cw)) = 1#1
    rw [decide_eq_true hpos]; rfl
  rw [hcmp, select_one, Cert.Lib.RowOps.hostDivf_apply, hSum_apply M N (hr := hr), broadcastInDim_scalar_apply, hsub]
  refine congrArg₂ Ideal.div (Finset.sum_congr rfl fun p _ => ?_) rfl
  rw [mulf_apply, subf_apply, bcast_1b_ab_apply, hMeanRow_apply M N (hr := hr)]

/-- The host's normalisation, as the reference spells it. -/
def hBn (h : FVec Ideal ⟨2, ![M, N]⟩ .f32) (g b : FVec Ideal ⟨2, ![1, N]⟩ .f32) : FVec Ideal ⟨2, ![M, N]⟩ .f32 :=
  maximumf
    (addf
      (mulf
        (mulf (subf h (broadcastInDim ⟨2, ![M, N]⟩ ![0, 1] hB (broadcastInDim ⟨2, ![1, N]⟩ ![1] hR (hMeanVec M N hrt hS h0N cw h))))
          (broadcastInDim ⟨2, ![M, N]⟩ ![0, 1] hB (broadcastInDim ⟨2, ![1, N]⟩ ![1] hR
            (Host.rsqrt (addf (hVarVec M N hrt hS hB hR h0N h01N cw nw h)
              (broadcastInDim ⟨1, ![N]⟩ ![] h0N (constant (F := Ideal) ⟨0, ![]⟩ .f32 ew)))))))
        (broadcastInDim ⟨2, ![M, N]⟩ ![0, 1] hB g))
      (broadcastInDim ⟨2, ![M, N]⟩ ![0, 1] hB b))
    (broadcastInDim ⟨2, ![M, N]⟩ ![] h0MN (constant (F := Ideal) ⟨0, ![]⟩ .f32 0x00000000#32))

theorem hBn_eq (hr : (⟨2, ![M, N]⟩ : Shape).Reduces [0] ⟨1, ![N]⟩) (hpos : (0 : EReal) < Ideal.ofBits .f32 cw) (h : FVec Ideal ⟨2, ![M, N]⟩ .f32) (g b : FVec Ideal ⟨2, ![1, N]⟩ .f32) :
    hBn M N hrt hS hB hR h0N h01N h0MN cw ew nw h g b = bnRelu M N (Ideal.ofBits .f32 cw) (Ideal.ofBits .f32 ew) h g b := by
  funext j
  obtain ⟨p, q, rfl⟩ : ∃ (p : Fin M) (q : Fin N), j = ix2 p q := ⟨j 0, j 1, eq_ix2 j⟩
  unfold hBn
  rw [bnRelu_ix2, maximumf_apply, addf_apply, mulf_apply, mulf_apply, subf_apply, bcastRow_bcast_apply, bcastRow_bcast_apply,
    bcast_1b_ab_apply, bcast_1b_ab_apply, hMeanVec_apply M N (hr := hr), splat_apply, Ideal.ofBits_zero_f32]
  show max (_ * Ideal.rsqrt (hVarVec M N hrt hS hB hR h0N h01N cw nw h (ix1 q) + _) * _ + _) 0 = _
  rw [hVarVec_apply M N hrt hS hB hR h0N h01N cw nw hr hpos, splat_apply]

end HostBn

/-! ## Dense layers -/

/-- The plain product of an M × K by a K × N array. -/
def mm (M K N : Nat) (x : Mat M K) (w : Mat K N) : Mat M N :=
  fun i => ∑ k : Fin K, x (ix2 (i 0) k) * w (ix2 k (i 1))

/-- One row added to every row. -/
def addRow (M N : Nat) (x : Mat M N) (b : Mat 1 N) : Mat M N := fun i => x i + b (ix2 (0 : Fin 1) (i 1))

/-- A product followed by a row added to every row is the affine map. -/
theorem addRow_mm (M K N : Nat) (x : Mat M K) (w : Mat K N) (b : Mat 1 N) :
    addRow M N (mm M K N x w) b = affine M K N x w b := rfl

section DenseSpellings

variable (M K N : Nat) (hs : (⟨2, ![1, N]⟩ : Shape).ShapeCasts ⟨2, ![1, N]⟩)
  (hb : (⟨2, ![1, N]⟩ : Shape).Broadcasts ⟨2, ![M, N]⟩)
  (hB : (⟨2, ![1, N]⟩ : Shape).BroadcastsInDim ⟨2, ![M, N]⟩ ![0, 1]) {φ₁ φ₂ : FTy}

/-- A kernel body's product into the zero accumulator. -/
def kMm (l : FVec Ideal ⟨2, ![M, K]⟩ φ₁) (r : FVec Ideal ⟨2, ![K, N]⟩ φ₂) : FVec Ideal ⟨2, ![M, N]⟩ .f32 :=
  matmul (DotDims.plain M K N) none l r (constant ⟨2, ![M, N]⟩ .f32 0x00000000#32)

theorem kMm_eq (l : FVec Ideal ⟨2, ![M, K]⟩ φ₁) (r : FVec Ideal ⟨2, ![K, N]⟩ φ₂) : kMm M K N l r = mm M K N l r := by
  funext j
  obtain ⟨p, q, rfl⟩ : ∃ (p : Fin M) (q : Fin N), j = ix2 p q := ⟨j 0, j 1, eq_ix2 j⟩
  exact matmul_zero_apply M K N none l r p q

/-- A kernel body's bias: the row cast to its own shape, spread over the rows, added. -/
def kAddRow (x : FVec Ideal ⟨2, ![M, N]⟩ .f32) (b : FVec Ideal ⟨2, ![1, N]⟩ .f32) : FVec Ideal ⟨2, ![M, N]⟩ .f32 :=
  addf x (broadcastTo ⟨2, ![M, N]⟩ (shapeCast ⟨2, ![1, N]⟩ b hs) hb)

theorem kAddRow_eq (x : FVec Ideal ⟨2, ![M, N]⟩ .f32) (b : FVec Ideal ⟨2, ![1, N]⟩ .f32) :
    kAddRow M N hs hb x b = addRow M N x b := by
  funext j
  obtain ⟨p, q, rfl⟩ : ∃ (p : Fin M) (q : Fin N), j = ix2 p q := ⟨j 0, j 1, eq_ix2 j⟩
  unfold kAddRow
  rw [addf_apply, biasRow_apply]
  rfl

/-- A host program's dense layer: dot_general plus the bias row broadcast over the rows. -/
def hDense (l : FVec Ideal ⟨2, ![M, K]⟩ .f32) (r : FVec Ideal ⟨2, ![K, N]⟩ .f32) (b : FVec Ideal ⟨2, ![1, N]⟩ .f32) :
    FVec Ideal ⟨2, ![M, N]⟩ .f32 :=
  addf (Host.dotGeneral (DotDims.plain M K N) none l r) (broadcastInDim ⟨2, ![M, N]⟩ ![0, 1] hB b)

theorem hDense_eq (l : FVec Ideal ⟨2, ![M, K]⟩ .f32) (r : FVec Ideal ⟨2, ![K, N]⟩ .f32) (b : FVec Ideal ⟨2, ![1, N]⟩ .f32) :
    hDense M K N hB l r b = affine M K N l r b := by
  funext j
  obtain ⟨p, q, rfl⟩ : ∃ (p : Fin M) (q : Fin N), j = ix2 p q := ⟨j 0, j 1, eq_ix2 j⟩
  unfold hDense
  rw [addf_apply, bcast_1b_ab_apply, affine_ix2]
  exact congrArg (· + b (ix2 (0 : Fin 1) q)) (Cert.Lib.RowOps.dotGeneral_apply M K N none _ l r p q)

end DenseSpellings

/-- The head on the extended reals: three times (affine, normalise, positive part), then a last affine map; c is the
    number of rows as a float and eps the stabiliser, both given by their words. -/
def head (cw ew : BitVec 32) (z : Mat 2048 96) (W0 : Mat 96 128) (b0 g0 be0 : Mat 1 128) (W1 : Mat 128 64) (b1 g1 be1 : Mat 1 64)
    (W2 : Mat 64 32) (b2 g2 be2 : Mat 1 32) (W3 : Mat 32 1) (b3 : Mat 1 1) : Mat 2048 1 :=
  affine 2048 32 1
    (bnRelu 2048 32 (Ideal.ofBits .f32 cw) (Ideal.ofBits .f32 ew)
      (affine 2048 64 32
        (bnRelu 2048 64 (Ideal.ofBits .f32 cw) (Ideal.ofBits .f32 ew)
          (affine 2048 128 64
            (bnRelu 2048 128 (Ideal.ofBits .f32 cw) (Ideal.ofBits .f32 ew) (affine 2048 96 128 z W0 b0) g0 be0) W1 b1)
          g1 be1) W2 b2)
      g2 be2) W3 b3

/-- The word 0x45000000 is the real 2048. -/
theorem ofBits_2048 : Ideal.ofBits .f32 0x45000000#32 = ((2048 : ℝ) : EReal) := by
  simp [Ideal.ofBits, Ideal.ieee, -EReal.coe_mul]; norm_num

theorem ofBits_2048_pos : (0 : EReal) < Ideal.ofBits .f32 0x45000000#32 := by
  rw [ofBits_2048]; exact EReal.coe_pos.mpr (by norm_num)

end Cert.Head

end
-- ==== Proof.HeadKernel.lean ====
/-
  The head kernel's arithmetic is the head function: each of the body's three stretches — a dense layer, the batch
  statistics over the 2048 rows, the normalisation and the maximum with zero; the same followed by the next product; the
  next bias, the same normalisation and the last dense layer — read as the functions of HeadMath, and the one store
  of the body as their composition.
-/
import proofs.«141089_j11897059410621_1_alg».proof.Proof.Gen.KernelIdeal.Skeleton
import proofs.«141089_j11897059410621_1_alg».proof.Proof.HeadMath

noncomputable section

namespace Cert.KernelIdeal.Hand

open Idealize.ShloMosaic Idealize.ShloMosaic.ValueIdx Cert.Lib.RowOps Cert.Gnn Cert.Head
open Cert.KernelIdeal Cert.KernelIdeal.Facts₀ Cert.KernelIdeal.Facts

variable [Cert.KernelIdeal.Facts]

/-- The word of 2048 (the number of rows) and the word of the stabiliser 1e-5. -/
abbrev cW : BitVec 32 := 0x45000000#32
abbrev eW : BitVec 32 := 0x3727C5AC#32

/-- First stretch: dense 96 → 128, normalise, positive part. -/
theorem pay1_eq (v0 : Vec Ideal S2048x96 .f32) (v3 : Vec Ideal S96x128 .f32) (v6 v10 v12 : Vec Ideal S1x128 .f32) :
    Gen.k4_pay1 (F := Ideal) v0 v3 v6 v10 v12
      = bnRelu 2048 128 (Ideal.ofBits .f32 cW) (Ideal.ofBits .f32 eW) (affine 2048 96 128 v0 v3 v6) v10 v12 := by
  unfold Gen.k4_pay1
  refine ((kBn_eq 2048 128 reduces_S2048x128_S128 shapeCasts_S128_S1x128 shapeCasts_S1x128_S1x128 broadcasts_S1x128_S2048x128
      (.inl rfl) rfl cW eW _ v10 v12).trans
    (congrArg (fun h => bnRelu 2048 128 (Ideal.ofBits .f32 cW) (Ideal.ofBits .f32 eW) h v10 v12)
      ((kAddRow_eq 2048 128 shapeCasts_S1x128_S1x128 broadcasts_S1x128_S2048x128 _ v6).trans
        (congrArg (fun x => addRow 2048 128 x v6) (kMm_eq 2048 96 128 _ _))))).trans ?_
  rw [shapeCast_self]
  rfl

/-- Second stretch: dense 128 → 64, normalise, positive part, then the product with the next weights. -/
theorem pay2_eq (v40 : FVec Ideal S2048x128 .bf16) (v41 : Vec Ideal S128x64 .f32) (v44 v48 v50 : Vec Ideal S1x64 .f32)
    (v79 : Vec Ideal S64x32 .f32) :
    Gen.k4_pay2 (F := Ideal) v40 v41 v44 v48 v50 v79
      = mm 2048 64 32 (bnRelu 2048 64 (Ideal.ofBits .f32 cW) (Ideal.ofBits .f32 eW) (affine 2048 128 64 v40 v41 v44) v48 v50) v79 := by
  unfold Gen.k4_pay2
  refine (kMm_eq 2048 64 32 _ _).trans ?_
  refine congrArg (fun h => mm 2048 64 32 h v79) ?_
  exact (kBn_eq 2048 64 reduces_S2048x64_S64 shapeCasts_S64_S1x64 shapeCasts_S1x64_S1x64 broadcasts_S1x64_S2048x64
      (.inl rfl) rfl cW eW _ v48 v50).trans
    (congrArg (fun h => bnRelu 2048 64 (Ideal.ofBits .f32 cW) (Ideal.ofBits .f32 eW) h v48 v50)
      ((kAddRow_eq 2048 64 shapeCasts_S1x64_S1x64 broadcasts_S1x64_S2048x64 _ v44).trans
        (congrArg (fun x => addRow 2048 64 x v44) (kMm_eq 2048 128 64 _ _))))

/-- Third stretch: the bias of the 64 → 32 layer, normalise, positive part, then the last dense layer 32 → 1. -/
theorem pay3_eq (v81 : FVec Ideal S2048x32 .f32) (v82 v86 v88 : Vec Ideal S1x32 .f32) (v117 : Vec Ideal S32x1 .f32)
    (v120 : Vec Ideal S1x1 .f32) :
    Gen.k4_pay3 (F := Ideal) v81 v82 v86 v88 v117 v120
      = affine 2048 32 1 (bnRelu 2048 32 (Ideal.ofBits .f32 cW) (Ideal.ofBits .f32 eW) (addRow 2048 32 v81 v82) v86 v88) v117 v120 := by
  unfold Gen.k4_pay3
  refine (((kAddRow_eq 2048 1 shapeCasts_S1x1_S1x1 broadcasts_S1x1_S2048x1 _ v120).trans
    (congrArg (fun x => addRow 2048 1 x v120) (kMm_eq 2048 32 1 _ _))).trans (addRow_mm 2048 32 1 _ _ v120)).trans ?_
  refine congrArg (fun h => affine 2048 32 1 h v117 v120) ?_
  exact (kBn_eq 2048 32 reduces_S2048x32_S32 shapeCasts_S32_S1x32 shapeCasts_S1x32_S1x32 broadcasts_S1x32_S2048x32
      (.inl rfl) rfl cW eW _ v86 v88).trans
    (congrArg (fun h => bnRelu 2048 32 (Ideal.ofBits .f32 cW) (Ideal.ofBits .f32 eW) h v86 v88)
      (kAddRow_eq 2048 32 shapeCasts_S1x32_S1x32 broadcasts_S1x32_S2048x32 v81 v82))

/-- The three stretches composed are the head function. -/
theorem pay_chain (x0 : Vec Ideal S2048x96 .f32) (x1 : Vec Ideal S96x128 .f32) (x2 x3 x4 : Vec Ideal S1x128 .f32)
    (x5 : Vec Ideal S128x64 .f32) (x6 x7 x8 : Vec Ideal S1x64 .f32) (x9 : Vec Ideal S64x32 .f32) (x10 x11 x12 : Vec Ideal S1x32 .f32)
    (x13 : Vec Ideal S32x1 .f32) (x14 : Vec Ideal S1x1 .f32) :
    Gen.k4_pay3 (F := Ideal) (Gen.k4_pay2 (Gen.k4_pay1 x0 x1 x2 x3 x4) x5 x6 x7 x8 x9) x10 x11 x12 x13 x14
      = head cW eW x0 x1 x2 x3 x4 x5 x6 x7 x8 x9 x10 x11 x12 x13 x14 := by
  rw [pay3_eq, pay2_eq, pay1_eq]
  rfl

end Cert.KernelIdeal.Hand

end
-- ==== Proof.HeadSpec.lean ====
/-
  The reference's head, in its own spelling, is the head function: each dense layer (dot_general plus a broadcast bias
  row) is the affine map, each normalisation (reduce-add means, the variance under its select, rsqrt, scale, shift,
  maximum with a broadcast zero) is bnRelu, and the composition is Cert.Head.head.
-/
import proofs.«141089_j11897059410621_1_alg».proof.Proof.Spec
import proofs.«141089_j11897059410621_1_alg».proof.Proof.HeadMath

noncomputable section

namespace Cert.Head.SpecSide

open Idealize.ShloMosaic Idealize.ShloMosaic.ValueIdx Cert.Lib.RowOps Cert.Gnn Cert.Head
open Cert.ReferenceIdeal Cert.ReferenceIdeal.Facts₀ Cert.ReferenceIdeal.Facts

variable [Cert.ReferenceIdeal.Facts]

/-- The word of 2048 (the number of rows), of the stabiliser 1e-5, and of the select's unused branch. -/
abbrev cW : BitVec 32 := 0x45000000#32
abbrev eW : BitVec 32 := 0x3727C5AC#32
abbrev nW : BitVec 32 := 0x7FC00000#32

theorem dense0_eq (z : Spec.Arr Ideal S2048x96 .f32) (W : Spec.Arr Ideal S96x128 .f32) (br : Spec.Arr Ideal S1x128 .f32) :
    Spec.dense0 (F := Ideal) z W br = affine 2048 96 128 z W br :=
  hDense_eq 2048 96 128 bcast_S1x128_S2048x128_0_1 z W br

theorem dense1_eq (z : Spec.Arr Ideal S2048x128 .f32) (W : Spec.Arr Ideal S128x64 .f32) (br : Spec.Arr Ideal S1x64 .f32) :
    Spec.dense1 (F := Ideal) z W br = affine 2048 128 64 z W br :=
  hDense_eq 2048 128 64 bcast_S1x64_S2048x64_0_1 z W br

theorem dense2_eq (z : Spec.Arr Ideal S2048x64 .f32) (W : Spec.Arr Ideal S64x32 .f32) (br : Spec.Arr Ideal S1x32 .f32) :
    Spec.dense2 (F := Ideal) z W br = affine 2048 64 32 z W br :=
  hDense_eq 2048 64 32 bcast_S1x32_S2048x32_0_1 z W br

theorem dense3_eq (z : Spec.Arr Ideal S2048x32 .f32) (W : Spec.Arr Ideal S32x1 .f32) (br : Spec.Arr Ideal S1x1 .f32) :
    Spec.dense3 (F := Ideal) z W br = affine 2048 32 1 z W br :=
  hDense_eq 2048 32 1 bcast_S1x1_S2048x1_0_1 z W br

theorem bn128_eq (h : Spec.Arr Ideal S2048x128 .f32) (gr ber : Spec.Arr Ideal S1x128 .f32) :
    Spec.bn128 (F := Ideal) h gr ber = bnRelu 2048 128 (Ideal.ofBits .f32 cW) (Ideal.ofBits .f32 eW) h gr ber :=
  hBn_eq 2048 128 reducesTo_S2048x128_S128_d0 h_S_ bcast_S1x128_S2048x128_0_1 bcast_S128_S1x128_1 bcast_S_S128 bcast_S_S1x128
    bcast_S_S2048x128 cW eW nW (by decide) ofBits_2048_pos h gr ber

theorem bn64_eq (h : Spec.Arr Ideal S2048x64 .f32) (gr ber : Spec.Arr Ideal S1x64 .f32) :
    Spec.bn64 (F := Ideal) h gr ber = bnRelu 2048 64 (Ideal.ofBits .f32 cW) (Ideal.ofBits .f32 eW) h gr ber :=
  hBn_eq 2048 64 reducesTo_S2048x64_S64_d0 h_S_ bcast_S1x64_S2048x64_0_1 bcast_S64_S1x64_1 bcast_S_S64 bcast_S_S1x64
    bcast_S_S2048x64 cW eW nW (by decide) ofBits_2048_pos h gr ber

theorem bn32_eq (h : Spec.Arr Ideal S2048x32 .f32) (gr ber : Spec.Arr Ideal S1x32 .f32) :
    Spec.bn32 (F := Ideal) h gr ber = bnRelu 2048 32 (Ideal.ofBits .f32 cW) (Ideal.ofBits .f32 eW) h gr ber :=
  hBn_eq 2048 32 reducesTo_S2048x32_S32_d0 h_S_ bcast_S1x32_S2048x32_0_1 bcast_S32_S1x32_1 bcast_S_S32 bcast_S_S1x32
    bcast_S_S2048x32 cW eW nW (by decide) ofBits_2048_pos h gr ber

/-- The reference's head is the head function. -/
theorem mlpHead2_eq (z : Spec.Arr Ideal S2048x96 .f32) (W0 : Spec.Arr Ideal S96x128 .f32) (r0 g0 be0 : Spec.Arr Ideal S1x128 .f32)
    (W1 : Spec.Arr Ideal S128x64 .f32) (r1 g1 be1 : Spec.Arr Ideal S1x64 .f32) (W2 : Spec.Arr Ideal S64x32 .f32)
    (r2 g2 be2 : Spec.Arr Ideal S1x32 .f32) (W3 : Spec.Arr Ideal S32x1 .f32) (r3 : Spec.Arr Ideal S1x1 .f32) :
    Spec.mlpHead2 (F := Ideal) z W0 r0 g0 be0 W1 r1 g1 be1 W2 r2 g2 be2 W3 r3
      = head cW eW z W0 r0 g0 be0 W1 r1 g1 be1 W2 r2 g2 be2 W3 r3 := by
  unfold Spec.mlpHead2 head
  rw [dense0_eq, bn128_eq, dense1_eq, bn64_eq, dense2_eq, bn32_eq, dense3_eq]

end Cert.Head.SpecSide

end
-- ==== Proof.HeadFinal.lean ====
/-
  The value of the head region. Its grid has one point and every window's block is its whole array, so the one
  write-back of the output window writes the head function of the fifteen input arrays as the region finds them, and
  that block covers the output array: after the region the output array holds the head function of the inputs, which
  is the reference's head in its own spelling.
-/
import proofs.«141089_j11897059410621_1_alg».proof.Proof.Gen.KernelIdeal.Frame
import proofs.«141089_j11897059410621_1_alg».proof.Proof.Gen.ReferenceIdeal
import proofs.«141089_j11897059410621_1_alg».proof.Proof.HeadKernel
import proofs.«141089_j11897059410621_1_alg».proof.Proof.HeadSpec

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.Gnn Cert.Head
open Cert.KernelIdeal Cert.KernelIdeal.Facts₀ Cert.KernelIdeal.Facts

theorem hz : (![0, 0] : Fin 2 → Nat) = fun _ => 0 := funext fun a => by fin_cases a <;> rfl

/-- The body's one store, over the loaded blocks, is the head function of the blocks. -/
theorem out_eq (x0 : Vec Ideal S2048x96 .f32) (x1 : Vec Ideal S96x128 .f32) (x2 : Vec Ideal S1x128 .f32) (x3 : Vec Ideal S1x128 .f32) (x4 : Vec Ideal S1x128 .f32) (x5 : Vec Ideal S128x64 .f32) (x6 : Vec Ideal S1x64 .f32) (x7 : Vec Ideal S1x64 .f32) (x8 : Vec Ideal S1x64 .f32) (x9 : Vec Ideal S64x32 .f32) (x10 : Vec Ideal S1x32 .f32) (x11 : Vec Ideal S1x32 .f32) (x12 : Vec Ideal S1x32 .f32) (x13 : Vec Ideal S32x1 .f32) (x14 : Vec Ideal S1x1 .f32) :
    Gen.out4_15 (F := Ideal) x0 x1 x2 x3 x4 x5 x6 x7 x8 x9 x10 x11 x12 x13 x14 = head cW eW x0 x1 x2 x3 x4 x5 x6 x7 x8 x9 x10 x11 x12 x13 x14 := by
  unfold Gen.out4_15
  rw [View.canon_unit_zero hz]
  simp only [View.ld_unit_zero (S := S2048x96) hz, View.ld_unit_zero (S := S96x128) hz, View.ld_unit_zero (S := S1x128) hz, View.ld_unit_zero (S := S128x64) hz, View.ld_unit_zero (S := S1x64) hz, View.ld_unit_zero (S := S64x32) hz, View.ld_unit_zero (S := S1x32) hz, View.ld_unit_zero (S := S32x1) hz, View.ld_unit_zero (S := S1x1) hz]
  exact pay_chain x0 x1 x2 x3 x4 x5 x6 x7 x8 x9 x10 x11 x12 x13 x14

/-- Every index map of the region sends its one grid point to block (0, 0). -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0
    ∧ win4_13.index t (0 : Fin 2) = 0 ∧ win4_13.index t (1 : Fin 2) = 0
    ∧ win4_14.index t (0 : Fin 2) = 0 ∧ win4_14.index t (1 : Fin 2) = 0
    ∧ win4_15.index t (0 : Fin 2) = 0 ∧ win4_15.index t (1 : Fin 2) = 0 :=
  (by decide +kernel : ∀ t : Fin grid4.N, _)

section Blocks

variable (V : (c : Dev nD) → (b : Ref sig .tc) → Buf (Elt Ideal) ((c : Thread nD τ).loc b))

/-! Each input window's block at the one point is its whole array. -/

theorem iblk_eq_0 (c : Dev nD) (t : Fin cfg4.N) :
    Gen.iblk4 (F := Ideal) V c 0 t = V c (Pipeline.arrRef spec4 0) := by
  have hi := idx_facts t
  funext y
  show V c (Pipeline.arrRef spec4 0) (((cfg4.win 0).blk t).view.emb y) = V c (Pipeline.arrRef spec4 0) y
  refine congrArg (V c (Pipeline.arrRef spec4 0)) (funext fun a => Fin.ext ?_)
  match a with
  | ⟨0, _⟩ => show win4_0.index t (0 : Fin 2) * 2048 + 1 * (y 0).val = (y 0).val; omega
  | ⟨1, _⟩ => show win4_0.index t (1 : Fin 2) * 96 + 1 * (y 1).val = (y 1).val; omega

theorem iblk_eq_1 (c : Dev nD) (t : Fin cfg4.N) :
    Gen.iblk4 (F := Ideal) V c 1 t = V c (Pipeline.arrRef spec4 1) := by
  have hi := idx_facts t
  funext y
  show V c (Pipeline.arrRef spec4 1) (((cfg4.win 1).blk t).view.emb y) = V c (Pipeline.arrRef spec4 1) y
  refine congrArg (V c (Pipeline.arrRef spec4 1)) (funext fun a => Fin.ext ?_)
  match a with
  | ⟨0, _⟩ => show win4_1.index t (0 : Fin 2) * 96 + 1 * (y 0).val = (y 0).val; omega
  | ⟨1, _⟩ => show win4_1.index t (1 : Fin 2) * 128 + 1 * (y 1).val = (y 1).val; omega

theorem iblk_eq_2 (c : Dev nD) (t : Fin cfg4.N) :
    Gen.iblk4 (F := Ideal) V c 2 t = V c (Pipeline.arrRef spec4 2) := by
  have hi := idx_facts t
  funext y
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem iblk_eq_3 (c : Dev nD) (t : Fin cfg4.N) :
    Gen.iblk4 (F := Ideal) V c 3 t = V c (Pipeline.arrRef spec4 3) := by
  have hi := idx_facts t
  funext y
  show V c (Pipeline.arrRef spec4 3) (((cfg4.win 3).blk t).view.emb y) = V c (Pipeline.arrRef spec4 3) y
  refine congrArg (V c (Pipeline.arrRef spec4 3)) (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem iblk_eq_4 (c : Dev nD) (t : Fin cfg4.N) :
    Gen.iblk4 (F := Ideal) V c 4 t = V c (Pipeline.arrRef spec4 4) := by
  have hi := idx_facts t
  funext y
  show V c (Pipeline.arrRef spec4 4) (((cfg4.win 4).blk t).view.emb y) = V c (Pipeline.arrRef spec4 4) y
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

theorem iblk_eq_5 (c : Dev nD) (t : Fin cfg4.N) :
    Gen.iblk4 (F := Ideal) V c 5 t = V c (Pipeline.arrRef spec4 5) := by
  have hi := idx_facts t
  funext y
  show V c (Pipeline.arrRef spec4 5) (((cfg4.win 5).blk t).view.emb y) = V c (Pipeline.arrRef spec4 5) y
  refine congrArg (V c (Pipeline.arrRef spec4 5)) (funext fun a => Fin.ext ?_)
  match a with
  | ⟨0, _⟩ => show win4_5.index t (0 : Fin 2) * 128 + 1 * (y 0).val = (y 0).val; omega
  | ⟨1, _⟩ => show win4_5.index t (1 : Fin 2) * 64 + 1 * (y 1).val = (y 1).val; omega

theorem iblk_eq_6 (c : Dev nD) (t : Fin cfg4.N) :
    Gen.iblk4 (F := Ideal) V c 6 t = V c (Pipeline.arrRef spec4 6) := by
  have hi := idx_facts t
  funext y
  show V c (Pipeline.arrRef spec4 6) (((cfg4.win 6).blk t).view.emb y) = V c (Pipeline.arrRef spec4 6) y
  refine congrArg (V c (Pipeline.arrRef spec4 6)) (funext fun a => Fin.ext ?_)
  match a with
  | ⟨0, _⟩ => show win4_6.index t (0 : Fin 2) * 1 + 1 * (y 0).val = (y 0).val; omega
  | ⟨1, _⟩ => show win4_6.index t (1 : Fin 2) * 64 + 1 * (y 1).val = (y 1).val; omega

theorem iblk_eq_7 (c : Dev nD) (t : Fin cfg4.N) :
    Gen.iblk4 (F := Ideal) V c 7 t = V c (Pipeline.arrRef spec4 7) := by
  have hi := idx_facts t
  funext y
  show V c (Pipeline.arrRef spec4 7) (((cfg4.win 7).blk t).view.emb y) = V c (Pipeline.arrRef spec4 7) y
  refine congrArg (V c (Pipeline.arrRef spec4 7)) (funext fun a => Fin.ext ?_)
  match a with
  | ⟨0, _⟩ => show win4_7.index t (0 : Fin 2) * 1 + 1 * (y 0).val = (y 0).val; omega
  | ⟨1, _⟩ => show win4_7.index t (1 : Fin 2) * 64 + 1 * (y 1).val = (y 1).val; omega

theorem iblk_eq_8 (c : Dev nD) (t : Fin cfg4.N) :
    Gen.iblk4 (F := Ideal) V c 8 t = V c (Pipeline.arrRef spec4 8) := by
  have hi := idx_facts t
  funext y
  show V c (Pipeline.arrRef spec4 8) (((cfg4.win 8).blk t).view.emb y) = V c (Pipeline.arrRef spec4 8) y
  refine congrArg (V c (Pipeline.arrRef spec4 8)) (funext fun a => Fin.ext ?_)
  match a with
  | ⟨0, _⟩ => show win4_8.index t (0 : Fin 2) * 1 + 1 * (y 0).val = (y 0).val; omega
  | ⟨1, _⟩ => show win4_8.index t (1 : Fin 2) * 64 + 1 * (y 1).val = (y 1).val; omega

theorem iblk_eq_9 (c : Dev nD) (t : Fin cfg4.N) :
    Gen.iblk4 (F := Ideal) V c 9 t = V c (Pipeline.arrRef spec4 9) := by
  have hi := idx_facts t
  funext y
  show V c (Pipeline.arrRef spec4 9) (((cfg4.win 9).blk t).view.emb y) = V c (Pipeline.arrRef spec4 9) y
  refine congrArg (V c (Pipeline.arrRef spec4 9)) (funext fun a => Fin.ext ?_)
  match a with
  | ⟨0, _⟩ => show win4_9.index t (0 : Fin 2) * 64 + 1 * (y 0).val = (y 0).val; omega
  | ⟨1, _⟩ => show win4_9.index t (1 : Fin 2) * 32 + 1 * (y 1).val = (y 1).val; omega

theorem iblk_eq_10 (c : Dev nD) (t : Fin cfg4.N) :
    Gen.iblk4 (F := Ideal) V c 10 t = V c (Pipeline.arrRef spec4 10) := by
  have hi := idx_facts t
  funext y
  show V c (Pipeline.arrRef spec4 10) (((cfg4.win 10).blk t).view.emb y) = V c (Pipeline.arrRef spec4 10) y
  refine congrArg (V c (Pipeline.arrRef spec4 10)) (funext fun a => Fin.ext ?_)
  match a with
  | ⟨0, _⟩ => show win4_10.index t (0 : Fin 2) * 1 + 1 * (y 0).val = (y 0).val; omega
  | ⟨1, _⟩ => show win4_10.index t (1 : Fin 2) * 32 + 1 * (y 1).val = (y 1).val; omega

theorem iblk_eq_11 (c : Dev nD) (t : Fin cfg4.N) :
    Gen.iblk4 (F := Ideal) V c 11 t = V c (Pipeline.arrRef spec4 11) := by
  have hi := idx_facts t
  funext y
  show V c (Pipeline.arrRef spec4 11) (((cfg4.win 11).blk t).view.emb y) = V c (Pipeline.arrRef spec4 11) y
  refine congrArg (V c (Pipeline.arrRef spec4 11)) (funext fun a => Fin.ext ?_)
  match a with
  | ⟨0, _⟩ => show win4_11.index t (0 : Fin 2) * 1 + 1 * (y 0).val = (y 0).val; omega
  | ⟨1, _⟩ => show win4_11.index t (1 : Fin 2) * 32 + 1 * (y 1).val = (y 1).val; omega

theorem iblk_eq_12 (c : Dev nD) (t : Fin cfg4.N) :
    Gen.iblk4 (F := Ideal) V c 12 t = V c (Pipeline.arrRef spec4 12) := by
  have hi := idx_facts t
  funext y
  show V c (Pipeline.arrRef spec4 12) (((cfg4.win 12).blk t).view.emb y) = V c (Pipeline.arrRef spec4 12) y
  refine congrArg (V c (Pipeline.arrRef spec4 12)) (funext fun a => Fin.ext ?_)
  match a with
  | ⟨0, _⟩ => show win4_12.index t (0 : Fin 2) * 1 + 1 * (y 0).val = (y 0).val; omega
  | ⟨1, _⟩ => show win4_12.index t (1 : Fin 2) * 32 + 1 * (y 1).val = (y 1).val; omega

theorem iblk_eq_13 (c : Dev nD) (t : Fin cfg4.N) :
    Gen.iblk4 (F := Ideal) V c 13 t = V c (Pipeline.arrRef spec4 13) := by
  have hi := idx_facts t
  funext y
  show V c (Pipeline.arrRef spec4 13) (((cfg4.win 13).blk t).view.emb y) = V c (Pipeline.arrRef spec4 13) y
  refine congrArg (V c (Pipeline.arrRef spec4 13)) (funext fun a => Fin.ext ?_)
  match a with
  | ⟨0, _⟩ => show win4_13.index t (0 : Fin 2) * 32 + 1 * (y 0).val = (y 0).val; omega
  | ⟨1, _⟩ => show win4_13.index t (1 : Fin 2) * 1 + 1 * (y 1).val = (y 1).val; omega

theorem iblk_eq_14 (c : Dev nD) (t : Fin cfg4.N) :
    Gen.iblk4 (F := Ideal) V c 14 t = V c (Pipeline.arrRef spec4 14) := by
  have hi := idx_facts t
  funext y
  show V c (Pipeline.arrRef spec4 14) (((cfg4.win 14).blk t).view.emb y) = V c (Pipeline.arrRef spec4 14) y
  refine congrArg (V c (Pipeline.arrRef spec4 14)) (funext fun a => Fin.ext ?_)
  match a with
  | ⟨0, _⟩ => show win4_14.index t (0 : Fin 2) * 1 + 1 * (y 0).val = (y 0).val; omega
  | ⟨1, _⟩ => show win4_14.index t (1 : Fin 2) * 1 + 1 * (y 1).val = (y 1).val; omega

/-- The head function of the fifteen input arrays as the region finds them. -/
def G4 (c : Dev nD) : Mat 2048 1 :=
  head cW eW (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14))

/-- What the one point writes back is the (whole-array) block of the head function of the inputs. -/
theorem flushed_eq (c : Dev nD) (t : Fin cfg4.N) :
    (Gen.dat4 (F := Ideal) V c).flushed 15 t = ((cfg4.win 15).blk t).view.read (Elt Ideal) (G4 V c) := by
  show (cfg4.win 15).cut (grid4.coords t) ((Gen.dat4 (F := Ideal) V c).after 15 t) = _
  rw [Gen.after4_15]
  refine (out_eq _ _ _ _ _ _ _ _ _ _ _ _ _ _ _).trans ?_
  rw [iblk_eq_0, iblk_eq_1, iblk_eq_2, iblk_eq_3, iblk_eq_4, iblk_eq_5, iblk_eq_6, iblk_eq_7, iblk_eq_8, iblk_eq_9, iblk_eq_10, iblk_eq_11, iblk_eq_12, iblk_eq_13, iblk_eq_14]
  have hi := idx_facts t
  funext y
  show G4 V c y = G4 V c (((cfg4.win 15).blk t).view.emb y)
  refine congrArg (G4 V c) (funext fun a => Fin.ext ?_)
  match a with
  | ⟨0, _⟩ => show (y 0).val = win4_15.index t (0 : Fin 2) * 2048 + 1 * (y 0).val; omega
  | ⟨1, _⟩ => show (y 1).val = win4_15.index t (1 : Fin 2) * 1 + 1 * (y 1).val; omega

end Blocks

/-- An index of the output array is in the point's block iff each coordinate is in the block's range. -/
theorem mem_blk15 (t : Fin cfg4.N) (i : S2048x1.Idx) :
    i ∈ ((cfg4.win 15).blk t).view.set ↔ ∀ a : Fin 2, win4_15.index t a * S2048x1.size a ≤ (i a).val ∧ (i a).val < win4_15.index t a * S2048x1.size a + S2048x1.size a := by
  show i ∈ ((View.whole main_v97).slice (win4_15.rect t)).set ↔ _
  rw [View.set_slice_whole, Rect.mem_set_unit]
  exact Iff.rfl

/-- The one block covers the output array. -/
theorem cover15 (i : S2048x1.Idx) : ∃ t : Fin cfg4.N, (cfg4.win 15).flush t = true ∧ i ∈ ((cfg4.win 15).blk t).view.set := by
  refine ⟨Gen.t4_0, Gen.flush4_15 Gen.t4_0, ?_⟩
  rw [mem_blk15]
  have hi := idx_facts Gen.t4_0
  intro a
  match a with
  | ⟨0, _⟩ =>
    show win4_15.index Gen.t4_0 (0 : Fin 2) * 2048 ≤ (i 0).val ∧ (i 0).val < win4_15.index Gen.t4_0 (0 : Fin 2) * 2048 + 2048
    have h0 : (i 0).val < 2048 := (i 0).isLt
    omega
  | ⟨1, _⟩ =>
    show win4_15.index Gen.t4_0 (1 : Fin 2) * 1 ≤ (i 1).val ∧ (i 1).val < win4_15.index Gen.t4_0 (1 : Fin 2) * 1 + 1
    have h1 : (i 1).val < 1 := (i 1).isLt
    omega

/-- The body's one store over the loaded blocks, in the reference's spelling. -/
theorem out4_eq (x0 : Vec Ideal S2048x96 .f32) (x1 : Vec Ideal S96x128 .f32) (x2 : Vec Ideal S1x128 .f32) (x3 : Vec Ideal S1x128 .f32) (x4 : Vec Ideal S1x128 .f32) (x5 : Vec Ideal S128x64 .f32) (x6 : Vec Ideal S1x64 .f32) (x7 : Vec Ideal S1x64 .f32) (x8 : Vec Ideal S1x64 .f32) (x9 : Vec Ideal S64x32 .f32) (x10 : Vec Ideal S1x32 .f32) (x11 : Vec Ideal S1x32 .f32) (x12 : Vec Ideal S1x32 .f32) (x13 : Vec Ideal S32x1 .f32) (x14 : Vec Ideal S1x1 .f32) :
    Gen.out4_15 (F := Ideal) x0 x1 x2 x3 x4 x5 x6 x7 x8 x9 x10 x11 x12 x13 x14 = Cert.Spec.mlpHead2 (F := Ideal) x0 x1 x2 x3 x4 x5 x6 x7 x8 x9 x10 x11 x12 x13 x14 :=
  (out_eq x0 x1 x2 x3 x4 x5 x6 x7 x8 x9 x10 x11 x12 x13 x14).trans (Cert.Head.SpecSide.mlpHead2_eq x0 x1 x2 x3 x4 x5 x6 x7 x8 x9 x10 x11 x12 x13 x14).symm

section Final

variable (V : (c : Dev nD) → (b : Ref sig .tc) → Buf (Elt Ideal) ((c : Thread nD τ).loc b))

/-- After the region the output array holds the head function of the fifteen input arrays as the region finds them. -/
theorem final4_head (c : Dev nD) : (Gen.dat4 (F := Ideal) V c).arrAt 15 cfg4.N = G4 V c :=
  (Gen.dat4 (F := Ideal) V c).arrAt_eq_of_cover 15 (G4 V c) (fun t _ => flushed_eq V c t) cover15

/-- … which is the reference's head, in its own spelling, of those arrays. -/
theorem final4 (c : Dev nD) :
    (Gen.dat4 (F := Ideal) V c).arrAt 15 cfg4.N
      = Cert.Spec.mlpHead2 (F := Ideal) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) :=
  (final4_head V c).trans (Cert.Head.SpecSide.mlpHead2_eq (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14))).symm

end Final

end Cert.KernelIdeal.Hand

end
-- ==== Proof.lean ====
/-
  Kernel against reference for a three-layer graph convolution with a pooled, batch-normalised head.
  Both programs compute, on the extended reals, ONE function of the 24 arguments (Proof/Spec.lean): the edge lists with
  self loops, the symmetric degree normalisation, three times (dense layer, sum of the scaled source rows into the
  destination rows, bias, max with zero), the mean per graph, and a head of three dense layers each followed by
  normalisation with the batch statistics of the 2048 rows, then a last dense layer. The kernel program computes the
  dense layers in five tiled regions (row blocks of 10000 for the node-wise layers, one block for the head): a matrix
  product into a zero accumulator is the plain sum, a change of float format is the identity, and the blocks tile the
  arrays, so each region's output array is the corresponding dense stage of the reference. Everything between the
  regions is the same host operations in both programs. No conjunct of the idealization ledger is owed.
-/
import proofs.«141089_j11897059410621_1_alg».proof.Defs
import proofs.«141089_j11897059410621_1_alg».proof.Proof.Gen.Kernel
import proofs.«141089_j11897059410621_1_alg».proof.Proof.Gen.Kernel.Frame
import proofs.«141089_j11897059410621_1_alg».proof.Proof.Gen.KernelIdeal
import proofs.«141089_j11897059410621_1_alg».proof.Proof.Gen.KernelIdeal.Frame
import proofs.«141089_j11897059410621_1_alg».proof.Proof.Gen.ReferenceIdeal
import proofs.«141089_j11897059410621_1_alg».proof.Proof.Gen.Pre_finite_inputs
import proofs.«141089_j11897059410621_1_alg».proof.Proof.Assemble
import proofs.«141089_j11897059410621_1_alg».proof.Proof.RefRunFrame
import proofs.«141089_j11897059410621_1_alg».proof.Proof.RefRunOut
import proofs.«141089_j11897059410621_1_alg».proof.Proof.HeadFinal

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, preserves,
    algebraic_of Cert.KernelIdeal.Hand.final4 (fun V => Cert.ReferenceIdeal.Hand.out_eq V)⟩

end Cert.Proof

end
